-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x512 : Shape := ⟨3, ![4, 2048, 512]⟩
abbrev S4x2048x2048 : Shape := ⟨3, ![4, 2048, 2048]⟩
abbrev S512 : Shape := ⟨1, ![512]⟩
abbrev S512x512 : Shape := ⟨2, ![512, 512]⟩
abbrev S2048x128 : Shape := ⟨2, ![2048, 128]⟩
abbrev S128 : Shape := ⟨1, ![128]⟩
abbrev S_ : Shape := ⟨0, ![]⟩

class Facts : Prop where
  bcast_S_S4x2048x512 : S_.BroadcastsInDim S4x2048x512 (![] : Fin 0 → Fin S4x2048x512.rank)
  reducesTo_S4x2048x512_S_d0_1_2 : S4x2048x512.ReducesTo [0, 1, 2] S_
  h_S_ : 0 < S_.numel
  bcast_S_S4x2048x2048 : S_.BroadcastsInDim S4x2048x2048 (![] : Fin 0 → Fin S4x2048x2048.rank)
  reducesTo_S4x2048x2048_S_d0_1_2 : S4x2048x2048.ReducesTo [0, 1, 2] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S2048x128 : S_.BroadcastsInDim S2048x128 (![] : Fin 0 → Fin S2048x128.rank)
  reducesTo_S2048x128_S_d0_1 : S2048x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S512x512 .f32) (main_arg8 : FVec F S2048x128 .f32) (main_arg9 : FVec F S128 .f32) (main_v33 : IVec S_ 1) : IVec S_ 1 :=
  let main_v34 : FVec F S512x512 .f32 := Host.absf main_arg7
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S2048x128 .f32 := Host.absf main_arg8
  let main_cst_14 : FVec F S_ .f32 := constant S_ .f32 0x7F800000#32
  let main_v40 : FVec F S2048x128 .f32 := broadcastInDim S2048x128 ![] bcast_S_S2048x128 main_cst_14
  let main_v41 : IVec S2048x128 1 := cmpf .olt main_v39 main_v40
  let main_c_15 : IVec S_ 1 := constantI S_ 1 1#1
  let main_v42 : IVec S_ 1 := (fun x v => Host.reduce IntOp.andi x v reducesTo_S2048x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg4 : FVec F S512x512 .f32) (main_arg5 : FVec F S512 .f32) (main_arg6 : FVec F S512 .f32) (main_arg7 : FVec F S512x512 .f32) (main_arg8 : FVec F S2048x128 .f32) (main_arg9 : FVec F S128 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_v33

def fn {F : FTy → Type} [FloatOps F] (main_arg0 : FVec F S4x2048x512 .f32) (main_arg1 : FVec F S4x2048x2048 .f32) (main_arg2 : FVec F S512 .f32) (main_arg3 : FVec F S512 .f32) (main_arg4 : FVec F S512x512 .f32) (main_arg5 : FVec F S512 .f32) (main_arg6 : FVec F S512 .f32) (main_arg7 : FVec F S512x512 .f32) (main_arg8 : FVec F S2048x128 .f32) (main_arg9 : FVec F S128 .f32) : IVec S_ 1 :=
  let main_v0 : FVec F S4x2048x512 .f32 := Host.absf main_arg0
  let main_cst : FVec F S_ .f32 := constant S_ .f32 0x7F800000#32
  let main_v1 : FVec F S4x2048x512 .f32 := broadcastInDim S4x2048x512 ![] bcast_S_S4x2048x512 main_cst
  let main_v2 : IVec S4x2048x512 1 := cmpf .olt main_v0 main_v1
  let main_c : IVec S_ 1 := constantI S_ 1 1#1
  let main_v3 : IVec S_ 1 := (fun x v => Host.reduce IntOp.andi x v reducesTo_S4x2048x512_S_d0_1_2 h_S_) main_v2 main_c
  let main_v4 : FVec F S4x2048x2048 .f32 := Host.absf main_arg1
  let main_cst_0 : FVec F S_ .f32 := constant S_ .f32 0x7F800000#32
  let main_v5 : FVec F S4x2048x2048 .f32 := broadcastInDim S4x2048x2048 ![] bcast_S_S4x2048x2048 main_cst_0
  let main_v6 : IVec S4x2048x2048 1 := cmpf .olt main_v4 main_v5
  let main_c_1 : IVec S_ 1 := constantI S_ 1 1#1
  let main_v7 : IVec S_ 1 := (fun x v => Host.reduce IntOp.andi x v reducesTo_S4x2048x2048_S_d0_1_2 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_arg8 main_arg9 main_v13 main_v16
-- ==== Kernel.lean ====
abbrev S4x2048x512 : Shape := ⟨3, ![4, 2048, 512]⟩
abbrev S4x2048x2048 : Shape := ⟨3, ![4, 2048, 2048]⟩
abbrev S512 : Shape := ⟨1, ![512]⟩
abbrev S512x512 : Shape := ⟨2, ![512, 512]⟩
abbrev S2048x128 : Shape := ⟨2, ![2048, 128]⟩
abbrev S128 : Shape := ⟨1, ![128]⟩
abbrev S1x512 : Shape := ⟨2, ![1, 512]⟩
abbrev S1x128 : Shape := ⟨2, ![1, 128]⟩
abbrev S4x1x128 : Shape := ⟨3, ![4, 1, 128]⟩
abbrev S4x128 : Shape := ⟨2, ![4, 128]⟩
abbrev S1x2048x512 : Shape := ⟨3, ![1, 2048, 512]⟩
abbrev S1x1024x2048 : Shape := ⟨3, ![1, 1024, 2048]⟩
abbrev S1x1x128 : Shape := ⟨3, ![1, 1, 128]⟩
abbrev S2048x512 : Shape := ⟨2, ![2048, 512]⟩
abbrev S2048x2048 : Shape := ⟨2, ![2048, 2048]⟩
abbrev S2048 : Shape := ⟨1, ![2048]⟩
abbrev S2048x1 : Shape := ⟨2, ![2048, 1]⟩
abbrev S1024x2048 : Shape := ⟨2, ![1024, 2048]⟩
abbrev S1024x512 : Shape := ⟨2, ![1024, 512]⟩
abbrev S1024 : Shape := ⟨1, ![1024]⟩
abbrev S1024x1 : Shape := ⟨2, ![1024, 1]⟩
abbrev S1x2048 : Shape := ⟨2, ![1, 2048]⟩

abbrev nBuf : Space → Nat
  | .hbm => 17
  | .vmem => 17
  | .smem => 0
  | _ => 0

abbrev bufTy : (tb : Table) → Fin (tcTables nBuf tb) → BufTy
  | .hbm, ⟨0, _⟩ => ⟨S4x2048x512, .f32⟩
  | .hbm, ⟨1, _⟩ => ⟨S4x2048x2048, .f32⟩
  | .hbm, ⟨2, _⟩ => ⟨S512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512, .f32⟩
  | .hbm, ⟨7, _⟩ => ⟨S512x512, .f32⟩
  | .hbm, ⟨8, _⟩ => ⟨S2048x128, .f32⟩
  | .hbm, ⟨9, _⟩ => ⟨S128, .f32⟩
  | .hbm, ⟨10, _⟩ => ⟨S1x512, .f32⟩
  | .hbm, ⟨11, _⟩ => ⟨S1x512, .f32⟩
  | .hbm, ⟨12, _⟩ => ⟨S1x512, .f32⟩
  | .hbm, ⟨13, _⟩ => ⟨S1x512, .f32⟩
  | .hbm, ⟨14, _⟩ => ⟨S1x128, .f32⟩
  | .hbm, ⟨15, _⟩ => ⟨S4x1x128, .f32⟩
  | .hbm, ⟨16, _⟩ => ⟨S4x128, .f32⟩
  | .local _ .vmem, ⟨0, _⟩ => ⟨S1x2048x512, .f32⟩
  | .local _ .vmem, ⟨1, _⟩ => ⟨S1x2048x512, .f32⟩
  | .local _ .vmem, ⟨2, _⟩ => ⟨S1x1024x2048, .f32⟩
  | .local _ .vmem, ⟨3, _⟩ => ⟨S1x1024x2048, .f32⟩
  | .local _ .vmem, ⟨4, _⟩ => ⟨S1x512, .f32⟩
  | .local _ .vmem, ⟨5, _⟩ => ⟨S1x512, .f32⟩
  | .local _ .vmem, ⟨6, _⟩ => ⟨S512x512, .f32⟩
  | .local _ .vmem, ⟨7, _⟩ => ⟨S1x512, .f32⟩
  | .local _ .vmem, ⟨8, _⟩ => ⟨S1x512, .f32⟩
  | .local _ .vmem, ⟨9, _⟩ => ⟨S512x512, .f32⟩
  | .local _ .vmem, ⟨10, _⟩ => ⟨S2048x128, .f32⟩
  | .local _ .vmem, ⟨11, _⟩ => ⟨S1x128, .f32⟩
  | .local _ .vmem, ⟨12, _⟩ => ⟨S1x1x128, .f32⟩
  | .local _ .vmem, ⟨13, _⟩ => ⟨S1x1x128, .f32⟩
  | .local _ .vmem, ⟨14, _⟩ => ⟨S2048x512, .bf16⟩
  | .local _ .vmem, ⟨15, _⟩ => ⟨S2048x512, .bf16⟩
  | .local _ .vmem, ⟨16, _⟩ => ⟨S2048x2048, .bf16⟩
  | _, _ => ⟨S4x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_v0 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨2, ![4, 2], ![false, false]⟩

def k0_off1 (i : grid0.Coords) : Fin 2 → Nat :=
  let arg1 : BitVec 32 := BitVec.ofNat 32 (i 1).val
  let c1024_i32 : BitVec 32 := 1024#32
  let v0 : BitVec 32 := Scalar.muli arg1 c1024_i32
  let v7 : Index := Scalar.indexCast v0
  let c0_3 : Index := 0#32
  ![v7.toNat, 0]
def k0_off2 (i : grid0.Coords) : Fin 2 → Nat :=
  let arg1 : BitVec 32 := BitVec.ofNat 32 (i 1).val
  let c1024_i32 : BitVec 32 := 1024#32
  let v0 : BitVec 32 := Scalar.muli arg1 c1024_i32
  let v46 : Index := Scalar.indexCast v0
  let c0_19 : Index := 0#32
  ![v46.toNat, 0]
def k0_cond2 (i : grid0.Coords) : BitVec 1 :=
  let arg1 : BitVec 32 := BitVec.ofNat 32 (i 1).val
  let c1_i32 : BitVec 32 := 1#32
  let v50 : BitVec 1 := Scalar.cmpi .eq arg1 c1_i32
  let v51 : BitVec 32 := Scalar.extui v50
  let c0_i32_20 : BitVec 32 := 0#32
  let v52 : BitVec 1 := Scalar.cmpi .ne v51 c0_i32_20
  v52

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2048x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

class Facts₀ : Prop where
  shapeCasts_S512_S1x512 : S512.ShapeCasts S1x512
  shapeCasts_S128_S1x128 : S128.ShapeCasts S1x128
  shapeCasts_S4x1x128_S4x128 : S4x1x128.ShapeCasts S4x128
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  reduces_S2048x512_S2048 : S2048x512.Reduces [1] S2048
  shapeCasts_S2048_S2048x1 : S2048.ShapeCasts S2048x1
  broadcasts_S2048x1_S2048x512 : S2048x1.Broadcasts S2048x512
  broadcasts_S1x512_S2048x512 : S1x512.Broadcasts S2048x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  packedbf16_S2048x512_S2048x512_0_0 : (Rect.unit (s := S2048x512) ![0, 0] S2048x512.size inb_S2048x512_S2048x512_0_0).PackedRows (EltTy.packing .bf16)
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  h_S1024x2048 : 0 < S1024x2048.numel
  shapeCasts_S1024x2048_S1024x2048 : S1024x2048.ShapeCasts S1024x2048
  reduces_S1024x512_S1024 : S1024x512.Reduces [1] S1024
  shapeCasts_S1024_S1024x1 : S1024.ShapeCasts S1024x1
  broadcasts_S1024x1_S1024x512 : S1024x1.Broadcasts S1024x512
  broadcasts_S1x512_S1024x512 : S1x512.Broadcasts S1024x512
  h_S1024x512 : 0 < S1024x512.numel
  shapeCasts_S1024x512_S1024x512 : S1024x512.ShapeCasts S1024x512
  inb_S2048x2048_S2048x2048_0_0 : ∀ a, (![0, 0] : Fin 2 → Nat) a + S2048x2048.size a ≤ S2048x2048.size a
  h_S2048x2048 : 0 < S2048x2048.numel
  shapeCasts_S2048_S1x2048 : S2048.ShapeCasts S1x2048
  inb_S2048x128_S2048x128_0_0 : ∀ a, (![0, 0] : Fin 2 → Nat) a + S2048x128.size a ≤ S2048x128.size a
  h_S2048x128 : 0 < S2048x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  dot_S2048x512_S512x512_S2048x512_1_0_0_1_n_n_wf : DotDims.WF S2048x512 S512x512 S2048x512 [1] [0] [0] [1] [] []
  dot_S1024x2048_S2048x512_S1024x512_1_0_0_1_n_n_wf : DotDims.WF S1024x2048 S2048x512 S1024x512 [1] [0] [0] [1] [] []
  dot_S1024x512_S512x512_S1024x512_1_0_0_1_n_n_wf : DotDims.WF S1024x512 S512x512 S1024x512 [1] [0] [0] [1] [] []
  dot_S2048x2048_S2048x512_S2048x512_1_0_0_1_n_n_wf : DotDims.WF S2048x2048 S2048x512 S2048x512 [1] [0] [0] [1] [] []
  dot_S1x2048_S2048x128_S1x128_1_0_0_1_n_n_wf : DotDims.WF S1x2048 S2048x128 S1x128 [1] [0] [0] [1] [] []
  hrank0 : 0 < grid0.rank
  k0_off1_inb : ∀ i : grid0.Coords, ∀ a, (k0_off1 i) a + S1024x2048.size a ≤ S2048x2048.size a
  k0_off1_packedbf16 : ∀ i : grid0.Coords, (Rect.unit (s := S2048x2048) (k0_off1 i) S1024x2048.size (k0_off1_inb i)).PackedRows (EltTy.packing .bf16)
  k0_off2_inb : ∀ i : grid0.Coords, ∀ a, (k0_off2 i) a + S1024x512.size a ≤ S2048x512.size a
  k0_off2_packedbf16 : ∀ i : grid0.Coords, (Rect.unit (s := S2048x512) (k0_off2 i) S1024x512.size (k0_off2_inb i)).PackedRows (EltTy.packing .bf16)
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x512.size a ≤ S4x2048x512.size a
  hwx0_0 : ∀ i : grid0.Coords, EltTy.bits .f32 = 32 ∨ (Rect.block (s := S4x2048x512) S1x2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x2048.size a ≤ S4x2048x2048.size a
  hwx0_1 : ∀ i : grid0.Coords, EltTy.bits .f32 = 32 ∨ (Rect.block (s := S4x2048x2048) S1x1024x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .f32 = 32 ∨ (Rect.block (s := S512x512) S512x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S512x512.size a
  hwx0_7 : ∀ i : grid0.Coords, EltTy.bits .f32 = 32 ∨ (Rect.block (s := S512x512) S512x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S2048x128.size a ≤ S2048x128.size a
  hwx0_8 : ∀ i : grid0.Coords, EltTy.bits .f32 = 32 ∨ (Rect.block (s := S2048x128) S2048x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x1x128.size a ≤ S4x1x128.size a
  hwx0_10 : ∀ i : grid0.Coords, EltTy.bits .f32 = 32 ∨ (Rect.block (s := S4x1x128) S1x1x128.size (cc0_transform_10 i) (hinb0_10 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S1024x2048_S2048x512_S1024x512_1_0_0_1_n_n : DotDims S1024x2048 S2048x512 S1024x512 where
  lhsContracting := [1]
  rhsContracting := [0]
  lhsNonContracting := [0]
  rhsNonContracting := [1]
  lhsBatch := []
  rhsBatch := []
  wf := dot_S1024x2048_S2048x512_S1024x512_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S2048x2048_S2048x512_S2048x512_1_0_0_1_n_n : DotDims S2048x2048 S2048x512 S2048x512 where
  lhsContracting := [1]
  rhsContracting := [0]
  lhsNonContracting := [0]
  rhsNonContracting := [1]
  lhsBatch := []
  rhsBatch := []
  wf := dot_S2048x2048_S2048x512_S2048x512_1_0_0_1_n_n_wf
def dot_S1x2048_S2048x128_S1x128_1_0_0_1_n_n : DotDims S1x2048 S2048x128 S1x128 where
  lhsContracting := [1]
  rhsContracting := [0]
  lhsNonContracting := [0]
  rhsNonContracting := [1]
  lhsBatch := []
  rhsBatch := []
  wf := dot_S1x2048_S2048x128_S1x128_1_0_0_1_n_n_wf

abbrev win0_0 : Pipeline.Window sig grid0 :=
  Pipeline.Window.ofSpec (Memref.whole main_arg0) S1x2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v1) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v2) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v3) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S512x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S2048x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_call0_v4) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_call0_v5) S1x1x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev idle0 : Fin 11 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k0_cond2 i == 1#1) | ⟨_ + 11, h⟩ => absurd h (Nat.not_lt.2 (Nat.le_add_left _ _))

class Facts : Prop extends Facts₀ where

variable [Facts]
-- ==== ReferenceIdeal.lean ====
abbrev S4x2048x512 : Shape := ⟨3, ![4, 2048, 512]⟩
abbrev S4x2048x2048 : Shape := ⟨3, ![4, 2048, 2048]⟩
abbrev S512 : Shape := ⟨1, ![512]⟩
abbrev S512x512 : Shape := ⟨2, ![512, 512]⟩
abbrev S2048x128 : Shape := ⟨2, ![2048, 128]⟩
abbrev S128 : Shape := ⟨1, ![128]⟩
abbrev S_ : Shape := ⟨0, ![]⟩
abbrev S4x2048 : Shape := ⟨2, ![4, 2048]⟩
abbrev S4x2048x1 : Shape := ⟨3, ![4, 2048, 1]⟩
abbrev S1x1x512 : Shape := ⟨3, ![1, 1, 512]⟩
abbrev S4x128 : Shape := ⟨2, ![4, 128]⟩
abbrev S1x128 : Shape := ⟨2, ![1, 128]⟩

abbrev nBuf : Space → Nat
  | .hbm => 114
  | .vmem => 0
  | .smem => 0
  | _ => 0

abbrev bufTy : (tb : Table) → Fin (tcTables nBuf tb) → BufTy
  | .hbm, ⟨0, _⟩ => ⟨S4x2048x512, .f32⟩
  | .hbm, ⟨1, _⟩ => ⟨S4x2048x2048, .f32⟩
  | .hbm, ⟨2, _⟩ => ⟨S512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512, .f32⟩
  | .hbm, ⟨7, _⟩ => ⟨S512x512, .f32⟩
  | .hbm, ⟨8, _⟩ => ⟨S2048x128, .f32⟩
  | .hbm, ⟨9, _⟩ => ⟨S128, .f32⟩
  | .hbm, ⟨10, _⟩ => ⟨S_, .f32⟩
  | .hbm, ⟨11, _⟩ => ⟨S4x2048, .f32⟩
  | .hbm, ⟨12, _⟩ => ⟨S4x2048x1, .f32⟩
  | .hbm, ⟨13, _⟩ => ⟨S_, .f32⟩
  | .hbm, ⟨14, _⟩ => ⟨S4x2048x1, .f32⟩
  | .hbm, ⟨15, _⟩ => ⟨S4x2048x1, .f32⟩
  | .hbm, ⟨16, _⟩ => ⟨S_, .i32⟩
  | .hbm, ⟨17, _⟩ => ⟨S_, .f32⟩
  | .hbm, ⟨18, _⟩ => ⟨S4x2048, .f32⟩
  | .hbm, ⟨19, _⟩ => ⟨S4x2048x1, .f32⟩
  | .hbm, ⟨20, _⟩ => ⟨S_, .f32⟩
  | .hbm, ⟨21, _⟩ => ⟨S4x2048x1, .f32⟩
  | .hbm, ⟨22, _⟩ => ⟨S4x2048x1, .f32⟩
  | .hbm, ⟨23, _⟩ => ⟨S4x2048x512, .f32⟩
  | .hbm, ⟨24, _⟩ => ⟨S4x2048x512, .f32⟩
  | .hbm, ⟨25, _⟩ => ⟨S4x2048x512, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S4x2048, .f32⟩
  | .hbm, ⟨31, _⟩ => ⟨S4x2048x1, .f32⟩
  | .hbm, ⟨32, _⟩ => ⟨S4x2048x1, .f32⟩
  | .hbm, ⟨33, _⟩ => ⟨S4x2048x1, .f32⟩
  | .hbm, ⟨34, _⟩ => ⟨S_, .f32⟩
  | .hbm, ⟨35, _⟩ => ⟨S_, .i1⟩
  | .hbm, ⟨36, _⟩ => ⟨S_, .f32⟩
  | .hbm, ⟨37, _⟩ => ⟨S_, .f32⟩
  | .hbm, ⟨38, _⟩ => ⟨S4x2048x1, .f32⟩
  | .hbm, ⟨39, _⟩ => ⟨S4x2048x1, .f32⟩
  | .hbm, ⟨40, _⟩ => ⟨S4x2048x512, .f32⟩
  | .hbm, ⟨41, _⟩ => ⟨S4x2048x512, .f32⟩
  | .hbm, ⟨42, _⟩ => ⟨S1x1x512, .f32⟩
  | .hbm, ⟨43, _⟩ => ⟨S4x2048x512, .f32⟩
  | .hbm, ⟨44, _⟩ => ⟨S4x2048x512, .f32⟩
  | .hbm, ⟨45, _⟩ => ⟨S_, .f32⟩
  | .hbm, ⟨46, _⟩ => ⟨S4x2048x1, .f32⟩
  | .hbm, ⟨47, _⟩ => ⟨S4x2048x1, .f32⟩
  | .hbm, ⟨48, _⟩ => ⟨S4x2048x1, .f32⟩
  | .hbm, ⟨49, _⟩ => ⟨S4x2048x512, .f32⟩
  | .hbm, ⟨50, _⟩ => ⟨S4x2048x512, .f32⟩
  | .hbm, ⟨51, _⟩ => ⟨S1x1x512, .f32⟩
  | .hbm, ⟨52, _⟩ => ⟨S4x2048x512, .f32⟩
  | .hbm, ⟨53, _⟩ => ⟨S4x2048x512, .f32⟩
  | .hbm, ⟨54, _⟩ => ⟨S4x2048x512, .f32⟩
  | .hbm, ⟨55, _⟩ => ⟨S4x2048x512, .f32⟩
  | .hbm, ⟨56, _⟩ => ⟨S_, .f32⟩
  | .hbm, ⟨57, _⟩ => ⟨S4x2048x512, .f32⟩
  | .hbm, ⟨58, _⟩ => ⟨S4x2048x512, .f32⟩
  | .hbm, ⟨59, _⟩ => ⟨S_, .f32⟩
  | .hbm, ⟨60, _⟩ => ⟨S4x2048, .f32⟩
  | .hbm, ⟨61, _⟩ => ⟨S4x2048x1, .f32⟩
  | .hbm, ⟨62, _⟩ => ⟨S_, .f32⟩
  | .hbm, ⟨63, _⟩ => ⟨S4x2048x1, .f32⟩
  | .hbm, ⟨64, _⟩ => ⟨S4x2048x1, .f32⟩
  | .hbm, ⟨65, _⟩ => ⟨S_, .i32⟩
  | .hbm, ⟨66, _⟩ => ⟨S_, .f32⟩
  | .hbm, ⟨67, _⟩ => ⟨S4x2048, .f32⟩
  | .hbm, ⟨68, _⟩ => ⟨S4x2048x1, .f32⟩
  | .hbm, ⟨69, _⟩ => ⟨S_, .f32⟩
  | .hbm, ⟨70, _⟩ => ⟨S4x2048x1, .f32⟩
  | .hbm, ⟨71, _⟩ => ⟨S4x2048x1, .f32⟩
  | .hbm, ⟨72, _⟩ => ⟨S4x2048x512, .f32⟩
  | .hbm, ⟨73, _⟩ => ⟨S4x2048x512, .f32⟩
  | .hbm, ⟨74, _⟩ => ⟨S4x2048x512, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S4x2048, .f32⟩
  | .hbm, ⟨80, _⟩ => ⟨S4x2048x1, .f32⟩
  | .hbm, ⟨81, _⟩ => ⟨S4x2048x1, .f32⟩
  | .hbm, ⟨82, _⟩ => ⟨S4x2048x1, .f32⟩
  | .hbm, ⟨83, _⟩ => ⟨S_, .f32⟩
  | .hbm, ⟨84, _⟩ => ⟨S_, .i1⟩
  | .hbm, ⟨85, _⟩ => ⟨S_, .f32⟩
  | .hbm, ⟨86, _⟩ => ⟨S_, .f32⟩
  | .hbm, ⟨87, _⟩ => ⟨S4x2048x1, .f32⟩
  | .hbm, ⟨88, _⟩ => ⟨S4x2048x1, .f32⟩
  | .hbm, ⟨89, _⟩ => ⟨S4x2048x512, .f32⟩
  | .hbm, ⟨90, _⟩ => ⟨S4x2048x512, .f32⟩
  | .hbm, ⟨91, _⟩ => ⟨S1x1x512, .f32⟩
  | .hbm, ⟨92, _⟩ => ⟨S4x2048x512, .f32⟩
  | .hbm, ⟨93, _⟩ => ⟨S4x2048x512, .f32⟩
  | .hbm, ⟨94, _⟩ => ⟨S_, .f32⟩
  | .hbm, ⟨95, _⟩ => ⟨S4x2048x1, .f32⟩
  | .hbm, ⟨96, _⟩ => ⟨S4x2048x1, .f32⟩
  | .hbm, ⟨97, _⟩ => ⟨S4x2048x1, .f32⟩
  | .hbm, ⟨98, _⟩ => ⟨S4x2048x512, .f32⟩
  | .hbm, ⟨99, _⟩ => ⟨S4x2048x512, .f32⟩
  | .hbm, ⟨100, _⟩ => ⟨S1x1x512, .f32⟩
  | .hbm, ⟨101, _⟩ => ⟨S4x2048x512, .f32⟩
  | .hbm, ⟨102, _⟩ => ⟨S4x2048x512, .f32⟩
  | .hbm, ⟨103, _⟩ => ⟨S4x2048x512, .f32⟩
  | .hbm, ⟨104, _⟩ => ⟨S4x2048x512, .f32⟩
  | .hbm, ⟨105, _⟩ => ⟨S_, .f32⟩
  | .hbm, ⟨106, _⟩ => ⟨S4x2048x512, .f32⟩
  | .hbm, ⟨107, _⟩ => ⟨S4x2048x512, .f32⟩
  | .hbm, ⟨108, _⟩ => ⟨S_, .f32⟩
  | .hbm, ⟨109, _⟩ => ⟨S4x2048, .f32⟩
  | .hbm, ⟨110, _⟩ => ⟨S4x128, .f32⟩
  | .hbm, ⟨111, _⟩ => ⟨S1x128, .f32⟩
  | .hbm, ⟨112, _⟩ => ⟨S4x128, .f32⟩
  | .hbm, ⟨113, _⟩ => ⟨S4x128, .f32⟩
  | _, _ => ⟨S4x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_call0_cst : Ref sig .tc := ⟨.hbm, 17, rfl⟩
abbrev main_call0_v0 : Ref sig .tc := ⟨.hbm, 18, rfl⟩
abbrev main_call0_v1 : Ref sig .tc := ⟨.hbm, 19, rfl⟩
abbrev main_call0_cst_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_cst_1 : Ref sig .tc := ⟨.hbm, 27, rfl⟩
abbrev main_call0_v8 : Ref sig .tc := ⟨.hbm, 28, rfl⟩
abbrev main_call0_cst_2 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_v12 : Ref sig .tc := ⟨.hbm, 33, rfl⟩
abbrev main_call0_cst_3 : Ref sig .tc := ⟨.hbm, 34, rfl⟩
abbrev main_call0_v13 : Ref sig .tc := ⟨.hbm, 35, rfl⟩
abbrev main_call0_cst_4 : Ref sig .tc := ⟨.hbm, 36, rfl⟩
abbrev main_call0_call0_v0 : Ref sig .tc := ⟨.hbm, 37, rfl⟩
abbrev main_call0_call0_v1 : Ref sig .tc := ⟨.hbm, 38, rfl⟩
abbrev main_v4 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_cst_1 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_call1_cst : Ref sig .tc := ⟨.hbm, 56, rfl⟩
abbrev main_call1_v0 : Ref sig .tc := ⟨.hbm, 57, rfl⟩
abbrev main_v20 : Ref sig .tc := ⟨.hbm, 58, rfl⟩
abbrev main_cst_2 : Ref sig .tc := ⟨.hbm, 59, rfl⟩
abbrev main_v21 : Ref sig .tc := ⟨.hbm, 60, rfl⟩
abbrev main_v22 : Ref sig .tc := ⟨.hbm, 61, rfl⟩
abbrev main_cst_3 : Ref sig .tc := ⟨.hbm, 62, rfl⟩
abbrev main_v23 : Ref sig .tc := ⟨.hbm, 63, rfl⟩
abbrev main_v24 : Ref sig .tc := ⟨.hbm, 64, rfl⟩
abbrev main_c_4 : Ref sig .tc := ⟨.hbm, 65, rfl⟩
abbrev main_call2_cst : Ref sig .tc := ⟨.hbm, 66, rfl⟩
abbrev main_call2_v0 : Ref sig .tc := ⟨.hbm, 67, rfl⟩
abbrev main_call2_v1 : Ref sig .tc := ⟨.hbm, 68, rfl⟩
abbrev main_call2_cst_0 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_call2_v5 : Ref sig .tc := ⟨.hbm, 73, rfl⟩
abbrev main_call2_v6 : Ref sig .tc := ⟨.hbm, 74, rfl⟩
abbrev main_call2_v7 : Ref sig .tc := ⟨.hbm, 75, rfl⟩
abbrev main_call2_cst_1 : Ref sig .tc := ⟨.hbm, 76, rfl⟩
abbrev main_call2_v8 : Ref sig .tc := ⟨.hbm, 77, rfl⟩
abbrev main_call2_cst_2 : Ref sig .tc := ⟨.hbm, 78, rfl⟩
abbrev main_call2_v9 : Ref sig .tc := ⟨.hbm, 79, rfl⟩
abbrev main_call2_v10 : Ref sig .tc := ⟨.hbm, 80, rfl⟩
abbrev main_call2_v11 : Ref sig .tc := ⟨.hbm, 81, rfl⟩
abbrev main_call2_v12 : Ref sig .tc := ⟨.hbm, 82, rfl⟩
abbrev main_call2_cst_3 : Ref sig .tc := ⟨.hbm, 83, rfl⟩
abbrev main_call2_v13 : Ref sig .tc := ⟨.hbm, 84, rfl⟩
abbrev main_call2_cst_4 : Ref sig .tc := ⟨.hbm, 85, rfl⟩
abbrev main_call2_call0_v0 : Ref sig .tc := ⟨.hbm, 86, rfl⟩
abbrev main_call2_call0_v1 : Ref sig .tc := ⟨.hbm, 87, rfl⟩
abbrev main_v25 : Ref sig .tc := ⟨.hbm, 88, rfl⟩
abbrev main_v26 : Ref sig .tc := ⟨.hbm, 89, rfl⟩
abbrev main_v27 : Ref sig .tc := ⟨.hbm, 90, rfl⟩
abbrev main_v28 : Ref sig .tc := ⟨.hbm, 91, rfl⟩
abbrev main_v29 : Ref sig .tc := ⟨.hbm, 92, rfl⟩
abbrev main_v30 : Ref sig .tc := ⟨.hbm, 93, rfl⟩
abbrev main_cst_5 : Ref sig .tc := ⟨.hbm, 94, rfl⟩
abbrev main_v31 : Ref sig .tc := ⟨.hbm, 95, rfl⟩
abbrev main_v32 : Ref sig .tc := ⟨.hbm, 96, rfl⟩
abbrev main_v33 : Ref sig .tc := ⟨.hbm, 97, rfl⟩
abbrev main_v34 : Ref sig .tc := ⟨.hbm, 98, rfl⟩
abbrev main_v35 : Ref sig .tc := ⟨.hbm, 99, rfl⟩
abbrev main_v36 : Ref sig .tc := ⟨.hbm, 100, rfl⟩
abbrev main_v37 : Ref sig .tc := ⟨.hbm, 101, rfl⟩
abbrev main_v38 : Ref sig .tc := ⟨.hbm, 102, rfl⟩
abbrev main_v39 : Ref sig .tc := ⟨.hbm, 103, rfl⟩
abbrev main_v40 : Ref sig .tc := ⟨.hbm, 104, rfl⟩
abbrev main_call3_cst : Ref sig .tc := ⟨.hbm, 105, rfl⟩
abbrev main_call3_v0 : Ref sig .tc := ⟨.hbm, 106, rfl⟩
abbrev main_v41 : Ref sig .tc := ⟨.hbm, 107, rfl⟩
abbrev main_cst_6 : Ref sig .tc := ⟨.hbm, 108, rfl⟩
abbrev main_v42 : Ref sig .tc := ⟨.hbm, 109, rfl⟩
abbrev main_v43 : Ref sig .tc := ⟨.hbm, 110, rfl⟩
abbrev main_v44 : Ref sig .tc := ⟨.hbm, 111, rfl⟩
abbrev main_v45 : Ref sig .tc := ⟨.hbm, 112, rfl⟩
abbrev main_v46 : Ref sig .tc := ⟨.hbm, 113, rfl⟩

abbrev nD : Nat := 1
abbrev τ : Topo := Topo.v7x

variable {F : FTy → Type} [FloatOps F]

class Facts₀ : Prop where
  reducesTo_S4x2048x512_S4x2048_d2 : S4x2048x512.ReducesTo [2] S4x2048
  h_S_ : 0 < S_.numel
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x512_0_1_2 : S4x2048x1.BroadcastsInDim S4x2048x512 (![0, 1, 2] : Fin 3 → Fin S4x2048x512.rank)
  bcast_S512_S1x1x512_2 : S512.BroadcastsInDim S1x1x512 (![2] : Fin 1 → Fin S1x1x512.rank)
  bcast_S1x1x512_S4x2048x512_0_1_2 : S1x1x512.BroadcastsInDim S4x2048x512 (![0, 1, 2] : Fin 3 → Fin S4x2048x512.rank)
  bcast_S_S4x2048x512 : S_.BroadcastsInDim S4x2048x512 (![] : Fin 0 → Fin S4x2048x512.rank)
  bcast_S128_S1x128_1 : S128.BroadcastsInDim S1x128 (![1] : Fin 1 → Fin S1x128.rank)
  bcast_S1x128_S4x128_0_1 : S1x128.BroadcastsInDim S4x128 (![0, 1] : Fin 2 → Fin S4x128.rank)
  dot_S4x2048x512_S512x512_S4x2048x512_2_0_01_1_n_n_wf : DotDims.WF S4x2048x512 S512x512 S4x2048x512 [2] [0] [0, 1] [1] [] []
  dot_S4x2048x2048_S4x2048x512_S4x2048x512_2_1_1_2_0_0_wf : DotDims.WF S4x2048x2048 S4x2048x512 S4x2048x512 [2] [1] [1] [2] [0] [0]
  dot_S4x2048_S2048x128_S4x128_1_0_0_1_n_n_wf : DotDims.WF S4x2048 S2048x128 S4x128 [1] [0] [0] [1] [] []

variable [Facts₀]

def dot_S4x2048x512_S512x512_S4x2048x512_2_0_01_1_n_n : DotDims S4x2048x512 S512x512 S4x2048x512 where
  lhsContracting := [2]
  rhsContracting := [0]
  lhsNonContracting := [0, 1]
  rhsNonContracting := [1]
  lhsBatch := []
  rhsBatch := []
  wf := dot_S4x2048x512_S512x512_S4x2048x512_2_0_01_1_n_n_wf
def dot_S4x2048x2048_S4x2048x512_S4x2048x512_2_1_1_2_0_0 : DotDims S4x2048x2048 S4x2048x512 S4x2048x512 where
  lhsContracting := [2]
  rhsContracting := [1]
  lhsNonContracting := [1]
  rhsNonContracting := [2]
  lhsBatch := [0]
  rhsBatch := [0]
  wf := dot_S4x2048x2048_S4x2048x512_S4x2048x512_2_1_1_2_0_0_wf
def dot_S4x2048_S2048x128_S4x128_1_0_0_1_n_n : DotDims S4x2048 S2048x128 S4x128 where
  lhsContracting := [1]
  rhsContracting := [0]
  lhsNonContracting := [0]
  rhsNonContracting := [1]
  lhsBatch := []
  rhsBatch := []
  wf := dot_S4x2048_S2048x128_S4x128_1_0_0_1_n_n_wf

class Facts : Prop extends Facts₀ where

variable [Facts]
-- ==== Proof.BodyFacts.lean ====
/-
  What the runs of the kernel body are stated over.  The grid is 4 batch elements by 2 slabs of 1024 adjacency
  rows; point t is batch element t / 2, slab t % 2.  The body has two conditionals on the slab number: at slab 0 it
  normalises the features and multiplies them by W1 into the first scratch; at slab 1 it propagates the whole
  second layer and writes the batch element's output.  Both conditions are decided over the eight points.
-/
import proofs.«141913_g27616639713710_cont_9to1_58_35_alg».proof.Proof.Gen.KernelIdeal.Launch
import proofs.«141913_g27616639713710_cont_9to1_58_35_alg».proof.Proof.Gen.KernelIdeal.Skeleton
import proofs.«141913_g27616639713710_cont_9to1_58_35_alg».proof.Proof.Gen.KernelIdeal.Points
import proofs.«141913_g27616639713710_cont_9to1_58_35_alg».proof.Proof.Gen.KernelIdeal.Frame
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

/-- The first conditional's test: the slab number is 0. -/
abbrev isFirst (i : grid0.Coords) : Prop := (Scalar.cmpi .ne (Scalar.extui (Scalar.cmpi .eq (BitVec.ofNat 32 (i 1).val) 0#32)) 0#32) = 1#1
/-- It holds at the even points. -/
theorem isFirst_iff : ∀ t : Fin cfg0.N, isFirst (grid0.coords t) ↔ t.val % 2 = 0 :=
  (by decide +kernel : ∀ t : Fin grid0.N, isFirst (grid0.coords t) ↔ t.val % 2 = 0)

/-- The second conditional's test: the slab number is 1. -/
abbrev isLast (i : grid0.Coords) : Prop := k0_cond2 i = 1#1
/-- It holds at the odd points. -/
theorem isLast_iff : ∀ t : Fin cfg0.N, isLast (grid0.coords t) ↔ t.val % 2 = 1 :=
  (by decide +kernel : ∀ t : Fin grid0.N, isLast (grid0.coords t) ↔ t.val % 2 = 1)

/-- No input window is idle at any point. -/
theorem live : ∀ (w : Fin 11) (t : Fin cfg0.N), w.val ≠ 10 → cfg0.idle w (grid0.coords t) = false := by decide +kernel
/-- The output window is idle exactly at the even points: the body leaves its staging buffer as it finds it there. -/
theorem idleOut_iff : ∀ t : Fin cfg0.N, cfg0.idle 10 (grid0.coords t) = true ↔ t.val % 2 = 0 := by decide +kernel

/-- The current staging memref of each window at point `t`, and that it is a whole buffer. -/
abbrev mA0 (t : Fin cfg0.N) : Memref sig .tc .vmem S1x2048x512 .f32 := win0_0.stage (cfg0.slots t 0)
abbrev hA0 (t : Fin cfg0.N) : (mA0 t).IsWhole := hstage0_0 ((cfg0.slots t 0).cast nbuf0_0)
abbrev mA1 (t : Fin cfg0.N) : Memref sig .tc .vmem S1x1024x2048 .f32 := win0_1.stage (cfg0.slots t 1)
abbrev hA1 (t : Fin cfg0.N) : (mA1 t).IsWhole := hstage0_1 ((cfg0.slots t 1).cast nbuf0_1)
abbrev mA2 (t : Fin cfg0.N) : Memref sig .tc .vmem S1x512 .f32 := win0_2.stage (cfg0.slots t 2)
abbrev hA2 (t : Fin cfg0.N) : (mA2 t).IsWhole := hstage0_2 ((cfg0.slots t 2).cast nbuf0_2)
abbrev mA3 (t : Fin cfg0.N) : Memref sig .tc .vmem S1x512 .f32 := win0_3.stage (cfg0.slots t 3)
abbrev hA3 (t : Fin cfg0.N) : (mA3 t).IsWhole := hstage0_3 ((cfg0.slots t 3).cast nbuf0_3)
abbrev mA4 (t : Fin cfg0.N) : Memref sig .tc .vmem S512x512 .f32 := win0_4.stage (cfg0.slots t 4)
abbrev hA4 (t : Fin cfg0.N) : (mA4 t).IsWhole := hstage0_4 ((cfg0.slots t 4).cast nbuf0_4)
abbrev mA5 (t : Fin cfg0.N) : Memref sig .tc .vmem S1x512 .f32 := win0_5.stage (cfg0.slots t 5)
abbrev hA5 (t : Fin cfg0.N) : (mA5 t).IsWhole := hstage0_5 ((cfg0.slots t 5).cast nbuf0_5)
abbrev mA6 (t : Fin cfg0.N) : Memref sig .tc .vmem S1x512 .f32 := win0_6.stage (cfg0.slots t 6)
abbrev hA6 (t : Fin cfg0.N) : (mA6 t).IsWhole := hstage0_6 ((cfg0.slots t 6).cast nbuf0_6)
abbrev mA7 (t : Fin cfg0.N) : Memref sig .tc .vmem S512x512 .f32 := win0_7.stage (cfg0.slots t 7)
abbrev hA7 (t : Fin cfg0.N) : (mA7 t).IsWhole := hstage0_7 ((cfg0.slots t 7).cast nbuf0_7)
abbrev mA8 (t : Fin cfg0.N) : Memref sig .tc .vmem S2048x128 .f32 := win0_8.stage (cfg0.slots t 8)
abbrev hA8 (t : Fin cfg0.N) : (mA8 t).IsWhole := hstage0_8 ((cfg0.slots t 8).cast nbuf0_8)
abbrev mA9 (t : Fin cfg0.N) : Memref sig .tc .vmem S1x128 .f32 := win0_9.stage (cfg0.slots t 9)
abbrev hA9 (t : Fin cfg0.N) : (mA9 t).IsWhole := hstage0_9 ((cfg0.slots t 9).cast nbuf0_9)
abbrev mA10 (t : Fin cfg0.N) : Memref sig .tc .vmem S1x1x128 .f32 := win0_10.stage (cfg0.slots t 10)
abbrev hA10 (t : Fin cfg0.N) : (mA10 t).IsWhole := hstage0_10 ((cfg0.slots t 10).cast nbuf0_10)

/-- The three scratch buffers: the first layer's support, the second layer's support, the adjacency of the batch element. -/
abbrev sc1 : Memref sig .tc .vmem S2048x512 .bf16 := Memref.whole cc0_scratch0
abbrev sc2 : Memref sig .tc .vmem S2048x512 .bf16 := Memref.whole cc0_scratch1
abbrev scA : Memref sig .tc .vmem S2048x2048 .bf16 := Memref.whole cc0_scratch2

/-- What the launch hands the region besides the windows: the three scratch buffers at some contents and the generator register. -/
theorem PhiA_eq (c : Dev nD) :
    (Pipeline.ΦA spec0 c : sProp 𝕄)
      = iprop(iprop((∃ d, owns (c : Thread nD τ) sc1 fullShare d) ∗ (∃ d, owns (c : Thread nD τ) sc2 fullShare d) ∗ (∃ d, owns (c : Thread nD τ) scA fullShare d)) ∗ (∃ r, prngReg c r)) := by
  unfold Pipeline.ΦA; rw [scopedRest0_eq]; simp only [sc1, sc2, scA, owns_whole]; try rfl

end Cert.KernelIdeal.Body

end
-- ==== Proof.RunFirst.lean ====
/-
  The kernel body at a slab-0 point (the first conditional taken, the second not), run once on whole staging
  memrefs: the inputs at their blocks, the output's buffer at any contents `y`, the first scratch at anything, the
  other two scratch buffers at contents `z2`, `zA`.  It returns the inputs and the output's buffer as they were, the
  first scratch stored whole, and each of the other two with ONE store of 1024 rows on top of what it held; the
  stores are found by the run (the lists `L1`, `L2`, `LA`).
-/
import proofs.«141913_g27616639713710_cont_9to1_58_35_alg».proof.Proof.BodyFacts

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

set_option maxHeartbeats 1000000 in
noncomputable def runFirst (c : Dev nD) (i : grid0.Coords) (arg2 : Memref sig .tc .vmem S1x2048x512 .f32) (harg2 : arg2.IsWhole) (arg3 : Memref sig .tc .vmem S1x1024x2048 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x512 .f32) (harg9 : arg9.IsWhole) (arg10 : Memref sig .tc .vmem S2048x128 .f32) (harg10 : arg10.IsWhole) (arg11 : Memref sig .tc .vmem S1x128 .f32) (harg11 : arg11.IsWhole) (arg12 : Memref sig .tc .vmem S1x1x128 .f32) (harg12 : arg12.IsWhole) (arg13 : Memref sig .tc .vmem S2048x512 .bf16) (harg13 : arg13.IsWhole) (arg14 : Memref sig .tc .vmem S2048x512 .bf16) (harg14 : arg14.IsWhole) (arg15 : Memref sig .tc .vmem S2048x2048 .bf16) (harg15 : arg15.IsWhole) (hc0 : isFirst i) (hc1 : ¬isLast i)
    (x0 : Vec F S1x2048x512 .f32) (x1 : Vec F S1x1024x2048 .f32) (x2 : Vec F S1x512 .f32) (x3 : Vec F S1x512 .f32) (x4 : Vec F S512x512 .f32) (x5 : Vec F S1x512 .f32) (x6 : Vec F S1x512 .f32) (x7 : Vec F S512x512 .f32) (x8 : Vec F S2048x128 .f32) (x9 : Vec F S1x128 .f32) (y : Vec F S1x1x128 .f32) (z2 : Vec F S2048x512 .bf16) (zA : Vec F S2048x2048 .bf16) :
    Σ' (L1 : List (View.Piece (Elt F) S2048x512 .bf16)) (L2 : List (View.Piece (Elt F) S2048x512 .bf16)) (LA : List (View.Piece (Elt F) S2048x2048 .bf16)),
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare y ∗ (∃ d, owns (c : Thread nD τ) arg13 fullShare d) ∗ owns (c : Thread nD τ) arg14 fullShare z2 ∗ owns (c : Thread nD τ) arg15 fullShare zA
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare y
                ∗ (∃ f, arg13.view.loc (c : Thread nD τ) ↦[arg13.view.set]{fullShare} arg13.view.writes (Elt F) f L1)
                ∗ (∃ f, ⌜arg14.view.read (Elt F) f = z2⌝ ∗ arg14.view.loc (c : Thread nD τ) ↦[arg14.view.set]{fullShare} arg14.view.writes (Elt F) f L2)
                ∗ (∃ f, ⌜arg15.view.read (Elt F) f = zA⌝ ∗ arg15.view.loc (c : Thread nD τ) ↦[arg15.view.set]{fullShare} arg15.view.writes (Elt F) f LA)) -∗ K ⟨⟩))
          ⊢ wp frame (wpE (defs₀ (F := F)) Variants.none c none) E (cc0__gcn_body i arg2 harg2 arg3 harg3 arg4 harg4 arg5 harg5 arg6 harg6 arg7 harg7 arg8 harg8 arg9 harg9 arg10 harg10 arg11 harg11 arg12 harg12 arg13 harg13 arg14 harg14 arg15 harg15) K := by
  refine ⟨?_, ?_, ?_, fun E K => ?run⟩
  case run =>
    simp only [cc0__gcn_body_eq_skeleton]; unfold cc0__gcn_body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%ds0, %fs0, -, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [HS0]; · iexists _; iexact HS0
    isplitl [HS1]
    · iexists _; isplitr; · ipureintro; exact hfs1
      iexact HS1
    iexists _; isplitr; · ipureintro; exact hfs2
    iexact HS2

end Cert.KernelIdeal.Body

end
-- ==== Proof.PiecesFirst.lean ====
/-
  What the slab-0 run stores, store by store: the first scratch whole at the first layer's support; 1024 rows of the
  adjacency scratch at the slab's adjacency rows; 1024 rows of the second scratch at the slab's rows of the second
  layer's support, computed from the first scratch as just stored.  (A load of a whole staging buffer reads its
  contents; a whole-buffer load after one whole-buffer store reads the stored value.)
-/
import proofs.«141913_g27616639713710_cont_9to1_58_35_alg».proof.Proof.RunFirst
import Idealize.ShloMosaic.Lib.WritesUnit
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

theorem zeros3 : (![0, 0, 0] : Fin 3 → ℕ) = fun _ => 0 := funext fun a => by fin_cases a <;> rfl
theorem zeros2 : (![0, 0] : Fin 2 → ℕ) = fun _ => 0 := funext fun a => by fin_cases a <;> rfl

theorem firstLA (c : Dev nD) (i : grid0.Coords) (arg2 : Memref sig .tc .vmem S1x2048x512 .f32) (harg2 : arg2.IsWhole) (arg3 : Memref sig .tc .vmem S1x1024x2048 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x512 .f32) (harg9 : arg9.IsWhole) (arg10 : Memref sig .tc .vmem S2048x128 .f32) (harg10 : arg10.IsWhole) (arg11 : Memref sig .tc .vmem S1x128 .f32) (harg11 : arg11.IsWhole) (arg12 : Memref sig .tc .vmem S1x1x128 .f32) (harg12 : arg12.IsWhole) (arg13 : Memref sig .tc .vmem S2048x512 .bf16) (harg13 : arg13.IsWhole) (arg14 : Memref sig .tc .vmem S2048x512 .bf16) (harg14 : arg14.IsWhole) (arg15 : Memref sig .tc .vmem S2048x2048 .bf16) (harg15 : arg15.IsWhole) (hc0 : isFirst i) (hc1 : ¬isLast i)
    (x0 : Vec F S1x2048x512 .f32) (x1 : Vec F S1x1024x2048 .f32) (x2 : Vec F S1x512 .f32) (x3 : Vec F S1x512 .f32) (x4 : Vec F S512x512 .f32) (x5 : Vec F S1x512 .f32) (x6 : Vec F S1x512 .f32) (x7 : Vec F S512x512 .f32) (x8 : Vec F S2048x128 .f32) (x9 : Vec F S1x128 .f32) (y : Vec F S1x1x128 .f32) (z2 : Vec F S2048x512 .bf16) (zA : Vec F S2048x2048 .bf16) :
    (runFirst c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 y z2 zA).2.2.1 = [⟨Rect.unit (s := S2048x2048) (k0_off1 i) S1024x2048.size (k0_off1_inb i), k0_pay5 x1⟩] := by
  unfold runFirst
  dsimp only
  simp only [View.readAt_eq_ld, harg2.read_unread, harg3.read_unread, harg4.read_unread, harg5.read_unread, harg6.read_unread, harg7.read_unread, harg8.read_unread, harg9.read_unread, harg10.read_unread, harg11.read_unread, View.ld_unit_zero (S := S1x2048x512) zeros3, View.ld_unit_zero (S := S1x1024x2048) zeros3, View.ld_unit_zero (S := S1x512) zeros2, View.ld_unit_zero (S := S512x512) zeros2, View.ld_unit_zero (S := S2048x128) zeros2, View.ld_unit_zero (S := S1x128) zeros2]

theorem firstL1 (c : Dev nD) (i : grid0.Coords) (arg2 : Memref sig .tc .vmem S1x2048x512 .f32) (harg2 : arg2.IsWhole) (arg3 : Memref sig .tc .vmem S1x1024x2048 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x512 .f32) (harg9 : arg9.IsWhole) (arg10 : Memref sig .tc .vmem S2048x128 .f32) (harg10 : arg10.IsWhole) (arg11 : Memref sig .tc .vmem S1x128 .f32) (harg11 : arg11.IsWhole) (arg12 : Memref sig .tc .vmem S1x1x128 .f32) (harg12 : arg12.IsWhole) (arg13 : Memref sig .tc .vmem S2048x512 .bf16) (harg13 : arg13.IsWhole) (arg14 : Memref sig .tc .vmem S2048x512 .bf16) (harg14 : arg14.IsWhole) (arg15 : Memref sig .tc .vmem S2048x2048 .bf16) (harg15 : arg15.IsWhole) (hc0 : isFirst i) (hc1 : ¬isLast i)
    (x0 : Vec F S1x2048x512 .f32) (x1 : Vec F S1x1024x2048 .f32) (x2 : Vec F S1x512 .f32) (x3 : Vec F S1x512 .f32) (x4 : Vec F S512x512 .f32) (x5 : Vec F S1x512 .f32) (x6 : Vec F S1x512 .f32) (x7 : Vec F S512x512 .f32) (x8 : Vec F S2048x128 .f32) (x9 : Vec F S1x128 .f32) (y : Vec F S1x1x128 .f32) (z2 : Vec F S2048x512 .bf16) (zA : Vec F S2048x2048 .bf16) :
    (runFirst c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 y z2 zA).1 = [⟨Rect.unit (s := S2048x512) ![0, 0] S2048x512.size inb_S2048x512_S2048x512_0_0, k0_pay3 x0 x2 x3 x4⟩] := by
  unfold runFirst
  dsimp only
  sl_unfold_run_names
  simp only [View.readAt_eq_ld, harg2.read_unread, harg3.read_unread, harg4.read_unread, harg5.read_unread, harg6.read_unread, harg7.read_unread, harg8.read_unread, harg9.read_unread, harg10.read_unread, harg11.read_unread, View.ld_unit_zero (S := S1x2048x512) zeros3, View.ld_unit_zero (S := S1x1024x2048) zeros3, View.ld_unit_zero (S := S1x512) zeros2, View.ld_unit_zero (S := S512x512) zeros2, View.ld_unit_zero (S := S2048x128) zeros2, View.ld_unit_zero (S := S1x128) zeros2]

theorem firstL2 (c : Dev nD) (i : grid0.Coords) (arg2 : Memref sig .tc .vmem S1x2048x512 .f32) (harg2 : arg2.IsWhole) (arg3 : Memref sig .tc .vmem S1x1024x2048 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x512 .f32) (harg9 : arg9.IsWhole) (arg10 : Memref sig .tc .vmem S2048x128 .f32) (harg10 : arg10.IsWhole) (arg11 : Memref sig .tc .vmem S1x128 .f32) (harg11 : arg11.IsWhole) (arg12 : Memref sig .tc .vmem S1x1x128 .f32) (harg12 : arg12.IsWhole) (arg13 : Memref sig .tc .vmem S2048x512 .bf16) (harg13 : arg13.IsWhole) (arg14 : Memref sig .tc .vmem S2048x512 .bf16) (harg14 : arg14.IsWhole) (arg15 : Memref sig .tc .vmem S2048x2048 .bf16) (harg15 : arg15.IsWhole) (hc0 : isFirst i) (hc1 : ¬isLast i)
    (x0 : Vec F S1x2048x512 .f32) (x1 : Vec F S1x1024x2048 .f32) (x2 : Vec F S1x512 .f32) (x3 : Vec F S1x512 .f32) (x4 : Vec F S512x512 .f32) (x5 : Vec F S1x512 .f32) (x6 : Vec F S1x512 .f32) (x7 : Vec F S512x512 .f32) (x8 : Vec F S2048x128 .f32) (x9 : Vec F S1x128 .f32) (y : Vec F S1x1x128 .f32) (z2 : Vec F S2048x512 .bf16) (zA : Vec F S2048x2048 .bf16) :
    (runFirst c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 y z2 zA).2.1 = [⟨Rect.unit (s := S2048x512) (k0_off2 i) S1024x512.size (k0_off2_inb i),
      k0_pay1 (k0_pay7 x5) (k0_pay8 x6) (k0_pay10 x1 (k0_pay3 x0 x2 x3 x4)) (k0_pay11 x1 (k0_pay3 x0 x2 x3 x4)) x7⟩] := by
  unfold runFirst
  dsimp only
  sl_unfold_run_names
  simp only [View.readAt_eq_ld, harg2.read_unread, harg3.read_unread, harg4.read_unread, harg5.read_unread, harg6.read_unread, harg7.read_unread, harg8.read_unread, harg9.read_unread, harg10.read_unread, harg11.read_unread, View.ld_unit_zero (S := S1x2048x512) zeros3, View.ld_unit_zero (S := S1x1024x2048) zeros3, View.ld_unit_zero (S := S1x512) zeros2, View.ld_unit_zero (S := S512x512) zeros2, View.ld_unit_zero (S := S2048x128) zeros2, View.ld_unit_zero (S := S1x128) zeros2, View.readCov_unit_zero (S := S2048x512) arg13.view zeros2]

end Cert.KernelIdeal.Body

end
-- ==== Proof.RunSecond.lean ====
/-
  The kernel body at a slab-1 point (the first conditional not taken, the second taken), run once on whole staging
  memrefs: the inputs at their blocks, the output's buffer at anything, the three scratch buffers at contents `z1`,
  `z2`, `zA`.  It returns the inputs and the first scratch as they were, the second and third scratch each with ONE
  store of 1024 rows on top of what it held, and the output's buffer stored whole: its payload is computed from the
  second and third scratch READ BACK WHOLE after those stores.  The stores are found by the run.
-/
import proofs.«141913_g27616639713710_cont_9to1_58_35_alg».proof.Proof.BodyFacts

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

set_option maxHeartbeats 1000000 in
noncomputable def runSecond (c : Dev nD) (i : grid0.Coords) (arg2 : Memref sig .tc .vmem S1x2048x512 .f32) (harg2 : arg2.IsWhole) (arg3 : Memref sig .tc .vmem S1x1024x2048 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x512 .f32) (harg9 : arg9.IsWhole) (arg10 : Memref sig .tc .vmem S2048x128 .f32) (harg10 : arg10.IsWhole) (arg11 : Memref sig .tc .vmem S1x128 .f32) (harg11 : arg11.IsWhole) (arg12 : Memref sig .tc .vmem S1x1x128 .f32) (harg12 : arg12.IsWhole) (arg13 : Memref sig .tc .vmem S2048x512 .bf16) (harg13 : arg13.IsWhole) (arg14 : Memref sig .tc .vmem S2048x512 .bf16) (harg14 : arg14.IsWhole) (arg15 : Memref sig .tc .vmem S2048x2048 .bf16) (harg15 : arg15.IsWhole) (hc0 : ¬isFirst i) (hc1 : isLast i)
    (x0 : Vec F S1x2048x512 .f32) (x1 : Vec F S1x1024x2048 .f32) (x2 : Vec F S1x512 .f32) (x3 : Vec F S1x512 .f32) (x4 : Vec F S512x512 .f32) (x5 : Vec F S1x512 .f32) (x6 : Vec F S1x512 .f32) (x7 : Vec F S512x512 .f32) (x8 : Vec F S2048x128 .f32) (x9 : Vec F S1x128 .f32) (z1 : Vec F S2048x512 .bf16) (z2 : Vec F S2048x512 .bf16) (zA : Vec F S2048x2048 .bf16) :
    Σ' (LO : List (View.Piece (Elt F) S1x1x128 .f32)) (L2 : List (View.Piece (Elt F) S2048x512 .bf16)) (LA : List (View.Piece (Elt F) S2048x2048 .bf16)),
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ owns (c : Thread nD τ) arg13 fullShare z1 ∗ owns (c : Thread nD τ) arg14 fullShare z2 ∗ owns (c : Thread nD τ) arg15 fullShare zA
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
                ∗ (∃ f, arg12.view.loc (c : Thread nD τ) ↦[arg12.view.set]{fullShare} arg12.view.writes (Elt F) f LO)
                ∗ owns (c : Thread nD τ) arg13 fullShare z1
                ∗ (∃ f, ⌜arg14.view.read (Elt F) f = z2⌝ ∗ arg14.view.loc (c : Thread nD τ) ↦[arg14.view.set]{fullShare} arg14.view.writes (Elt F) f L2)
                ∗ (∃ f, ⌜arg15.view.read (Elt F) f = zA⌝ ∗ arg15.view.loc (c : Thread nD τ) ↦[arg15.view.set]{fullShare} arg15.view.writes (Elt F) f LA)) -∗ K ⟨⟩))
          ⊢ wp frame (wpE (defs₀ (F := F)) Variants.none c none) E (cc0__gcn_body i arg2 harg2 arg3 harg3 arg4 harg4 arg5 harg5 arg6 harg6 arg7 harg7 arg8 harg8 arg9 harg9 arg10 harg10 arg11 harg11 arg12 harg12 arg13 harg13 arg14 harg14 arg15 harg15) K := by
  refine ⟨?_, ?_, ?_, fun E K => ?run⟩
  case run =>
    simp only [cc0__gcn_body_eq_skeleton]; unfold cc0__gcn_body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    obtain rfl := harg13.eq_unread hfs0; obtain rfl := harg14.eq_unread hfs1; obtain rfl := harg15.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [HS0]
    · iexists _; isplitr; · ipureintro; exact harg13.read_unread _
      iexact HS0
    isplitl [HS1]
    · iexists _; isplitr; · ipureintro; exact harg14.read_unread _
      iexact HS1
    iexists _; isplitr; · ipureintro; exact harg15.read_unread _
    iexact HS2

end Cert.KernelIdeal.Body

end
-- ==== Proof.Carried.lean ====
/-
  What the kernel carries from point to point, and the pipeline's proof data.

  Within one batch element the slab-0 point leaves: the first scratch at the first layer's support `s1At` (the
  normalised features times W1, all 2048 rows), rows 0–1023 of the adjacency scratch at the slab's adjacency rows
  `adjAt`, and rows 0–1023 of the second scratch at the slab's rows of the second layer's support `s2At`; rows
  1024–2047 of those two buffers hold whatever they held.  The slab-1 point stores rows 1024–2047 of both, reads both
  back whole — the two halves `stack`ed — and writes the batch element's output `outAt`.  The output's staging
  buffer is left as found at the slab-0 points and written back after each slab-1 point.
-/
import proofs.«141913_g27616639713710_cont_9to1_58_35_alg».proof.Proof.BodyFacts
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-- Two blocks of 1024 rows, one above the other. -/
def stack {C : ℕ} {α : Type} (lo hi : (⟨2, ![1024, C]⟩ : Shape).Idx → α) : (⟨2, ![2048, C]⟩ : Shape).Idx → α :=
  fun y => if h : (y 0).val < 1024 then lo (ix2 ⟨(y 0).val, h⟩ (y 1))
    else hi (ix2 ⟨(y 0).val - 1024, by have h2 : (y 0).val < 2048 := (y 0).isLt; omega⟩ (y 1))

/-- Rows 0–1023 of `d` are `lo`. -/
def LowIs {C : ℕ} {α : Type} (d : (⟨2, ![2048, C]⟩ : Shape).Idx → α) (lo : (⟨2, ![1024, C]⟩ : Shape).Idx → α) : Prop :=
  ∀ (p : Fin 1024) (q : Fin C), d (ix2 ⟨p.val, by have := p.isLt; omega⟩ q) = lo (ix2 p q)

/-- The first layer's support at a point: the body's arithmetic of the point's feature block, scale, shift and W1. -/
def s1At (c : Dev nD) (t : Fin cfg0.N) : Vec F S2048x512 .bf16 :=
  k0_pay3 (iblk m c 0 t) (iblk m c 2 t) (iblk m c 3 t) (iblk m c 4 t)

/-- The point's slab of adjacency rows, as the body stores it. -/
def adjAt (c : Dev nD) (t : Fin cfg0.N) : Vec F S1024x2048 .bf16 := k0_pay5 (iblk m c 1 t)

/-- The point's slab of the second layer's support, over a first-layer support `s1`. -/
def s2At (c : Dev nD) (t : Fin cfg0.N) (s1 : Vec F S2048x512 .bf16) : Vec F S1024x512 .bf16 :=
  k0_pay1 (k0_pay7 (iblk m c 5 t)) (k0_pay8 (iblk m c 6 t)) (k0_pay10 (iblk m c 1 t) s1) (k0_pay11 (iblk m c 1 t) s1) (iblk m c 7 t)

/-- The point before (the point itself at the first). -/
def prev (t : Fin cfg0.N) : Fin cfg0.N := ⟨t.val - 1, Nat.lt_of_le_of_lt (Nat.sub_le _ _) t.isLt⟩

/-- What a slab-1 point writes to the output's staging buffer: the readout of the whole second layer, the two
    slabs of the adjacency and of the support stacked, the support computed from the slab-0 point's features. -/
def outAt (c : Dev nD) (t : Fin cfg0.N) : Vec F S1x1x128 .f32 :=
  k0_pay2 (stack (adjAt m c (prev t)) (adjAt m c t))
    (stack (s2At m c (prev t) (s1At m c (prev t))) (s2At m c t (s1At m c (prev t)))) (iblk m c 8 t) (iblk m c 9 t)

/-- The region invariant before position `n`: before the first point and after every slab-1 point the launch's
    (every scratch at anything); after a slab-0 point the first scratch at the first layer's support and the low rows
    of the other two at the slab's rows. -/
def PhiS (c : Dev nD) : (n : ℕ) → n ≤ cfg0.N → sProp 𝕄
  | 0, _ => Pipeline.ΦA spec0 c
  | n + 1, hn =>
    if n % 2 = 0 then
      iprop(iprop(owns (c : Thread nD τ) sc1 fullShare (s1At m c ⟨n, hn⟩)
          ∗ (∃ d, ⌜LowIs d (s2At m c ⟨n, hn⟩ (s1At m c ⟨n, hn⟩))⌝ ∗ owns (c : Thread nD τ) sc2 fullShare d)
          ∗ (∃ d, ⌜LowIs d (adjAt m c ⟨n, hn⟩)⌝ ∗ owns (c : Thread nD τ) scA fullShare d)) ∗ (∃ r, prngReg c r))
    else Pipeline.ΦA spec0 c

theorem PhiS_zero (c : Dev nD) (n : ℕ) (h : n ≤ cfg0.N) (hz : n = 0) : PhiS m c n h = Pipeline.ΦA spec0 c := by
  subst hz; rfl

theorem PhiS_succ_even (c : Dev nD) (n : ℕ) (hn : n < cfg0.N) (he : n % 2 = 0) :
    PhiS m c (n + 1) hn = iprop(iprop(owns (c : Thread nD τ) sc1 fullShare (s1At m c ⟨n, hn⟩)
          ∗ (∃ d, ⌜LowIs d (s2At m c ⟨n, hn⟩ (s1At m c ⟨n, hn⟩))⌝ ∗ owns (c : Thread nD τ) sc2 fullShare d)
          ∗ (∃ d, ⌜LowIs d (adjAt m c ⟨n, hn⟩)⌝ ∗ owns (c : Thread nD τ) scA fullShare d)) ∗ (∃ r, prngReg c r)) := by
  show (if n % 2 = 0 then _ else _) = _; rw [if_pos he]

theorem PhiS_succ_odd (c : Dev nD) (n : ℕ) (hn : n < cfg0.N) (ho : ¬ n % 2 = 0) :
    PhiS m c (n + 1) hn = Pipeline.ΦA spec0 c := by
  show (if n % 2 = 0 then _ else _) = _; rw [if_neg ho]

/-- Before an odd point: the slab-0 point before it left the scratch as named. -/
theorem PhiS_odd (c : Dev nD) (t : Fin cfg0.N) (ho : t.val % 2 = 1) :
    PhiS m c t.val (Nat.le_of_lt t.isLt) = iprop(iprop(owns (c : Thread nD τ) sc1 fullShare (s1At m c (prev t))
          ∗ (∃ d, ⌜LowIs d (s2At m c (prev t) (s1At m c (prev t)))⌝ ∗ owns (c : Thread nD τ) sc2 fullShare d)
          ∗ (∃ d, ⌜LowIs d (adjAt m c (prev t))⌝ ∗ owns (c : Thread nD τ) scA fullShare d)) ∗ (∃ r, prngReg c r)) := by
  obtain ⟨n, hn⟩ := t
  cases n with
  | zero => exact absurd ho (by show ¬ (0 % 2 = 1); omega)
  | succ n => exact PhiS_succ_even m c n (Nat.lt_of_succ_lt hn) (by simp only at ho; omega)

/-- Before an even point: the launch's invariant. -/
theorem PhiS_even (c : Dev nD) (t : Fin cfg0.N) (he : t.val % 2 = 0) :
    PhiS m c t.val (Nat.le_of_lt t.isLt) = Pipeline.ΦA spec0 c := by
  obtain ⟨n, hn⟩ := t
  cases n with
  | zero => rfl
  | succ n => exact PhiS_succ_odd m c n (Nat.lt_of_succ_lt hn) (by simp only at he; omega)

/-- The proof data of the one pipeline on core `c`: the arrays as the region finds them; after the body at point
    `t` each input's buffer at its block and the output's at `outAt` (asked only at the slab-1 points: at the others
    the window is idle); the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = outAt m c t := by dsimp only [dats]

theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d
theorem before3 (c : Dev nD) (t : Fin cfg0.N) (d) : (dats m 0 c).before 3 t d = iblk m c 3 t := before0_3_of m (dats m 0 c) (A_eq m c 3) (after3 m c) t d
theorem before4 (c : Dev nD) (t : Fin cfg0.N) (d) : (dats m 0 c).before 4 t d = iblk m c 4 t := before0_4_of m (dats m 0 c) (A_eq m c 4) (after4 m c) t d
theorem before5 (c : Dev nD) (t : Fin cfg0.N) (d) : (dats m 0 c).before 5 t d = iblk m c 5 t := before0_5_of m (dats m 0 c) (A_eq m c 5) (after5 m c) t d
theorem before6 (c : Dev nD) (t : Fin cfg0.N) (d) : (dats m 0 c).before 6 t d = iblk m c 6 t := before0_6_of m (dats m 0 c) (A_eq m c 6) (after6 m c) t d
theorem before7 (c : Dev nD) (t : Fin cfg0.N) (d) : (dats m 0 c).before 7 t d = iblk m c 7 t := before0_7_of m (dats m 0 c) (A_eq m c 7) (after7 m c) t d
theorem before8 (c : Dev nD) (t : Fin cfg0.N) (d) : (dats m 0 c).before 8 t d = iblk m c 8 t := before0_8_of m (dats m 0 c) (A_eq m c 8) (after8 m c) t d
theorem before9 (c : Dev nD) (t : Fin cfg0.N) (d) : (dats m 0 c).before 9 t d = iblk m c 9 t := before0_9_of m (dats m 0 c) (A_eq m c 9) (after9 m c) t d

end Cert.KernelIdeal.Body

end
-- ==== Proof.Slabs.lean ====
/-
  One store of 1024 whole rows into a buffer of 2048 rows, read back.  Stored at rows 0–1023 it makes the low rows
  the payload; stored at rows 1024–2047 over contents whose low rows are `lo` it makes the buffer `lo` stacked on
  the payload.
-/
import proofs.«141913_g27616639713710_cont_9to1_58_35_alg».proof.Proof.Carried
import Idealize.ShloMosaic.Lib.WritesUnit

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

open Idealize.ShloMosaic.ValueIdx

section
variable {C : ℕ} {e : EltTy} {κ : Kind} {sp : Space}
  (v : View sig κ sp (⟨2, ![2048, C]⟩ : Shape) e) (f : v.ty.Contents (Elt F))
  {off : Fin 2 → ℕ} (inb : ∀ a : Fin 2, off a + (![1024, C] : Fin 2 → ℕ) a ≤ (![2048, C] : Fin 2 → ℕ) a)
  (w : (Rect.unit (s := ⟨2, ![2048, C]⟩) off ![1024, C] inb).shape.Idx → Elt F e)

/-- Stored at row 0: the low rows are the payload. -/
theorem low_of_store (hoff : off = ![0, 0]) :
    LowIs (v.read (Elt F) (v.writes (Elt F) f [(⟨Rect.unit (s := ⟨2, ![2048, C]⟩) off ![1024, C] inb, w⟩ : View.Piece (Elt F) (⟨2, ![2048, C]⟩ : Shape) e)])) w := by
  intro p q
  exact View.read_writes_cons_rows_of_mem (d := ![2048, C]) v f inb w [] _ (ix2 p q) hoff (by show p.val = 0 + p.val; omega) rfl

/-- Stored at row 1024 over contents whose low rows are `lo`: `lo` stacked on the payload. -/
theorem stack_of_store (hoff : off = ![1024, 0]) (lo : (⟨2, ![1024, C]⟩ : Shape).Idx → Elt F e)
    (hlo : LowIs (v.read (Elt F) f) lo) :
    v.read (Elt F) (v.writes (Elt F) f [(⟨Rect.unit (s := ⟨2, ![2048, C]⟩) off ![1024, C] inb, w⟩ : View.Piece (Elt F) (⟨2, ![2048, C]⟩ : Shape) e)])
      = stack lo w := by
  funext y
  have hy : (y 0).val < 2048 := (y 0).isLt
  by_cases h : (y 0).val < 1024
  · rw [View.read_writes_cons_rows_of_not_mem (d := ![2048, C]) v f inb w [] y hoff (W := 1024) rfl (Or.inl h)]
    unfold stack; rw [dif_pos h]
    have := hlo ⟨(y 0).val, h⟩ (y 1)
    rw [View.writes_nil]
    refine Eq.trans (congrArg _ ?_) this
    exact (eq_ix2 y).trans rfl
  · unfold stack; rw [dif_neg h]
    exact View.read_writes_cons_rows_of_mem (d := ![2048, C]) v f inb w [] y _ hoff (by show (y 0).val = 1024 + ((y 0).val - 1024); omega) rfl
end

/-- One store through the whole shape at zero offsets, read back: the payload. -/
theorem whole_of_store {S : Shape} {e : EltTy} {κ : Kind} {sp : Space} (v : View sig κ sp S e) (f : v.ty.Contents (Elt F))
    {off : Fin S.rank → ℕ} (inb : ∀ a, off a + S.size a ≤ S.size a)
    (w : (Rect.unit (s := S) off S.size inb).shape.Idx → Elt F e) (hoff : off = fun _ => 0) :
    v.read (Elt F) (v.writes (Elt F) f [(⟨Rect.unit (s := S) off S.size inb, w⟩ : View.Piece (Elt F) S e)]) = w := by
  funext y
  exact View.read_writes_cons_unit_of_mem v f inb w [] y y hoff (fun a => by show (y a).val = 0 + (y a).val; omega)

end Cert.KernelIdeal.Body

end
-- ==== Proof.PiecesSecond.lean ====
/-
  What the slab-1 run stores, store by store: 1024 rows of the adjacency scratch and of the second scratch (the
  latter computed from the first scratch as it finds it), and the output's buffer whole, its payload computed from both
  scratch buffers read back whole AFTER those stores.  Stored at row 1024 over buffers whose low rows are known, the
  two buffers read back as the two slabs stacked.
-/
import proofs.«141913_g27616639713710_cont_9to1_58_35_alg».proof.Proof.RunSecond
import proofs.«141913_g27616639713710_cont_9to1_58_35_alg».proof.Proof.PiecesFirst
import proofs.«141913_g27616639713710_cont_9to1_58_35_alg».proof.Proof.Slabs

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

theorem secondLA (c : Dev nD) (i : grid0.Coords) (arg2 : Memref sig .tc .vmem S1x2048x512 .f32) (harg2 : arg2.IsWhole) (arg3 : Memref sig .tc .vmem S1x1024x2048 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x512 .f32) (harg9 : arg9.IsWhole) (arg10 : Memref sig .tc .vmem S2048x128 .f32) (harg10 : arg10.IsWhole) (arg11 : Memref sig .tc .vmem S1x128 .f32) (harg11 : arg11.IsWhole) (arg12 : Memref sig .tc .vmem S1x1x128 .f32) (harg12 : arg12.IsWhole) (arg13 : Memref sig .tc .vmem S2048x512 .bf16) (harg13 : arg13.IsWhole) (arg14 : Memref sig .tc .vmem S2048x512 .bf16) (harg14 : arg14.IsWhole) (arg15 : Memref sig .tc .vmem S2048x2048 .bf16) (harg15 : arg15.IsWhole) (hc0 : ¬isFirst i) (hc1 : isLast i)
    (x0 : Vec F S1x2048x512 .f32) (x1 : Vec F S1x1024x2048 .f32) (x2 : Vec F S1x512 .f32) (x3 : Vec F S1x512 .f32) (x4 : Vec F S512x512 .f32) (x5 : Vec F S1x512 .f32) (x6 : Vec F S1x512 .f32) (x7 : Vec F S512x512 .f32) (x8 : Vec F S2048x128 .f32) (x9 : Vec F S1x128 .f32) (z1 : Vec F S2048x512 .bf16) (z2 : Vec F S2048x512 .bf16) (zA : Vec F S2048x2048 .bf16) :
    (runSecond c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 z1 z2 zA).2.2.1 = [⟨Rect.unit (s := S2048x2048) (k0_off1 i) S1024x2048.size (k0_off1_inb i), k0_pay5 x1⟩] := by
  unfold runSecond
  dsimp only
  sl_unfold_run_names
  simp only [View.readAt_eq_ld, harg2.read_unread, harg3.read_unread, harg4.read_unread, harg5.read_unread, harg6.read_unread, harg7.read_unread, harg8.read_unread, harg9.read_unread, harg10.read_unread, harg11.read_unread, View.ld_unit_zero (S := S1x2048x512) zeros3, View.ld_unit_zero (S := S1x1024x2048) zeros3, View.ld_unit_zero (S := S1x512) zeros2, View.ld_unit_zero (S := S512x512) zeros2, View.ld_unit_zero (S := S2048x128) zeros2, View.ld_unit_zero (S := S1x128) zeros2, harg13.read_unread, View.ld_unit_zero (S := S2048x512) zeros2, View.ld_unit_zero (S := S2048x2048) zeros2]

theorem secondL2 (c : Dev nD) (i : grid0.Coords) (arg2 : Memref sig .tc .vmem S1x2048x512 .f32) (harg2 : arg2.IsWhole) (arg3 : Memref sig .tc .vmem S1x1024x2048 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x512 .f32) (harg9 : arg9.IsWhole) (arg10 : Memref sig .tc .vmem S2048x128 .f32) (harg10 : arg10.IsWhole) (arg11 : Memref sig .tc .vmem S1x128 .f32) (harg11 : arg11.IsWhole) (arg12 : Memref sig .tc .vmem S1x1x128 .f32) (harg12 : arg12.IsWhole) (arg13 : Memref sig .tc .vmem S2048x512 .bf16) (harg13 : arg13.IsWhole) (arg14 : Memref sig .tc .vmem S2048x512 .bf16) (harg14 : arg14.IsWhole) (arg15 : Memref sig .tc .vmem S2048x2048 .bf16) (harg15 : arg15.IsWhole) (hc0 : ¬isFirst i) (hc1 : isLast i)
    (x0 : Vec F S1x2048x512 .f32) (x1 : Vec F S1x1024x2048 .f32) (x2 : Vec F S1x512 .f32) (x3 : Vec F S1x512 .f32) (x4 : Vec F S512x512 .f32) (x5 : Vec F S1x512 .f32) (x6 : Vec F S1x512 .f32) (x7 : Vec F S512x512 .f32) (x8 : Vec F S2048x128 .f32) (x9 : Vec F S1x128 .f32) (z1 : Vec F S2048x512 .bf16) (z2 : Vec F S2048x512 .bf16) (zA : Vec F S2048x2048 .bf16) :
    (runSecond c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 z1 z2 zA).2.1 = [⟨Rect.unit (s := S2048x512) (k0_off2 i) S1024x512.size (k0_off2_inb i),
      k0_pay1 (k0_pay7 x5) (k0_pay8 x6) (k0_pay10 x1 z1) (k0_pay11 x1 z1) x7⟩] := by
  unfold runSecond
  dsimp only
  sl_unfold_run_names
  simp only [View.readAt_eq_ld, harg2.read_unread, harg3.read_unread, harg4.read_unread, harg5.read_unread, harg6.read_unread, harg7.read_unread, harg8.read_unread, harg9.read_unread, harg10.read_unread, harg11.read_unread, View.ld_unit_zero (S := S1x2048x512) zeros3, View.ld_unit_zero (S := S1x1024x2048) zeros3, View.ld_unit_zero (S := S1x512) zeros2, View.ld_unit_zero (S := S512x512) zeros2, View.ld_unit_zero (S := S2048x128) zeros2, View.ld_unit_zero (S := S1x128) zeros2, harg13.read_unread, View.ld_unit_zero (S := S2048x512) zeros2, View.ld_unit_zero (S := S2048x2048) zeros2]

theorem secondLO (c : Dev nD) (i : grid0.Coords) (arg2 : Memref sig .tc .vmem S1x2048x512 .f32) (harg2 : arg2.IsWhole) (arg3 : Memref sig .tc .vmem S1x1024x2048 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x512 .f32) (harg9 : arg9.IsWhole) (arg10 : Memref sig .tc .vmem S2048x128 .f32) (harg10 : arg10.IsWhole) (arg11 : Memref sig .tc .vmem S1x128 .f32) (harg11 : arg11.IsWhole) (arg12 : Memref sig .tc .vmem S1x1x128 .f32) (harg12 : arg12.IsWhole) (arg13 : Memref sig .tc .vmem S2048x512 .bf16) (harg13 : arg13.IsWhole) (arg14 : Memref sig .tc .vmem S2048x512 .bf16) (harg14 : arg14.IsWhole) (arg15 : Memref sig .tc .vmem S2048x2048 .bf16) (harg15 : arg15.IsWhole) (hc0 : ¬isFirst i) (hc1 : isLast i)
    (x0 : Vec F S1x2048x512 .f32) (x1 : Vec F S1x1024x2048 .f32) (x2 : Vec F S1x512 .f32) (x3 : Vec F S1x512 .f32) (x4 : Vec F S512x512 .f32) (x5 : Vec F S1x512 .f32) (x6 : Vec F S1x512 .f32) (x7 : Vec F S512x512 .f32) (x8 : Vec F S2048x128 .f32) (x9 : Vec F S1x128 .f32) (z1 : Vec F S2048x512 .bf16) (z2 : Vec F S2048x512 .bf16) (zA : Vec F S2048x2048 .bf16) :
    (runSecond c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 z1 z2 zA).1 = [⟨Rect.unit (s := S1x1x128) ![0, 0, 0] S1x1x128.size inb_S1x1x128_S1x1x128_0_0_0,
      k0_pay2
        (arg15.view.read (Elt F) (arg15.view.writes (Elt F) (harg15.unread zA)
          [⟨Rect.unit (s := S2048x2048) (k0_off1 i) S1024x2048.size (k0_off1_inb i), k0_pay5 x1⟩]))
        (arg14.view.read (Elt F) (arg14.view.writes (Elt F) (harg14.unread z2)
          [⟨Rect.unit (s := S2048x512) (k0_off2 i) S1024x512.size (k0_off2_inb i),
            k0_pay1 (k0_pay7 x5) (k0_pay8 x6) (k0_pay10 x1 z1) (k0_pay11 x1 z1) x7⟩]))
        x8 x9⟩] := by
  unfold runSecond
  dsimp only
  sl_unfold_run_names
  simp only [View.readAt_eq_ld, harg2.read_unread, harg3.read_unread, harg4.read_unread, harg5.read_unread, harg6.read_unread, harg7.read_unread, harg8.read_unread, harg9.read_unread, harg10.read_unread, harg11.read_unread, View.ld_unit_zero (S := S1x2048x512) zeros3, View.ld_unit_zero (S := S1x1024x2048) zeros3, View.ld_unit_zero (S := S1x512) zeros2, View.ld_unit_zero (S := S512x512) zeros2, View.ld_unit_zero (S := S2048x128) zeros2, View.ld_unit_zero (S := S1x128) zeros2, harg13.read_unread, View.ld_unit_zero (S := S2048x512) zeros2, View.ld_unit_zero (S := S2048x2048) zeros2]

/-- The output's buffer after the slab-1 run, when the two stores land at row 1024 over buffers whose low rows
    are `loA`, `lo2`: the readout of the two slabs stacked. -/
theorem secondOut (c : Dev nD) (i : grid0.Coords) (arg2 : Memref sig .tc .vmem S1x2048x512 .f32) (harg2 : arg2.IsWhole) (arg3 : Memref sig .tc .vmem S1x1024x2048 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x512 .f32) (harg9 : arg9.IsWhole) (arg10 : Memref sig .tc .vmem S2048x128 .f32) (harg10 : arg10.IsWhole) (arg11 : Memref sig .tc .vmem S1x128 .f32) (harg11 : arg11.IsWhole) (arg12 : Memref sig .tc .vmem S1x1x128 .f32) (harg12 : arg12.IsWhole) (arg13 : Memref sig .tc .vmem S2048x512 .bf16) (harg13 : arg13.IsWhole) (arg14 : Memref sig .tc .vmem S2048x512 .bf16) (harg14 : arg14.IsWhole) (arg15 : Memref sig .tc .vmem S2048x2048 .bf16) (harg15 : arg15.IsWhole) (hc0 : ¬isFirst i) (hc1 : isLast i)
    (x0 : Vec F S1x2048x512 .f32) (x1 : Vec F S1x1024x2048 .f32) (x2 : Vec F S1x512 .f32) (x3 : Vec F S1x512 .f32) (x4 : Vec F S512x512 .f32) (x5 : Vec F S1x512 .f32) (x6 : Vec F S1x512 .f32) (x7 : Vec F S512x512 .f32) (x8 : Vec F S2048x128 .f32) (x9 : Vec F S1x128 .f32) (z1 : Vec F S2048x512 .bf16) (z2 : Vec F S2048x512 .bf16) (zA : Vec F S2048x2048 .bf16) (eo : arg12.view.ty.Contents (Elt F))
    (hA : k0_off1 i = ![1024, 0]) (h2 : k0_off2 i = ![1024, 0])
    (loA : Vec F S1024x2048 .bf16) (lo2 : Vec F S1024x512 .bf16) (hloA : LowIs zA loA) (hlo2 : LowIs z2 lo2) :
    arg12.view.read (Elt F) (arg12.view.writes (Elt F) eo (runSecond c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 z1 z2 zA).1)
      = k0_pay2 (stack loA (k0_pay5 x1))
          (stack lo2 (k0_pay1 (k0_pay7 x5) (k0_pay8 x6) (k0_pay10 x1 z1) (k0_pay11 x1 z1) x7)) x8 x9 := by
  rw [secondLO]
  rw [whole_of_store _ _ _ _ zeros3]
  rw [stack_of_store arg15.view (harg15.unread zA) (k0_off1_inb i) (k0_pay5 x1) hA loA (by rw [harg15.read_unread]; exact hloA)]
  rw [stack_of_store arg14.view (harg14.unread z2) (k0_off2_inb i) _ h2 lo2 (by rw [harg14.read_unread]; exact hlo2)]

end Cert.KernelIdeal.Body

end
-- ==== Proof.Obligation.lean ====
/-
  The body obligation: at every point, from the invariant and every window's current buffer at what it then holds,
  the kernel body runs to the invariant at the next point and every buffer at what the proof data says it leaves.
  At a slab-0 point the launch's invariant is enough; the run stores the first scratch whole and the low rows of the
  other two, which is the next invariant; the output's buffer comes back as found.  At a slab-1 point the invariant
  names the first scratch and the low rows of the other two; the run stores their high rows, reads both back whole —
  the two slabs stacked — and stores the output's buffer whole at `outAt`.
-/
import proofs.«141913_g27616639713710_cont_9to1_58_35_alg».proof.Proof.PiecesFirst
import proofs.«141913_g27616639713710_cont_9to1_58_35_alg».proof.Proof.PiecesSecond
import proofs.«141913_g27616639713710_cont_9to1_58_35_alg».proof.Proof.Slabs

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

open Idealize.ShloMosaic.ValueIdx
open Idealize.ShloMosaic.Pipeline (BodyObligation)

variable (m : (ℓ : Loc nD τ sig) → Buf (Elt F) ℓ) (ρ : Dev nD → PrngReg)

/-- Where the two slab stores land: row 0 at the even points, row 1024 at the odd ones. -/
theorem offA_even : ∀ t : Fin cfg0.N, t.val % 2 = 0 → k0_off1 (grid0.coords t) = ![0, 0] :=
  (by decide +kernel : ∀ t : Fin grid0.N, t.val % 2 = 0 → k0_off1 (grid0.coords t) = ![0, 0])
theorem offA_odd : ∀ t : Fin cfg0.N, t.val % 2 = 1 → k0_off1 (grid0.coords t) = ![1024, 0] :=
  (by decide +kernel : ∀ t : Fin grid0.N, t.val % 2 = 1 → k0_off1 (grid0.coords t) = ![1024, 0])
theorem off2_even : ∀ t : Fin cfg0.N, t.val % 2 = 0 → k0_off2 (grid0.coords t) = ![0, 0] :=
  (by decide +kernel : ∀ t : Fin grid0.N, t.val % 2 = 0 → k0_off2 (grid0.coords t) = ![0, 0])
theorem off2_odd : ∀ t : Fin cfg0.N, t.val % 2 = 1 → k0_off2 (grid0.coords t) = ![1024, 0] :=
  (by decide +kernel : ∀ t : Fin grid0.N, t.val % 2 = 1 → k0_off2 (grid0.coords t) = ![1024, 0])

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (mA0 t) fullShare ((dats m 0 c).before 0 t d))
    ∗ (∃ d, owns (c : Thread nD τ) (mA1 t) fullShare ((dats m 0 c).before 1 t d))
    ∗ (∃ d, owns (c : Thread nD τ) (mA2 t) fullShare ((dats m 0 c).before 2 t d))
    ∗ (∃ d, owns (c : Thread nD τ) (mA3 t) fullShare ((dats m 0 c).before 3 t d))
    ∗ (∃ d, owns (c : Thread nD τ) (mA4 t) fullShare ((dats m 0 c).before 4 t d))
    ∗ (∃ d, owns (c : Thread nD τ) (mA5 t) fullShare ((dats m 0 c).before 5 t d))
    ∗ (∃ d, owns (c : Thread nD τ) (mA6 t) fullShare ((dats m 0 c).before 6 t d))
    ∗ (∃ d, owns (c : Thread nD τ) (mA7 t) fullShare ((dats m 0 c).before 7 t d))
    ∗ (∃ d, owns (c : Thread nD τ) (mA8 t) fullShare ((dats m 0 c).before 8 t d))
    ∗ (∃ d, owns (c : Thread nD τ) (mA9 t) fullShare ((dats m 0 c).before 9 t d))
    ∗ (∃ d, owns (c : Thread nD τ) (mA10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 9600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9]
  rw [show (dats m 0 c).owesAt () t.succ = (dats m 0 c).owesAt () t.castSucc from rfl]
  rw [show (dats m 0 c).Φ t.succ = PhiS m c (t.val + 1) t.isLt from rfl, Phi_castSucc]
  rw [show (dats m 0 c).leavesExact 0 t = owns (c : Thread nD τ) (mA0 t) fullShare ((dats m 0 c).after 0 t) from by
    unfold Dat.leavesExact; rw [live 0 t (by decide)], after0]
  rw [show (dats m 0 c).leavesExact 1 t = owns (c : Thread nD τ) (mA1 t) fullShare ((dats m 0 c).after 1 t) from by
    unfold Dat.leavesExact; rw [live 1 t (by decide)], after1]
  rw [show (dats m 0 c).leavesExact 2 t = owns (c : Thread nD τ) (mA2 t) fullShare ((dats m 0 c).after 2 t) from by
    unfold Dat.leavesExact; rw [live 2 t (by decide)], after2]
  rw [show (dats m 0 c).leavesExact 3 t = owns (c : Thread nD τ) (mA3 t) fullShare ((dats m 0 c).after 3 t) from by
    unfold Dat.leavesExact; rw [live 3 t (by decide)], after3]
  rw [show (dats m 0 c).leavesExact 4 t = owns (c : Thread nD τ) (mA4 t) fullShare ((dats m 0 c).after 4 t) from by
    unfold Dat.leavesExact; rw [live 4 t (by decide)], after4]
  rw [show (dats m 0 c).leavesExact 5 t = owns (c : Thread nD τ) (mA5 t) fullShare ((dats m 0 c).after 5 t) from by
    unfold Dat.leavesExact; rw [live 5 t (by decide)], after5]
  rw [show (dats m 0 c).leavesExact 6 t = owns (c : Thread nD τ) (mA6 t) fullShare ((dats m 0 c).after 6 t) from by
    unfold Dat.leavesExact; rw [live 6 t (by decide)], after6]
  rw [show (dats m 0 c).leavesExact 7 t = owns (c : Thread nD τ) (mA7 t) fullShare ((dats m 0 c).after 7 t) from by
    unfold Dat.leavesExact; rw [live 7 t (by decide)], after7]
  rw [show (dats m 0 c).leavesExact 8 t = owns (c : Thread nD τ) (mA8 t) fullShare ((dats m 0 c).after 8 t) from by
    unfold Dat.leavesExact; rw [live 8 t (by decide)], after8]
  rw [show (dats m 0 c).leavesExact 9 t = owns (c : Thread nD τ) (mA9 t) fullShare ((dats m 0 c).after 9 t) from by
    unfold Dat.leavesExact; rw [live 9 t (by decide)], after9]
  by_cases h0 : t.val % 2 = 0
  · have h1 : ¬t.val % 2 = 1 := by omega
    have hfl : (cfg0.win 10).flush t = false := by
      cases hf : (cfg0.win 10).flush t
      · rfl
      · exact absurd ((flush0_10 t).mp hf) h1
    rw [Dat.leavesExact_idle _ 10 t ((idleOut_iff t).mpr h0) hfl]
    rw [PhiS_even m c t h0, PhiS_succ_even m c t.val t.isLt h0, PhiA_eq]
    iintro ⟨⟨⟨HS0, ⟨%w2, HS1⟩, ⟨%wA, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((runFirst c (grid0.coords t) _ _ _ _ _ _ _ _ _ _ _ _ _ _ _ _ _ _ _ _ _ _ _ _ _ _ _ _ ((isFirst_iff t).mpr h0) (fun h => h1 ((isLast_iff t).mp h)) (iblk m c 0 t) (iblk m c 1 t) (iblk m c 2 t) (iblk m c 3 t) (iblk m c 4 t) (iblk m c 5 t) (iblk m c 6 t) (iblk m c 7 t) (iblk m c 8 t) (iblk m c 9 t) ((dats m 0 c).before 10 t d10) w2 wA).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS0]; · iexact HS0
    isplitl [HS1]; · iexact HS1
    isplitl [HS2]; · iexact HS2
    iintro ⟨H0, H1, H2, H3, H4, H5, H6, H7, H8, H9, H10, ⟨%e1, HS0⟩, ⟨%e2, %he2, HS1⟩, ⟨%eA, %heA, HS2⟩⟩
    isplitl [HS0 HS1 HS2 Hg]
    · isplitl [HS0 HS1 HS2]
      · isplitl [HS0]
        · unfold owns; iexists _; isplitr
          swap; · iexact HS0
          ipureintro
          rw [firstL1]
          exact whole_of_store _ _ _ _ zeros2
        isplitl [HS1]
        · iexists _; isplitr
          swap
          · unfold owns; iexists _; isplitr
            swap; · iexact HS1
            ipureintro; rfl
          ipureintro
          rw [firstL2]
          exact low_of_store _ _ _ _ (off2_even t h0)
        iexists _; isplitr
        swap
        · unfold owns; iexists _; isplitr
          swap; · iexact HS2
          ipureintro; rfl
        ipureintro
        rw [firstLA]
        exact low_of_store _ _ _ _ (offA_even t h0)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists d10; iexact H10
  · have h1 : t.val % 2 = 1 := by omega
    have hi : cfg0.idle 10 (grid0.coords t) = false := by
      cases hh : cfg0.idle 10 (grid0.coords t)
      · rfl
      · exact absurd ((idleOut_iff t).mp hh) h0
    rw [show (dats m 0 c).leavesExact 10 t = owns (c : Thread nD τ) (mA10 t) fullShare ((dats m 0 c).after 10 t) from by
      unfold Dat.leavesExact; rw [hi], after10]
    rw [PhiS_odd m c t h1, PhiS_succ_odd m c t.val t.isLt h0, PhiA_eq]
    iintro ⟨⟨⟨HS0, ⟨%w2, %hw2, HS1⟩, ⟨%wA, %hwA, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((runSecond c (grid0.coords t) _ _ _ _ _ _ _ _ _ _ _ _ _ _ _ _ _ _ _ _ _ _ _ _ _ _ _ _ (fun h => h0 ((isFirst_iff t).mp h)) ((isLast_iff t).mpr h1) (iblk m c 0 t) (iblk m c 1 t) (iblk m c 2 t) (iblk m c 3 t) (iblk m c 4 t) (iblk m c 5 t) (iblk m c 6 t) (iblk m c 7 t) (iblk m c 8 t) (iblk m c 9 t) (s1At m c (prev t)) w2 wA).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [HS0]; · iexact HS0
    isplitl [HS1]; · iexact HS1
    isplitl [HS2]; · iexact HS2
    iintro ⟨H0, H1, H2, H3, H4, H5, H6, H7, H8, H9, ⟨%eo, H10⟩, HS0, ⟨%e2, %he2, HS1⟩, ⟨%eA, %heA, HS2⟩⟩
    isplitl [HS0 HS1 HS2 Hg]
    · isplitl [HS0 HS1 HS2]
      · isplitl [HS0]; · iexists _; iexact HS0
        isplitl [HS1]
        · iexists _; unfold owns; iexists _; isplitr
          swap; · iexact HS1
          ipureintro; rfl
        iexists _; unfold owns; iexists _; isplitr
        swap; · iexact HS2
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    unfold owns; iexists _; isplitr
    swap; · iexact H10
    ipureintro
    exact secondOut c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (s1At m c (prev t)) w2 wA eo
      (offA_odd t h1) (off2_odd t h1) (adjAt m c (prev t)) (s2At m c (prev t) (s1At m c (prev t))) hwA hw2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any even number of points but none the invariant is the launch's. -/
theorem PhiS_of_pos_even (c : Dev nD) (n : ℕ) (h : n ≤ cfg0.N) (hz : n ≠ 0) (he : n % 2 = 0) :
    PhiS m c n h = Pipeline.ΦA spec0 c := by
  cases n with
  | zero => exact absurd rfl hz
  | succ k => exact PhiS_succ_odd m c k h (by omega)

/-- After the last point (a slab-1 point) the invariant is the launch's again. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_of_pos_even m c _ _ (by rw [Fin.val_last, show cfg0.N = 8 from N_0]; decide) (by rw [Fin.val_last, show cfg0.N = 8 from N_0])]
  try exact Idealize.SL.BI.Entails.refl _

end Cert.KernelIdeal.Body

end
-- ==== Proof.KRun.lean ====
/-
  The run of the whole program around its one region, from the body obligation: every weakly fair execution
  terminates, the windowed arrays end at what the write-backs make of them, every other buffer at what the host lines
  after the region compute; hence the frame (the argument arrays end unchanged), and the same run with the program's
  result named: the last host line's value over the output array.
-/
import proofs.«141913_g27616639713710_cont_9to1_58_35_alg».proof.Proof.Obligation

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs and its argument arrays end unchanged, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

/-- The same run with the result named: what the reshape after the region makes of the output array. -/
theorem run_named : θ_run defs (onTc (τ := τ) (main (F := F))) ⟨m, fun _ => 0, ρ⟩ (fun r => ∀ c : Dev nD,
      r.2.mem ((c.tc : Thread nD τ).loc main_v0) = Pipeline.afterTail₀ cfgs (dats m) 0 (V0 m) [hostOps1] c main_v0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c).2 main_v0 (Pipeline.mem_restRefs_of main_v0 (by decide) (by decide)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      ((h c).1 4).trans (((dats m 0 c).arrAt_in 4 rfl _).trans ((A_eq m c 4).trans (V_main_arg4 m c))),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c))),
      (((h c).2 main_arg9 (Pipeline.mem_restRefs_of main_arg9 (by decide) (by decide))).trans (W_main_arg9 m (dats m) c))⟩) (run_main m ρ)

end Cert.KernelIdeal.Body

end
-- ==== Proof.WBodyFacts.lean ====
/-
  What the runs of the kernel body are stated over.  The grid is 4 batch elements by 2 slabs of 1024 adjacency
  rows; point t is batch element t / 2, slab t % 2.  The body has two conditionals on the slab number: at slab 0 it
  normalises the features and multiplies them by W1 into the first scratch; at slab 1 it propagates the whole
  second layer and writes the batch element's output.  Both conditions are decided over the eight points.
-/
import proofs.«141913_g27616639713710_cont_9to1_58_35_alg».proof.Proof.Gen.Kernel.Launch
import proofs.«141913_g27616639713710_cont_9to1_58_35_alg».proof.Proof.Gen.Kernel.Skeleton
import proofs.«141913_g27616639713710_cont_9to1_58_35_alg».proof.Proof.Gen.Kernel.Points
import proofs.«141913_g27616639713710_cont_9to1_58_35_alg».proof.Proof.Gen.Kernel.Frame
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

/-- The first conditional's test: the slab number is 0. -/
abbrev isFirst (i : grid0.Coords) : Prop := (Scalar.cmpi .ne (Scalar.extui (Scalar.cmpi .eq (BitVec.ofNat 32 (i 1).val) 0#32)) 0#32) = 1#1
/-- It holds at the even points. -/
theorem isFirst_iff : ∀ t : Fin cfg0.N, isFirst (grid0.coords t) ↔ t.val % 2 = 0 :=
  (by decide +kernel : ∀ t : Fin grid0.N, isFirst (grid0.coords t) ↔ t.val % 2 = 0)

/-- The second conditional's test: the slab number is 1. -/
abbrev isLast (i : grid0.Coords) : Prop := k0_cond2 i = 1#1
/-- It holds at the odd points. -/
theorem isLast_iff : ∀ t : Fin cfg0.N, isLast (grid0.coords t) ↔ t.val % 2 = 1 :=
  (by decide +kernel : ∀ t : Fin grid0.N, isLast (grid0.coords t) ↔ t.val % 2 = 1)

/-- No input window is idle at any point. -/
theorem live : ∀ (w : Fin 11) (t : Fin cfg0.N), w.val ≠ 10 → cfg0.idle w (grid0.coords t) = false := by decide +kernel
/-- The output window is idle exactly at the even points: the body leaves its staging buffer as it finds it there. -/
theorem idleOut_iff : ∀ t : Fin cfg0.N, cfg0.idle 10 (grid0.coords t) = true ↔ t.val % 2 = 0 := by decide +kernel

/-- The current staging memref of each window at point `t`, and that it is a whole buffer. -/
abbrev mA0 (t : Fin cfg0.N) : Memref sig .tc .vmem S1x2048x512 .f32 := win0_0.stage (cfg0.slots t 0)
abbrev hA0 (t : Fin cfg0.N) : (mA0 t).IsWhole := hstage0_0 ((cfg0.slots t 0).cast nbuf0_0)
abbrev mA1 (t : Fin cfg0.N) : Memref sig .tc .vmem S1x1024x2048 .f32 := win0_1.stage (cfg0.slots t 1)
abbrev hA1 (t : Fin cfg0.N) : (mA1 t).IsWhole := hstage0_1 ((cfg0.slots t 1).cast nbuf0_1)
abbrev mA2 (t : Fin cfg0.N) : Memref sig .tc .vmem S1x512 .f32 := win0_2.stage (cfg0.slots t 2)
abbrev hA2 (t : Fin cfg0.N) : (mA2 t).IsWhole := hstage0_2 ((cfg0.slots t 2).cast nbuf0_2)
abbrev mA3 (t : Fin cfg0.N) : Memref sig .tc .vmem S1x512 .f32 := win0_3.stage (cfg0.slots t 3)
abbrev hA3 (t : Fin cfg0.N) : (mA3 t).IsWhole := hstage0_3 ((cfg0.slots t 3).cast nbuf0_3)
abbrev mA4 (t : Fin cfg0.N) : Memref sig .tc .vmem S512x512 .f32 := win0_4.stage (cfg0.slots t 4)
abbrev hA4 (t : Fin cfg0.N) : (mA4 t).IsWhole := hstage0_4 ((cfg0.slots t 4).cast nbuf0_4)
abbrev mA5 (t : Fin cfg0.N) : Memref sig .tc .vmem S1x512 .f32 := win0_5.stage (cfg0.slots t 5)
abbrev hA5 (t : Fin cfg0.N) : (mA5 t).IsWhole := hstage0_5 ((cfg0.slots t 5).cast nbuf0_5)
abbrev mA6 (t : Fin cfg0.N) : Memref sig .tc .vmem S1x512 .f32 := win0_6.stage (cfg0.slots t 6)
abbrev hA6 (t : Fin cfg0.N) : (mA6 t).IsWhole := hstage0_6 ((cfg0.slots t 6).cast nbuf0_6)
abbrev mA7 (t : Fin cfg0.N) : Memref sig .tc .vmem S512x512 .f32 := win0_7.stage (cfg0.slots t 7)
abbrev hA7 (t : Fin cfg0.N) : (mA7 t).IsWhole := hstage0_7 ((cfg0.slots t 7).cast nbuf0_7)
abbrev mA8 (t : Fin cfg0.N) : Memref sig .tc .vmem S2048x128 .f32 := win0_8.stage (cfg0.slots t 8)
abbrev hA8 (t : Fin cfg0.N) : (mA8 t).IsWhole := hstage0_8 ((cfg0.slots t 8).cast nbuf0_8)
abbrev mA9 (t : Fin cfg0.N) : Memref sig .tc .vmem S1x128 .f32 := win0_9.stage (cfg0.slots t 9)
abbrev hA9 (t : Fin cfg0.N) : (mA9 t).IsWhole := hstage0_9 ((cfg0.slots t 9).cast nbuf0_9)
abbrev mA10 (t : Fin cfg0.N) : Memref sig .tc .vmem S1x1x128 .f32 := win0_10.stage (cfg0.slots t 10)
abbrev hA10 (t : Fin cfg0.N) : (mA10 t).IsWhole := hstage0_10 ((cfg0.slots t 10).cast nbuf0_10)

/-- The three scratch buffers: the first layer's support, the second layer's support, the adjacency of the batch element. -/
abbrev sc1 : Memref sig .tc .vmem S2048x512 .bf16 := Memref.whole cc0_scratch0
abbrev sc2 : Memref sig .tc .vmem S2048x512 .bf16 := Memref.whole cc0_scratch1
abbrev scA : Memref sig .tc .vmem S2048x2048 .bf16 := Memref.whole cc0_scratch2

/-- What the launch hands the region besides the windows: the three scratch buffers at some contents and the generator register. -/
theorem PhiA_eq (c : Dev nD) :
    (Pipeline.ΦA spec0 c : sProp 𝕄)
      = iprop(iprop((∃ d, owns (c : Thread nD τ) sc1 fullShare d) ∗ (∃ d, owns (c : Thread nD τ) sc2 fullShare d) ∗ (∃ d, owns (c : Thread nD τ) scA fullShare d)) ∗ (∃ r, prngReg c r)) := by
  unfold Pipeline.ΦA; rw [scopedRest0_eq]; simp only [sc1, sc2, scA, owns_whole]; try rfl

end Cert.Kernel.Body

end
-- ==== Proof.WRunFirst.lean ====
/-
  The kernel body at a slab-0 point (the first conditional taken, the second not), run once on whole staging
  memrefs: the inputs at their blocks, the output's buffer at any contents `y`, the first scratch at anything, the
  other two scratch buffers at contents `z2`, `zA`.  It returns the inputs and the output's buffer as they were, the
  first scratch stored whole, and each of the other two with ONE store of 1024 rows on top of what it held; the
  stores are found by the run (the lists `L1`, `L2`, `LA`).
-/
import proofs.«141913_g27616639713710_cont_9to1_58_35_alg».proof.Proof.WBodyFacts

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

set_option maxHeartbeats 1000000 in
noncomputable def runFirst (c : Dev nD) (i : grid0.Coords) (arg2 : Memref sig .tc .vmem S1x2048x512 .f32) (harg2 : arg2.IsWhole) (arg3 : Memref sig .tc .vmem S1x1024x2048 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x512 .f32) (harg9 : arg9.IsWhole) (arg10 : Memref sig .tc .vmem S2048x128 .f32) (harg10 : arg10.IsWhole) (arg11 : Memref sig .tc .vmem S1x128 .f32) (harg11 : arg11.IsWhole) (arg12 : Memref sig .tc .vmem S1x1x128 .f32) (harg12 : arg12.IsWhole) (arg13 : Memref sig .tc .vmem S2048x512 .bf16) (harg13 : arg13.IsWhole) (arg14 : Memref sig .tc .vmem S2048x512 .bf16) (harg14 : arg14.IsWhole) (arg15 : Memref sig .tc .vmem S2048x2048 .bf16) (harg15 : arg15.IsWhole) (hc0 : isFirst i) (hc1 : ¬isLast i)
    (x0 : Vec F S1x2048x512 .f32) (x1 : Vec F S1x1024x2048 .f32) (x2 : Vec F S1x512 .f32) (x3 : Vec F S1x512 .f32) (x4 : Vec F S512x512 .f32) (x5 : Vec F S1x512 .f32) (x6 : Vec F S1x512 .f32) (x7 : Vec F S512x512 .f32) (x8 : Vec F S2048x128 .f32) (x9 : Vec F S1x128 .f32) (y : Vec F S1x1x128 .f32) (z2 : Vec F S2048x512 .bf16) (zA : Vec F S2048x2048 .bf16) :
    Σ' (L1 : List (View.Piece (Elt F) S2048x512 .bf16)) (L2 : List (View.Piece (Elt F) S2048x512 .bf16)) (LA : List (View.Piece (Elt F) S2048x2048 .bf16)),
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare y ∗ (∃ d, owns (c : Thread nD τ) arg13 fullShare d) ∗ owns (c : Thread nD τ) arg14 fullShare z2 ∗ owns (c : Thread nD τ) arg15 fullShare zA
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare y
                ∗ (∃ f, arg13.view.loc (c : Thread nD τ) ↦[arg13.view.set]{fullShare} arg13.view.writes (Elt F) f L1)
                ∗ (∃ f, ⌜arg14.view.read (Elt F) f = z2⌝ ∗ arg14.view.loc (c : Thread nD τ) ↦[arg14.view.set]{fullShare} arg14.view.writes (Elt F) f L2)
                ∗ (∃ f, ⌜arg15.view.read (Elt F) f = zA⌝ ∗ arg15.view.loc (c : Thread nD τ) ↦[arg15.view.set]{fullShare} arg15.view.writes (Elt F) f LA)) -∗ K ⟨⟩))
          ⊢ wp frame (wpE (defs₀ (F := F)) Variants.none c none) E (cc0__gcn_body i arg2 harg2 arg3 harg3 arg4 harg4 arg5 harg5 arg6 harg6 arg7 harg7 arg8 harg8 arg9 harg9 arg10 harg10 arg11 harg11 arg12 harg12 arg13 harg13 arg14 harg14 arg15 harg15) K := by
  refine ⟨?_, ?_, ?_, fun E K => ?run⟩
  case run =>
    simp only [cc0__gcn_body_eq_skeleton]; unfold cc0__gcn_body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%ds0, %fs0, -, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [HS0]; · iexists _; iexact HS0
    isplitl [HS1]
    · iexists _; isplitr; · ipureintro; exact hfs1
      iexact HS1
    iexists _; isplitr; · ipureintro; exact hfs2
    iexact HS2

end Cert.Kernel.Body

end
-- ==== Proof.WPiecesFirst.lean ====
/-
  What the slab-0 run stores, store by store: the first scratch whole at the first layer's support; 1024 rows of the
  adjacency scratch at the slab's adjacency rows; 1024 rows of the second scratch at the slab's rows of the second
  layer's support, computed from the first scratch as just stored.  (A load of a whole staging buffer reads its
  contents; a whole-buffer load after one whole-buffer store reads the stored value.)
-/
import proofs.«141913_g27616639713710_cont_9to1_58_35_alg».proof.Proof.WRunFirst
import Idealize.ShloMosaic.Lib.WritesUnit
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

theorem zeros3 : (![0, 0, 0] : Fin 3 → ℕ) = fun _ => 0 := funext fun a => by fin_cases a <;> rfl
theorem zeros2 : (![0, 0] : Fin 2 → ℕ) = fun _ => 0 := funext fun a => by fin_cases a <;> rfl

theorem firstLA (c : Dev nD) (i : grid0.Coords) (arg2 : Memref sig .tc .vmem S1x2048x512 .f32) (harg2 : arg2.IsWhole) (arg3 : Memref sig .tc .vmem S1x1024x2048 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x512 .f32) (harg9 : arg9.IsWhole) (arg10 : Memref sig .tc .vmem S2048x128 .f32) (harg10 : arg10.IsWhole) (arg11 : Memref sig .tc .vmem S1x128 .f32) (harg11 : arg11.IsWhole) (arg12 : Memref sig .tc .vmem S1x1x128 .f32) (harg12 : arg12.IsWhole) (arg13 : Memref sig .tc .vmem S2048x512 .bf16) (harg13 : arg13.IsWhole) (arg14 : Memref sig .tc .vmem S2048x512 .bf16) (harg14 : arg14.IsWhole) (arg15 : Memref sig .tc .vmem S2048x2048 .bf16) (harg15 : arg15.IsWhole) (hc0 : isFirst i) (hc1 : ¬isLast i)
    (x0 : Vec F S1x2048x512 .f32) (x1 : Vec F S1x1024x2048 .f32) (x2 : Vec F S1x512 .f32) (x3 : Vec F S1x512 .f32) (x4 : Vec F S512x512 .f32) (x5 : Vec F S1x512 .f32) (x6 : Vec F S1x512 .f32) (x7 : Vec F S512x512 .f32) (x8 : Vec F S2048x128 .f32) (x9 : Vec F S1x128 .f32) (y : Vec F S1x1x128 .f32) (z2 : Vec F S2048x512 .bf16) (zA : Vec F S2048x2048 .bf16) :
    (runFirst c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 y z2 zA).2.2.1 = [⟨Rect.unit (s := S2048x2048) (k0_off1 i) S1024x2048.size (k0_off1_inb i), k0_pay5 x1⟩] := by
  unfold runFirst
  dsimp only
  simp only [View.readAt_eq_ld, harg2.read_unread, harg3.read_unread, harg4.read_unread, harg5.read_unread, harg6.read_unread, harg7.read_unread, harg8.read_unread, harg9.read_unread, harg10.read_unread, harg11.read_unread, View.ld_unit_zero (S := S1x2048x512) zeros3, View.ld_unit_zero (S := S1x1024x2048) zeros3, View.ld_unit_zero (S := S1x512) zeros2, View.ld_unit_zero (S := S512x512) zeros2, View.ld_unit_zero (S := S2048x128) zeros2, View.ld_unit_zero (S := S1x128) zeros2]

theorem firstL1 (c : Dev nD) (i : grid0.Coords) (arg2 : Memref sig .tc .vmem S1x2048x512 .f32) (harg2 : arg2.IsWhole) (arg3 : Memref sig .tc .vmem S1x1024x2048 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x512 .f32) (harg9 : arg9.IsWhole) (arg10 : Memref sig .tc .vmem S2048x128 .f32) (harg10 : arg10.IsWhole) (arg11 : Memref sig .tc .vmem S1x128 .f32) (harg11 : arg11.IsWhole) (arg12 : Memref sig .tc .vmem S1x1x128 .f32) (harg12 : arg12.IsWhole) (arg13 : Memref sig .tc .vmem S2048x512 .bf16) (harg13 : arg13.IsWhole) (arg14 : Memref sig .tc .vmem S2048x512 .bf16) (harg14 : arg14.IsWhole) (arg15 : Memref sig .tc .vmem S2048x2048 .bf16) (harg15 : arg15.IsWhole) (hc0 : isFirst i) (hc1 : ¬isLast i)
    (x0 : Vec F S1x2048x512 .f32) (x1 : Vec F S1x1024x2048 .f32) (x2 : Vec F S1x512 .f32) (x3 : Vec F S1x512 .f32) (x4 : Vec F S512x512 .f32) (x5 : Vec F S1x512 .f32) (x6 : Vec F S1x512 .f32) (x7 : Vec F S512x512 .f32) (x8 : Vec F S2048x128 .f32) (x9 : Vec F S1x128 .f32) (y : Vec F S1x1x128 .f32) (z2 : Vec F S2048x512 .bf16) (zA : Vec F S2048x2048 .bf16) :
    (runFirst c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 y z2 zA).1 = [⟨Rect.unit (s := S2048x512) ![0, 0] S2048x512.size inb_S2048x512_S2048x512_0_0, k0_pay3 x0 x2 x3 x4⟩] := by
  unfold runFirst
  dsimp only
  sl_unfold_run_names
  simp only [View.readAt_eq_ld, harg2.read_unread, harg3.read_unread, harg4.read_unread, harg5.read_unread, harg6.read_unread, harg7.read_unread, harg8.read_unread, harg9.read_unread, harg10.read_unread, harg11.read_unread, View.ld_unit_zero (S := S1x2048x512) zeros3, View.ld_unit_zero (S := S1x1024x2048) zeros3, View.ld_unit_zero (S := S1x512) zeros2, View.ld_unit_zero (S := S512x512) zeros2, View.ld_unit_zero (S := S2048x128) zeros2, View.ld_unit_zero (S := S1x128) zeros2]

theorem firstL2 (c : Dev nD) (i : grid0.Coords) (arg2 : Memref sig .tc .vmem S1x2048x512 .f32) (harg2 : arg2.IsWhole) (arg3 : Memref sig .tc .vmem S1x1024x2048 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x512 .f32) (harg9 : arg9.IsWhole) (arg10 : Memref sig .tc .vmem S2048x128 .f32) (harg10 : arg10.IsWhole) (arg11 : Memref sig .tc .vmem S1x128 .f32) (harg11 : arg11.IsWhole) (arg12 : Memref sig .tc .vmem S1x1x128 .f32) (harg12 : arg12.IsWhole) (arg13 : Memref sig .tc .vmem S2048x512 .bf16) (harg13 : arg13.IsWhole) (arg14 : Memref sig .tc .vmem S2048x512 .bf16) (harg14 : arg14.IsWhole) (arg15 : Memref sig .tc .vmem S2048x2048 .bf16) (harg15 : arg15.IsWhole) (hc0 : isFirst i) (hc1 : ¬isLast i)
    (x0 : Vec F S1x2048x512 .f32) (x1 : Vec F S1x1024x2048 .f32) (x2 : Vec F S1x512 .f32) (x3 : Vec F S1x512 .f32) (x4 : Vec F S512x512 .f32) (x5 : Vec F S1x512 .f32) (x6 : Vec F S1x512 .f32) (x7 : Vec F S512x512 .f32) (x8 : Vec F S2048x128 .f32) (x9 : Vec F S1x128 .f32) (y : Vec F S1x1x128 .f32) (z2 : Vec F S2048x512 .bf16) (zA : Vec F S2048x2048 .bf16) :
    (runFirst c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 y z2 zA).2.1 = [⟨Rect.unit (s := S2048x512) (k0_off2 i) S1024x512.size (k0_off2_inb i),
      k0_pay1 (k0_pay7 x5) (k0_pay8 x6) (k0_pay10 x1 (k0_pay3 x0 x2 x3 x4)) (k0_pay11 x1 (k0_pay3 x0 x2 x3 x4)) x7⟩] := by
  unfold runFirst
  dsimp only
  sl_unfold_run_names
  simp only [View.readAt_eq_ld, harg2.read_unread, harg3.read_unread, harg4.read_unread, harg5.read_unread, harg6.read_unread, harg7.read_unread, harg8.read_unread, harg9.read_unread, harg10.read_unread, harg11.read_unread, View.ld_unit_zero (S := S1x2048x512) zeros3, View.ld_unit_zero (S := S1x1024x2048) zeros3, View.ld_unit_zero (S := S1x512) zeros2, View.ld_unit_zero (S := S512x512) zeros2, View.ld_unit_zero (S := S2048x128) zeros2, View.ld_unit_zero (S := S1x128) zeros2, View.readCov_unit_zero (S := S2048x512) arg13.view zeros2]

end Cert.Kernel.Body

end
-- ==== Proof.WRunSecond.lean ====
/-
  The kernel body at a slab-1 point (the first conditional not taken, the second taken), run once on whole staging
  memrefs: the inputs at their blocks, the output's buffer at anything, the three scratch buffers at contents `z1`,
  `z2`, `zA`.  It returns the inputs and the first scratch as they were, the second and third scratch each with ONE
  store of 1024 rows on top of what it held, and the output's buffer stored whole: its payload is computed from the
  second and third scratch READ BACK WHOLE after those stores.  The stores are found by the run.
-/
import proofs.«141913_g27616639713710_cont_9to1_58_35_alg».proof.Proof.WBodyFacts

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

set_option maxHeartbeats 1000000 in
noncomputable def runSecond (c : Dev nD) (i : grid0.Coords) (arg2 : Memref sig .tc .vmem S1x2048x512 .f32) (harg2 : arg2.IsWhole) (arg3 : Memref sig .tc .vmem S1x1024x2048 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x512 .f32) (harg9 : arg9.IsWhole) (arg10 : Memref sig .tc .vmem S2048x128 .f32) (harg10 : arg10.IsWhole) (arg11 : Memref sig .tc .vmem S1x128 .f32) (harg11 : arg11.IsWhole) (arg12 : Memref sig .tc .vmem S1x1x128 .f32) (harg12 : arg12.IsWhole) (arg13 : Memref sig .tc .vmem S2048x512 .bf16) (harg13 : arg13.IsWhole) (arg14 : Memref sig .tc .vmem S2048x512 .bf16) (harg14 : arg14.IsWhole) (arg15 : Memref sig .tc .vmem S2048x2048 .bf16) (harg15 : arg15.IsWhole) (hc0 : ¬isFirst i) (hc1 : isLast i)
    (x0 : Vec F S1x2048x512 .f32) (x1 : Vec F S1x1024x2048 .f32) (x2 : Vec F S1x512 .f32) (x3 : Vec F S1x512 .f32) (x4 : Vec F S512x512 .f32) (x5 : Vec F S1x512 .f32) (x6 : Vec F S1x512 .f32) (x7 : Vec F S512x512 .f32) (x8 : Vec F S2048x128 .f32) (x9 : Vec F S1x128 .f32) (z1 : Vec F S2048x512 .bf16) (z2 : Vec F S2048x512 .bf16) (zA : Vec F S2048x2048 .bf16) :
    Σ' (LO : List (View.Piece (Elt F) S1x1x128 .f32)) (L2 : List (View.Piece (Elt F) S2048x512 .bf16)) (LA : List (View.Piece (Elt F) S2048x2048 .bf16)),
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ owns (c : Thread nD τ) arg13 fullShare z1 ∗ owns (c : Thread nD τ) arg14 fullShare z2 ∗ owns (c : Thread nD τ) arg15 fullShare zA
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
                ∗ (∃ f, arg12.view.loc (c : Thread nD τ) ↦[arg12.view.set]{fullShare} arg12.view.writes (Elt F) f LO)
                ∗ owns (c : Thread nD τ) arg13 fullShare z1
                ∗ (∃ f, ⌜arg14.view.read (Elt F) f = z2⌝ ∗ arg14.view.loc (c : Thread nD τ) ↦[arg14.view.set]{fullShare} arg14.view.writes (Elt F) f L2)
                ∗ (∃ f, ⌜arg15.view.read (Elt F) f = zA⌝ ∗ arg15.view.loc (c : Thread nD τ) ↦[arg15.view.set]{fullShare} arg15.view.writes (Elt F) f LA)) -∗ K ⟨⟩))
          ⊢ wp frame (wpE (defs₀ (F := F)) Variants.none c none) E (cc0__gcn_body i arg2 harg2 arg3 harg3 arg4 harg4 arg5 harg5 arg6 harg6 arg7 harg7 arg8 harg8 arg9 harg9 arg10 harg10 arg11 harg11 arg12 harg12 arg13 harg13 arg14 harg14 arg15 harg15) K := by
  refine ⟨?_, ?_, ?_, fun E K => ?run⟩
  case run =>
    simp only [cc0__gcn_body_eq_skeleton]; unfold cc0__gcn_body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    obtain rfl := harg13.eq_unread hfs0; obtain rfl := harg14.eq_unread hfs1; obtain rfl := harg15.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [HS0]
    · iexists _; isplitr; · ipureintro; exact harg13.read_unread _
      iexact HS0
    isplitl [HS1]
    · iexists _; isplitr; · ipureintro; exact harg14.read_unread _
      iexact HS1
    iexists _; isplitr; · ipureintro; exact harg15.read_unread _
    iexact HS2

end Cert.Kernel.Body

end
-- ==== Proof.WCarried.lean ====
/-
  What the kernel carries from point to point, and the pipeline's proof data.

  Within one batch element the slab-0 point leaves: the first scratch at the first layer's support `s1At` (the
  normalised features times W1, all 2048 rows), rows 0–1023 of the adjacency scratch at the slab's adjacency rows
  `adjAt`, and rows 0–1023 of the second scratch at the slab's rows of the second layer's support `s2At`; rows
  1024–2047 of those two buffers hold whatever they held.  The slab-1 point stores rows 1024–2047 of both, reads both
  back whole — the two halves `stack`ed — and writes the batch element's output `outAt`.  The output's staging
  buffer is left as found at the slab-0 points and written back after each slab-1 point.
-/
import proofs.«141913_g27616639713710_cont_9to1_58_35_alg».proof.Proof.WBodyFacts
import Idealize.ShloMosaic.Lib.ValueIdx

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-- Two blocks of 1024 rows, one above the other. -/
def stack {C : ℕ} {α : Type} (lo hi : (⟨2, ![1024, C]⟩ : Shape).Idx → α) : (⟨2, ![2048, C]⟩ : Shape).Idx → α :=
  fun y => if h : (y 0).val < 1024 then lo (ix2 ⟨(y 0).val, h⟩ (y 1))
    else hi (ix2 ⟨(y 0).val - 1024, by have h2 : (y 0).val < 2048 := (y 0).isLt; omega⟩ (y 1))

/-- Rows 0–1023 of `d` are `lo`. -/
def LowIs {C : ℕ} {α : Type} (d : (⟨2, ![2048, C]⟩ : Shape).Idx → α) (lo : (⟨2, ![1024, C]⟩ : Shape).Idx → α) : Prop :=
  ∀ (p : Fin 1024) (q : Fin C), d (ix2 ⟨p.val, by have := p.isLt; omega⟩ q) = lo (ix2 p q)

/-- The first layer's support at a point: the body's arithmetic of the point's feature block, scale, shift and W1. -/
def s1At (c : Dev nD) (t : Fin cfg0.N) : Vec F S2048x512 .bf16 :=
  k0_pay3 (iblk m c 0 t) (iblk m c 2 t) (iblk m c 3 t) (iblk m c 4 t)

/-- The point's slab of adjacency rows, as the body stores it. -/
def adjAt (c : Dev nD) (t : Fin cfg0.N) : Vec F S1024x2048 .bf16 := k0_pay5 (iblk m c 1 t)

/-- The point's slab of the second layer's support, over a first-layer support `s1`. -/
def s2At (c : Dev nD) (t : Fin cfg0.N) (s1 : Vec F S2048x512 .bf16) : Vec F S1024x512 .bf16 :=
  k0_pay1 (k0_pay7 (iblk m c 5 t)) (k0_pay8 (iblk m c 6 t)) (k0_pay10 (iblk m c 1 t) s1) (k0_pay11 (iblk m c 1 t) s1) (iblk m c 7 t)

/-- The point before (the point itself at the first). -/
def prev (t : Fin cfg0.N) : Fin cfg0.N := ⟨t.val - 1, Nat.lt_of_le_of_lt (Nat.sub_le _ _) t.isLt⟩

/-- What a slab-1 point writes to the output's staging buffer: the readout of the whole second layer, the two
    slabs of the adjacency and of the support stacked, the support computed from the slab-0 point's features. -/
def outAt (c : Dev nD) (t : Fin cfg0.N) : Vec F S1x1x128 .f32 :=
  k0_pay2 (stack (adjAt m c (prev t)) (adjAt m c t))
    (stack (s2At m c (prev t) (s1At m c (prev t))) (s2At m c t (s1At m c (prev t)))) (iblk m c 8 t) (iblk m c 9 t)

/-- The region invariant before position `n`: before the first point and after every slab-1 point the launch's
    (every scratch at anything); after a slab-0 point the first scratch at the first layer's support and the low rows
    of the other two at the slab's rows. -/
def PhiS (c : Dev nD) : (n : ℕ) → n ≤ cfg0.N → sProp 𝕄
  | 0, _ => Pipeline.ΦA spec0 c
  | n + 1, hn =>
    if n % 2 = 0 then
      iprop(iprop(owns (c : Thread nD τ) sc1 fullShare (s1At m c ⟨n, hn⟩)
          ∗ (∃ d, ⌜LowIs d (s2At m c ⟨n, hn⟩ (s1At m c ⟨n, hn⟩))⌝ ∗ owns (c : Thread nD τ) sc2 fullShare d)
          ∗ (∃ d, ⌜LowIs d (adjAt m c ⟨n, hn⟩)⌝ ∗ owns (c : Thread nD τ) scA fullShare d)) ∗ (∃ r, prngReg c r))
    else Pipeline.ΦA spec0 c

theorem PhiS_zero (c : Dev nD) (n : ℕ) (h : n ≤ cfg0.N) (hz : n = 0) : PhiS m c n h = Pipeline.ΦA spec0 c := by
  subst hz; rfl

theorem PhiS_succ_even (c : Dev nD) (n : ℕ) (hn : n < cfg0.N) (he : n % 2 = 0) :
    PhiS m c (n + 1) hn = iprop(iprop(owns (c : Thread nD τ) sc1 fullShare (s1At m c ⟨n, hn⟩)
          ∗ (∃ d, ⌜LowIs d (s2At m c ⟨n, hn⟩ (s1At m c ⟨n, hn⟩))⌝ ∗ owns (c : Thread nD τ) sc2 fullShare d)
          ∗ (∃ d, ⌜LowIs d (adjAt m c ⟨n, hn⟩)⌝ ∗ owns (c : Thread nD τ) scA fullShare d)) ∗ (∃ r, prngReg c r)) := by
  show (if n % 2 = 0 then _ else _) = _; rw [if_pos he]

theorem PhiS_succ_odd (c : Dev nD) (n : ℕ) (hn : n < cfg0.N) (ho : ¬ n % 2 = 0) :
    PhiS m c (n + 1) hn = Pipeline.ΦA spec0 c := by
  show (if n % 2 = 0 then _ else _) = _; rw [if_neg ho]

/-- Before an odd point: the slab-0 point before it left the scratch as named. -/
theorem PhiS_odd (c : Dev nD) (t : Fin cfg0.N) (ho : t.val % 2 = 1) :
    PhiS m c t.val (Nat.le_of_lt t.isLt) = iprop(iprop(owns (c : Thread nD τ) sc1 fullShare (s1At m c (prev t))
          ∗ (∃ d, ⌜LowIs d (s2At m c (prev t) (s1At m c (prev t)))⌝ ∗ owns (c : Thread nD τ) sc2 fullShare d)
          ∗ (∃ d, ⌜LowIs d (adjAt m c (prev t))⌝ ∗ owns (c : Thread nD τ) scA fullShare d)) ∗ (∃ r, prngReg c r)) := by
  obtain ⟨n, hn⟩ := t
  cases n with
  | zero => exact absurd ho (by show ¬ (0 % 2 = 1); omega)
  | succ n => exact PhiS_succ_even m c n (Nat.lt_of_succ_lt hn) (by simp only at ho; omega)

/-- Before an even point: the launch's invariant. -/
theorem PhiS_even (c : Dev nD) (t : Fin cfg0.N) (he : t.val % 2 = 0) :
    PhiS m c t.val (Nat.le_of_lt t.isLt) = Pipeline.ΦA spec0 c := by
  obtain ⟨n, hn⟩ := t
  cases n with
  | zero => rfl
  | succ n => exact PhiS_succ_odd m c n (Nat.lt_of_succ_lt hn) (by simp only at he; omega)

/-- The proof data of the one pipeline on core `c`: the arrays as the region finds them; after the body at point
    `t` each input's buffer at its block and the output's at `outAt` (asked only at the slab-1 points: at the others
    the window is idle); the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = outAt m c t := by dsimp only [dats]

theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d
theorem before3 (c : Dev nD) (t : Fin cfg0.N) (d) : (dats m 0 c).before 3 t d = iblk m c 3 t := before0_3_of m (dats m 0 c) (A_eq m c 3) (after3 m c) t d
theorem before4 (c : Dev nD) (t : Fin cfg0.N) (d) : (dats m 0 c).before 4 t d = iblk m c 4 t := before0_4_of m (dats m 0 c) (A_eq m c 4) (after4 m c) t d
theorem before5 (c : Dev nD) (t : Fin cfg0.N) (d) : (dats m 0 c).before 5 t d = iblk m c 5 t := before0_5_of m (dats m 0 c) (A_eq m c 5) (after5 m c) t d
theorem before6 (c : Dev nD) (t : Fin cfg0.N) (d) : (dats m 0 c).before 6 t d = iblk m c 6 t := before0_6_of m (dats m 0 c) (A_eq m c 6) (after6 m c) t d
theorem before7 (c : Dev nD) (t : Fin cfg0.N) (d) : (dats m 0 c).before 7 t d = iblk m c 7 t := before0_7_of m (dats m 0 c) (A_eq m c 7) (after7 m c) t d
theorem before8 (c : Dev nD) (t : Fin cfg0.N) (d) : (dats m 0 c).before 8 t d = iblk m c 8 t := before0_8_of m (dats m 0 c) (A_eq m c 8) (after8 m c) t d
theorem before9 (c : Dev nD) (t : Fin cfg0.N) (d) : (dats m 0 c).before 9 t d = iblk m c 9 t := before0_9_of m (dats m 0 c) (A_eq m c 9) (after9 m c) t d

end Cert.Kernel.Body

end
-- ==== Proof.WSlabs.lean ====
/-
  One store of 1024 whole rows into a buffer of 2048 rows, read back.  Stored at rows 0–1023 it makes the low rows
  the payload; stored at rows 1024–2047 over contents whose low rows are `lo` it makes the buffer `lo` stacked on
  the payload.
-/
import proofs.«141913_g27616639713710_cont_9to1_58_35_alg».proof.Proof.WCarried
import Idealize.ShloMosaic.Lib.WritesUnit

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

open Idealize.ShloMosaic.ValueIdx

section
variable {C : ℕ} {e : EltTy} {κ : Kind} {sp : Space}
  (v : View sig κ sp (⟨2, ![2048, C]⟩ : Shape) e) (f : v.ty.Contents (Elt F))
  {off : Fin 2 → ℕ} (inb : ∀ a : Fin 2, off a + (![1024, C] : Fin 2 → ℕ) a ≤ (![2048, C] : Fin 2 → ℕ) a)
  (w : (Rect.unit (s := ⟨2, ![2048, C]⟩) off ![1024, C] inb).shape.Idx → Elt F e)

/-- Stored at row 0: the low rows are the payload. -/
theorem low_of_store (hoff : off = ![0, 0]) :
    LowIs (v.read (Elt F) (v.writes (Elt F) f [(⟨Rect.unit (s := ⟨2, ![2048, C]⟩) off ![1024, C] inb, w⟩ : View.Piece (Elt F) (⟨2, ![2048, C]⟩ : Shape) e)])) w := by
  intro p q
  exact View.read_writes_cons_rows_of_mem (d := ![2048, C]) v f inb w [] _ (ix2 p q) hoff (by show p.val = 0 + p.val; omega) rfl

/-- Stored at row 1024 over contents whose low rows are `lo`: `lo` stacked on the payload. -/
theorem stack_of_store (hoff : off = ![1024, 0]) (lo : (⟨2, ![1024, C]⟩ : Shape).Idx → Elt F e)
    (hlo : LowIs (v.read (Elt F) f) lo) :
    v.read (Elt F) (v.writes (Elt F) f [(⟨Rect.unit (s := ⟨2, ![2048, C]⟩) off ![1024, C] inb, w⟩ : View.Piece (Elt F) (⟨2, ![2048, C]⟩ : Shape) e)])
      = stack lo w := by
  funext y
  have hy : (y 0).val < 2048 := (y 0).isLt
  by_cases h : (y 0).val < 1024
  · rw [View.read_writes_cons_rows_of_not_mem (d := ![2048, C]) v f inb w [] y hoff (W := 1024) rfl (Or.inl h)]
    unfold stack; rw [dif_pos h]
    have := hlo ⟨(y 0).val, h⟩ (y 1)
    rw [View.writes_nil]
    refine Eq.trans (congrArg _ ?_) this
    exact (eq_ix2 y).trans rfl
  · unfold stack; rw [dif_neg h]
    exact View.read_writes_cons_rows_of_mem (d := ![2048, C]) v f inb w [] y _ hoff (by show (y 0).val = 1024 + ((y 0).val - 1024); omega) rfl
end

/-- One store through the whole shape at zero offsets, read back: the payload. -/
theorem whole_of_store {S : Shape} {e : EltTy} {κ : Kind} {sp : Space} (v : View sig κ sp S e) (f : v.ty.Contents (Elt F))
    {off : Fin S.rank → ℕ} (inb : ∀ a, off a + S.size a ≤ S.size a)
    (w : (Rect.unit (s := S) off S.size inb).shape.Idx → Elt F e) (hoff : off = fun _ => 0) :
    v.read (Elt F) (v.writes (Elt F) f [(⟨Rect.unit (s := S) off S.size inb, w⟩ : View.Piece (Elt F) S e)]) = w := by
  funext y
  exact View.read_writes_cons_unit_of_mem v f inb w [] y y hoff (fun a => by show (y a).val = 0 + (y a).val; omega)

end Cert.Kernel.Body

end
-- ==== Proof.WPiecesSecond.lean ====
/-
  What the slab-1 run stores, store by store: 1024 rows of the adjacency scratch and of the second scratch (the
  latter computed from the first scratch as it finds it), and the output's buffer whole, its payload computed from both
  scratch buffers read back whole AFTER those stores.  Stored at row 1024 over buffers whose low rows are known, the
  two buffers read back as the two slabs stacked.
-/
import proofs.«141913_g27616639713710_cont_9to1_58_35_alg».proof.Proof.WRunSecond
import proofs.«141913_g27616639713710_cont_9to1_58_35_alg».proof.Proof.WPiecesFirst
import proofs.«141913_g27616639713710_cont_9to1_58_35_alg».proof.Proof.WSlabs

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

theorem secondLA (c : Dev nD) (i : grid0.Coords) (arg2 : Memref sig .tc .vmem S1x2048x512 .f32) (harg2 : arg2.IsWhole) (arg3 : Memref sig .tc .vmem S1x1024x2048 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x512 .f32) (harg9 : arg9.IsWhole) (arg10 : Memref sig .tc .vmem S2048x128 .f32) (harg10 : arg10.IsWhole) (arg11 : Memref sig .tc .vmem S1x128 .f32) (harg11 : arg11.IsWhole) (arg12 : Memref sig .tc .vmem S1x1x128 .f32) (harg12 : arg12.IsWhole) (arg13 : Memref sig .tc .vmem S2048x512 .bf16) (harg13 : arg13.IsWhole) (arg14 : Memref sig .tc .vmem S2048x512 .bf16) (harg14 : arg14.IsWhole) (arg15 : Memref sig .tc .vmem S2048x2048 .bf16) (harg15 : arg15.IsWhole) (hc0 : ¬isFirst i) (hc1 : isLast i)
    (x0 : Vec F S1x2048x512 .f32) (x1 : Vec F S1x1024x2048 .f32) (x2 : Vec F S1x512 .f32) (x3 : Vec F S1x512 .f32) (x4 : Vec F S512x512 .f32) (x5 : Vec F S1x512 .f32) (x6 : Vec F S1x512 .f32) (x7 : Vec F S512x512 .f32) (x8 : Vec F S2048x128 .f32) (x9 : Vec F S1x128 .f32) (z1 : Vec F S2048x512 .bf16) (z2 : Vec F S2048x512 .bf16) (zA : Vec F S2048x2048 .bf16) :
    (runSecond c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 z1 z2 zA).2.2.1 = [⟨Rect.unit (s := S2048x2048) (k0_off1 i) S1024x2048.size (k0_off1_inb i), k0_pay5 x1⟩] := by
  unfold runSecond
  dsimp only
  sl_unfold_run_names
  simp only [View.readAt_eq_ld, harg2.read_unread, harg3.read_unread, harg4.read_unread, harg5.read_unread, harg6.read_unread, harg7.read_unread, harg8.read_unread, harg9.read_unread, harg10.read_unread, harg11.read_unread, View.ld_unit_zero (S := S1x2048x512) zeros3, View.ld_unit_zero (S := S1x1024x2048) zeros3, View.ld_unit_zero (S := S1x512) zeros2, View.ld_unit_zero (S := S512x512) zeros2, View.ld_unit_zero (S := S2048x128) zeros2, View.ld_unit_zero (S := S1x128) zeros2, harg13.read_unread, View.ld_unit_zero (S := S2048x512) zeros2, View.ld_unit_zero (S := S2048x2048) zeros2]

theorem secondL2 (c : Dev nD) (i : grid0.Coords) (arg2 : Memref sig .tc .vmem S1x2048x512 .f32) (harg2 : arg2.IsWhole) (arg3 : Memref sig .tc .vmem S1x1024x2048 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x512 .f32) (harg9 : arg9.IsWhole) (arg10 : Memref sig .tc .vmem S2048x128 .f32) (harg10 : arg10.IsWhole) (arg11 : Memref sig .tc .vmem S1x128 .f32) (harg11 : arg11.IsWhole) (arg12 : Memref sig .tc .vmem S1x1x128 .f32) (harg12 : arg12.IsWhole) (arg13 : Memref sig .tc .vmem S2048x512 .bf16) (harg13 : arg13.IsWhole) (arg14 : Memref sig .tc .vmem S2048x512 .bf16) (harg14 : arg14.IsWhole) (arg15 : Memref sig .tc .vmem S2048x2048 .bf16) (harg15 : arg15.IsWhole) (hc0 : ¬isFirst i) (hc1 : isLast i)
    (x0 : Vec F S1x2048x512 .f32) (x1 : Vec F S1x1024x2048 .f32) (x2 : Vec F S1x512 .f32) (x3 : Vec F S1x512 .f32) (x4 : Vec F S512x512 .f32) (x5 : Vec F S1x512 .f32) (x6 : Vec F S1x512 .f32) (x7 : Vec F S512x512 .f32) (x8 : Vec F S2048x128 .f32) (x9 : Vec F S1x128 .f32) (z1 : Vec F S2048x512 .bf16) (z2 : Vec F S2048x512 .bf16) (zA : Vec F S2048x2048 .bf16) :
    (runSecond c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 z1 z2 zA).2.1 = [⟨Rect.unit (s := S2048x512) (k0_off2 i) S1024x512.size (k0_off2_inb i),
      k0_pay1 (k0_pay7 x5) (k0_pay8 x6) (k0_pay10 x1 z1) (k0_pay11 x1 z1) x7⟩] := by
  unfold runSecond
  dsimp only
  sl_unfold_run_names
  simp only [View.readAt_eq_ld, harg2.read_unread, harg3.read_unread, harg4.read_unread, harg5.read_unread, harg6.read_unread, harg7.read_unread, harg8.read_unread, harg9.read_unread, harg10.read_unread, harg11.read_unread, View.ld_unit_zero (S := S1x2048x512) zeros3, View.ld_unit_zero (S := S1x1024x2048) zeros3, View.ld_unit_zero (S := S1x512) zeros2, View.ld_unit_zero (S := S512x512) zeros2, View.ld_unit_zero (S := S2048x128) zeros2, View.ld_unit_zero (S := S1x128) zeros2, harg13.read_unread, View.ld_unit_zero (S := S2048x512) zeros2, View.ld_unit_zero (S := S2048x2048) zeros2]

theorem secondLO (c : Dev nD) (i : grid0.Coords) (arg2 : Memref sig .tc .vmem S1x2048x512 .f32) (harg2 : arg2.IsWhole) (arg3 : Memref sig .tc .vmem S1x1024x2048 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x512 .f32) (harg9 : arg9.IsWhole) (arg10 : Memref sig .tc .vmem S2048x128 .f32) (harg10 : arg10.IsWhole) (arg11 : Memref sig .tc .vmem S1x128 .f32) (harg11 : arg11.IsWhole) (arg12 : Memref sig .tc .vmem S1x1x128 .f32) (harg12 : arg12.IsWhole) (arg13 : Memref sig .tc .vmem S2048x512 .bf16) (harg13 : arg13.IsWhole) (arg14 : Memref sig .tc .vmem S2048x512 .bf16) (harg14 : arg14.IsWhole) (arg15 : Memref sig .tc .vmem S2048x2048 .bf16) (harg15 : arg15.IsWhole) (hc0 : ¬isFirst i) (hc1 : isLast i)
    (x0 : Vec F S1x2048x512 .f32) (x1 : Vec F S1x1024x2048 .f32) (x2 : Vec F S1x512 .f32) (x3 : Vec F S1x512 .f32) (x4 : Vec F S512x512 .f32) (x5 : Vec F S1x512 .f32) (x6 : Vec F S1x512 .f32) (x7 : Vec F S512x512 .f32) (x8 : Vec F S2048x128 .f32) (x9 : Vec F S1x128 .f32) (z1 : Vec F S2048x512 .bf16) (z2 : Vec F S2048x512 .bf16) (zA : Vec F S2048x2048 .bf16) :
    (runSecond c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 z1 z2 zA).1 = [⟨Rect.unit (s := S1x1x128) ![0, 0, 0] S1x1x128.size inb_S1x1x128_S1x1x128_0_0_0,
      k0_pay2
        (arg15.view.read (Elt F) (arg15.view.writes (Elt F) (harg15.unread zA)
          [⟨Rect.unit (s := S2048x2048) (k0_off1 i) S1024x2048.size (k0_off1_inb i), k0_pay5 x1⟩]))
        (arg14.view.read (Elt F) (arg14.view.writes (Elt F) (harg14.unread z2)
          [⟨Rect.unit (s := S2048x512) (k0_off2 i) S1024x512.size (k0_off2_inb i),
            k0_pay1 (k0_pay7 x5) (k0_pay8 x6) (k0_pay10 x1 z1) (k0_pay11 x1 z1) x7⟩]))
        x8 x9⟩] := by
  unfold runSecond
  dsimp only
  sl_unfold_run_names
  simp only [View.readAt_eq_ld, harg2.read_unread, harg3.read_unread, harg4.read_unread, harg5.read_unread, harg6.read_unread, harg7.read_unread, harg8.read_unread, harg9.read_unread, harg10.read_unread, harg11.read_unread, View.ld_unit_zero (S := S1x2048x512) zeros3, View.ld_unit_zero (S := S1x1024x2048) zeros3, View.ld_unit_zero (S := S1x512) zeros2, View.ld_unit_zero (S := S512x512) zeros2, View.ld_unit_zero (S := S2048x128) zeros2, View.ld_unit_zero (S := S1x128) zeros2, harg13.read_unread, View.ld_unit_zero (S := S2048x512) zeros2, View.ld_unit_zero (S := S2048x2048) zeros2]

/-- The output's buffer after the slab-1 run, when the two stores land at row 1024 over buffers whose low rows
    are `loA`, `lo2`: the readout of the two slabs stacked. -/
theorem secondOut (c : Dev nD) (i : grid0.Coords) (arg2 : Memref sig .tc .vmem S1x2048x512 .f32) (harg2 : arg2.IsWhole) (arg3 : Memref sig .tc .vmem S1x1024x2048 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x512 .f32) (harg9 : arg9.IsWhole) (arg10 : Memref sig .tc .vmem S2048x128 .f32) (harg10 : arg10.IsWhole) (arg11 : Memref sig .tc .vmem S1x128 .f32) (harg11 : arg11.IsWhole) (arg12 : Memref sig .tc .vmem S1x1x128 .f32) (harg12 : arg12.IsWhole) (arg13 : Memref sig .tc .vmem S2048x512 .bf16) (harg13 : arg13.IsWhole) (arg14 : Memref sig .tc .vmem S2048x512 .bf16) (harg14 : arg14.IsWhole) (arg15 : Memref sig .tc .vmem S2048x2048 .bf16) (harg15 : arg15.IsWhole) (hc0 : ¬isFirst i) (hc1 : isLast i)
    (x0 : Vec F S1x2048x512 .f32) (x1 : Vec F S1x1024x2048 .f32) (x2 : Vec F S1x512 .f32) (x3 : Vec F S1x512 .f32) (x4 : Vec F S512x512 .f32) (x5 : Vec F S1x512 .f32) (x6 : Vec F S1x512 .f32) (x7 : Vec F S512x512 .f32) (x8 : Vec F S2048x128 .f32) (x9 : Vec F S1x128 .f32) (z1 : Vec F S2048x512 .bf16) (z2 : Vec F S2048x512 .bf16) (zA : Vec F S2048x2048 .bf16) (eo : arg12.view.ty.Contents (Elt F))
    (hA : k0_off1 i = ![1024, 0]) (h2 : k0_off2 i = ![1024, 0])
    (loA : Vec F S1024x2048 .bf16) (lo2 : Vec F S1024x512 .bf16) (hloA : LowIs zA loA) (hlo2 : LowIs z2 lo2) :
    arg12.view.read (Elt F) (arg12.view.writes (Elt F) eo (runSecond c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 z1 z2 zA).1)
      = k0_pay2 (stack loA (k0_pay5 x1))
          (stack lo2 (k0_pay1 (k0_pay7 x5) (k0_pay8 x6) (k0_pay10 x1 z1) (k0_pay11 x1 z1) x7)) x8 x9 := by
  rw [secondLO]
  rw [whole_of_store _ _ _ _ zeros3]
  rw [stack_of_store arg15.view (harg15.unread zA) (k0_off1_inb i) (k0_pay5 x1) hA loA (by rw [harg15.read_unread]; exact hloA)]
  rw [stack_of_store arg14.view (harg14.unread z2) (k0_off2_inb i) _ h2 lo2 (by rw [harg14.read_unread]; exact hlo2)]

end Cert.Kernel.Body

end
-- ==== Proof.WObligation.lean ====
/-
  The body obligation: at every point, from the invariant and every window's current buffer at what it then holds,
  the kernel body runs to the invariant at the next point and every buffer at what the proof data says it leaves.
  At a slab-0 point the launch's invariant is enough; the run stores the first scratch whole and the low rows of the
  other two, which is the next invariant; the output's buffer comes back as found.  At a slab-1 point the invariant
  names the first scratch and the low rows of the other two; the run stores their high rows, reads both back whole —
  the two slabs stacked — and stores the output's buffer whole at `outAt`.
-/
import proofs.«141913_g27616639713710_cont_9to1_58_35_alg».proof.Proof.WPiecesFirst
import proofs.«141913_g27616639713710_cont_9to1_58_35_alg».proof.Proof.WPiecesSecond
import proofs.«141913_g27616639713710_cont_9to1_58_35_alg».proof.Proof.WSlabs

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

open Idealize.ShloMosaic.ValueIdx
open Idealize.ShloMosaic.Pipeline (BodyObligation)

variable (m : (ℓ : Loc nD τ sig) → Buf (Elt F) ℓ) (ρ : Dev nD → PrngReg)

/-- Where the two slab stores land: row 0 at the even points, row 1024 at the odd ones. -/
theorem offA_even : ∀ t : Fin cfg0.N, t.val % 2 = 0 → k0_off1 (grid0.coords t) = ![0, 0] :=
  (by decide +kernel : ∀ t : Fin grid0.N, t.val % 2 = 0 → k0_off1 (grid0.coords t) = ![0, 0])
theorem offA_odd : ∀ t : Fin cfg0.N, t.val % 2 = 1 → k0_off1 (grid0.coords t) = ![1024, 0] :=
  (by decide +kernel : ∀ t : Fin grid0.N, t.val % 2 = 1 → k0_off1 (grid0.coords t) = ![1024, 0])
theorem off2_even : ∀ t : Fin cfg0.N, t.val % 2 = 0 → k0_off2 (grid0.coords t) = ![0, 0] :=
  (by decide +kernel : ∀ t : Fin grid0.N, t.val % 2 = 0 → k0_off2 (grid0.coords t) = ![0, 0])
theorem off2_odd : ∀ t : Fin cfg0.N, t.val % 2 = 1 → k0_off2 (grid0.coords t) = ![1024, 0] :=
  (by decide +kernel : ∀ t : Fin grid0.N, t.val % 2 = 1 → k0_off2 (grid0.coords t) = ![1024, 0])

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (mA0 t) fullShare ((dats m 0 c).before 0 t d))
    ∗ (∃ d, owns (c : Thread nD τ) (mA1 t) fullShare ((dats m 0 c).before 1 t d))
    ∗ (∃ d, owns (c : Thread nD τ) (mA2 t) fullShare ((dats m 0 c).before 2 t d))
    ∗ (∃ d, owns (c : Thread nD τ) (mA3 t) fullShare ((dats m 0 c).before 3 t d))
    ∗ (∃ d, owns (c : Thread nD τ) (mA4 t) fullShare ((dats m 0 c).before 4 t d))
    ∗ (∃ d, owns (c : Thread nD τ) (mA5 t) fullShare ((dats m 0 c).before 5 t d))
    ∗ (∃ d, owns (c : Thread nD τ) (mA6 t) fullShare ((dats m 0 c).before 6 t d))
    ∗ (∃ d, owns (c : Thread nD τ) (mA7 t) fullShare ((dats m 0 c).before 7 t d))
    ∗ (∃ d, owns (c : Thread nD τ) (mA8 t) fullShare ((dats m 0 c).before 8 t d))
    ∗ (∃ d, owns (c : Thread nD τ) (mA9 t) fullShare ((dats m 0 c).before 9 t d))
    ∗ (∃ d, owns (c : Thread nD τ) (mA10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 9600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9]
  rw [show (dats m 0 c).owesAt () t.succ = (dats m 0 c).owesAt () t.castSucc from rfl]
  rw [show (dats m 0 c).Φ t.succ = PhiS m c (t.val + 1) t.isLt from rfl, Phi_castSucc]
  rw [show (dats m 0 c).leavesExact 0 t = owns (c : Thread nD τ) (mA0 t) fullShare ((dats m 0 c).after 0 t) from by
    unfold Dat.leavesExact; rw [live 0 t (by decide)], after0]
  rw [show (dats m 0 c).leavesExact 1 t = owns (c : Thread nD τ) (mA1 t) fullShare ((dats m 0 c).after 1 t) from by
    unfold Dat.leavesExact; rw [live 1 t (by decide)], after1]
  rw [show (dats m 0 c).leavesExact 2 t = owns (c : Thread nD τ) (mA2 t) fullShare ((dats m 0 c).after 2 t) from by
    unfold Dat.leavesExact; rw [live 2 t (by decide)], after2]
  rw [show (dats m 0 c).leavesExact 3 t = owns (c : Thread nD τ) (mA3 t) fullShare ((dats m 0 c).after 3 t) from by
    unfold Dat.leavesExact; rw [live 3 t (by decide)], after3]
  rw [show (dats m 0 c).leavesExact 4 t = owns (c : Thread nD τ) (mA4 t) fullShare ((dats m 0 c).after 4 t) from by
    unfold Dat.leavesExact; rw [live 4 t (by decide)], after4]
  rw [show (dats m 0 c).leavesExact 5 t = owns (c : Thread nD τ) (mA5 t) fullShare ((dats m 0 c).after 5 t) from by
    unfold Dat.leavesExact; rw [live 5 t (by decide)], after5]
  rw [show (dats m 0 c).leavesExact 6 t = owns (c : Thread nD τ) (mA6 t) fullShare ((dats m 0 c).after 6 t) from by
    unfold Dat.leavesExact; rw [live 6 t (by decide)], after6]
  rw [show (dats m 0 c).leavesExact 7 t = owns (c : Thread nD τ) (mA7 t) fullShare ((dats m 0 c).after 7 t) from by
    unfold Dat.leavesExact; rw [live 7 t (by decide)], after7]
  rw [show (dats m 0 c).leavesExact 8 t = owns (c : Thread nD τ) (mA8 t) fullShare ((dats m 0 c).after 8 t) from by
    unfold Dat.leavesExact; rw [live 8 t (by decide)], after8]
  rw [show (dats m 0 c).leavesExact 9 t = owns (c : Thread nD τ) (mA9 t) fullShare ((dats m 0 c).after 9 t) from by
    unfold Dat.leavesExact; rw [live 9 t (by decide)], after9]
  by_cases h0 : t.val % 2 = 0
  · have h1 : ¬t.val % 2 = 1 := by omega
    have hfl : (cfg0.win 10).flush t = false := by
      cases hf : (cfg0.win 10).flush t
      · rfl
      · exact absurd ((flush0_10 t).mp hf) h1
    rw [Dat.leavesExact_idle _ 10 t ((idleOut_iff t).mpr h0) hfl]
    rw [PhiS_even m c t h0, PhiS_succ_even m c t.val t.isLt h0, PhiA_eq]
    iintro ⟨⟨⟨HS0, ⟨%w2, HS1⟩, ⟨%wA, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((runFirst c (grid0.coords t) _ _ _ _ _ _ _ _ _ _ _ _ _ _ _ _ _ _ _ _ _ _ _ _ _ _ _ _ ((isFirst_iff t).mpr h0) (fun h => h1 ((isLast_iff t).mp h)) (iblk m c 0 t) (iblk m c 1 t) (iblk m c 2 t) (iblk m c 3 t) (iblk m c 4 t) (iblk m c 5 t) (iblk m c 6 t) (iblk m c 7 t) (iblk m c 8 t) (iblk m c 9 t) ((dats m 0 c).before 10 t d10) w2 wA).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS0]; · iexact HS0
    isplitl [HS1]; · iexact HS1
    isplitl [HS2]; · iexact HS2
    iintro ⟨H0, H1, H2, H3, H4, H5, H6, H7, H8, H9, H10, ⟨%e1, HS0⟩, ⟨%e2, %he2, HS1⟩, ⟨%eA, %heA, HS2⟩⟩
    isplitl [HS0 HS1 HS2 Hg]
    · isplitl [HS0 HS1 HS2]
      · isplitl [HS0]
        · unfold owns; iexists _; isplitr
          swap; · iexact HS0
          ipureintro
          rw [firstL1]
          exact whole_of_store _ _ _ _ zeros2
        isplitl [HS1]
        · iexists _; isplitr
          swap
          · unfold owns; iexists _; isplitr
            swap; · iexact HS1
            ipureintro; rfl
          ipureintro
          rw [firstL2]
          exact low_of_store _ _ _ _ (off2_even t h0)
        iexists _; isplitr
        swap
        · unfold owns; iexists _; isplitr
          swap; · iexact HS2
          ipureintro; rfl
        ipureintro
        rw [firstLA]
        exact low_of_store _ _ _ _ (offA_even t h0)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists d10; iexact H10
  · have h1 : t.val % 2 = 1 := by omega
    have hi : cfg0.idle 10 (grid0.coords t) = false := by
      cases hh : cfg0.idle 10 (grid0.coords t)
      · rfl
      · exact absurd ((idleOut_iff t).mp hh) h0
    rw [show (dats m 0 c).leavesExact 10 t = owns (c : Thread nD τ) (mA10 t) fullShare ((dats m 0 c).after 10 t) from by
      unfold Dat.leavesExact; rw [hi], after10]
    rw [PhiS_odd m c t h1, PhiS_succ_odd m c t.val t.isLt h0, PhiA_eq]
    iintro ⟨⟨⟨HS0, ⟨%w2, %hw2, HS1⟩, ⟨%wA, %hwA, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((runSecond c (grid0.coords t) _ _ _ _ _ _ _ _ _ _ _ _ _ _ _ _ _ _ _ _ _ _ _ _ _ _ _ _ (fun h => h0 ((isFirst_iff t).mp h)) ((isLast_iff t).mpr h1) (iblk m c 0 t) (iblk m c 1 t) (iblk m c 2 t) (iblk m c 3 t) (iblk m c 4 t) (iblk m c 5 t) (iblk m c 6 t) (iblk m c 7 t) (iblk m c 8 t) (iblk m c 9 t) (s1At m c (prev t)) w2 wA).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [HS0]; · iexact HS0
    isplitl [HS1]; · iexact HS1
    isplitl [HS2]; · iexact HS2
    iintro ⟨H0, H1, H2, H3, H4, H5, H6, H7, H8, H9, ⟨%eo, H10⟩, HS0, ⟨%e2, %he2, HS1⟩, ⟨%eA, %heA, HS2⟩⟩
    isplitl [HS0 HS1 HS2 Hg]
    · isplitl [HS0 HS1 HS2]
      · isplitl [HS0]; · iexists _; iexact HS0
        isplitl [HS1]
        · iexists _; unfold owns; iexists _; isplitr
          swap; · iexact HS1
          ipureintro; rfl
        iexists _; unfold owns; iexists _; isplitr
        swap; · iexact HS2
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    unfold owns; iexists _; isplitr
    swap; · iexact H10
    ipureintro
    exact secondOut c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (s1At m c (prev t)) w2 wA eo
      (offA_odd t h1) (off2_odd t h1) (adjAt m c (prev t)) (s2At m c (prev t) (s1At m c (prev t))) hwA hw2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any even number of points but none the invariant is the launch's. -/
theorem PhiS_of_pos_even (c : Dev nD) (n : ℕ) (h : n ≤ cfg0.N) (hz : n ≠ 0) (he : n % 2 = 0) :
    PhiS m c n h = Pipeline.ΦA spec0 c := by
  cases n with
  | zero => exact absurd rfl hz
  | succ k => exact PhiS_succ_odd m c k h (by omega)

/-- After the last point (a slab-1 point) the invariant is the launch's again. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_of_pos_even m c _ _ (by rw [Fin.val_last, show cfg0.N = 8 from N_0]; decide) (by rw [Fin.val_last, show cfg0.N = 8 from N_0])]
  try exact Idealize.SL.BI.Entails.refl _

end Cert.Kernel.Body

end
-- ==== Proof.WKRun.lean ====
/-
  The run of the whole program around its one region, from the body obligation: every weakly fair execution
  terminates, the windowed arrays end at what the write-backs make of them, every other buffer at what the host lines
  after the region compute; hence the frame (the argument arrays end unchanged), and the same run with the program's
  result named: the last host line's value over the output array.
-/
import proofs.«141913_g27616639713710_cont_9to1_58_35_alg».proof.Proof.WObligation

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs and its argument arrays end unchanged, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

/-- The same run with the result named: what the reshape after the region makes of the output array. -/
theorem run_named : θ_run defs (onTc (τ := τ) (main (F := F))) ⟨m, fun _ => 0, ρ⟩ (fun r => ∀ c : Dev nD,
      r.2.mem ((c.tc : Thread nD τ).loc main_v0) = Pipeline.afterTail₀ cfgs (dats m) 0 (V0 m) [hostOps1] c main_v0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c).2 main_v0 (Pipeline.mem_restRefs_of main_v0 (by decide) (by decide)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      ((h c).1 4).trans (((dats m 0 c).arrAt_in 4 rfl _).trans ((A_eq m c 4).trans (V_main_arg4 m c))),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c))),
      (((h c).2 main_arg9 (Pipeline.mem_restRefs_of main_arg9 (by decide) (by decide))).trans (W_main_arg9 m (dats m) c))⟩) (run_main m ρ)

end Cert.Kernel.Body

end
-- ==== Proof.Ends.lean ====
/-
  What the output array ends holding, and the result after the reshape that follows the region.

  The output window's block at point t is row t / 2 of the [4, 1, 128] output array, and it is written back after the
  slab-1 points only. So batch element b's row is written once, at point 2 b + 1, with what that point's body left in
  the staging buffer; the four rows cover the array. The reshape to [4, 128] after the region drops the unit axis
  and keeps the row-major position, so entry (b, l) of the result is column l of what point 2 b + 1 wrote.
-/
import proofs.«141913_g27616639713710_cont_9to1_58_35_alg».proof.Proof.Carried
import Idealize.ShloMosaic.Lib.ValueIdx
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

variable (m : (ℓ : Loc nD τ sig) → Buf (Elt F) ℓ)

/-- The grid has eight points. -/
theorem N8 : cfg0.N = 8 := N_0

/-- The output window's block index at point `t`: the batch element, and the whole of the other two axes. -/
theorem idx10 : ∀ t : Fin cfg0.N, win0_10.index t (0 : Fin 3) = t.val / 2 ∧ win0_10.index t (1 : Fin 3) = 0
    ∧ win0_10.index t (2 : Fin 3) = 0 :=
  (by decide +kernel : ∀ t : Fin grid0.N, win0_10.index t (0 : Fin 3) = t.val / 2 ∧ win0_10.index t (1 : Fin 3) = 0
    ∧ win0_10.index t (2 : Fin 3) = 0)

/-- The point that writes batch element `b`'s output back: its slab-1 point. -/
def lastOf (b : ℕ) (h : b < 4) : Fin cfg0.N := ⟨2 * b + 1, by rw [N8]; omega⟩

/-- What the output array ends holding: row `b` is what batch element `b`'s slab-1 point wrote. -/
def result (c : Dev nD) : S4x1x128.Idx → Elt F .f32 :=
  fun y => outAt m c (lastOf (y 0).val (y 0).isLt) (ix3 0 0 (y 2))

/-- What a slab-1 point writes back is its block of `result`. -/
theorem flushed_eq (c : Dev nD) (t : Fin cfg0.N) (hf : (cfg0.win 10).flush t = true) :
    (dats m 0 c).flushed 10 t = ((cfg0.win 10).blk t).view.read (Elt F) (result m c) := by
  have ho : t.val % 2 = 1 := (flush0_10 t).mp hf
  obtain ⟨e0, e1, e2⟩ := idx10 t
  show (cfg0.win 10).cut (grid0.coords t) ((dats m 0 c).after 10 t) = _
  rw [after10]
  funext j
  show outAt m c t j = result m c (((cfg0.win 10).blk t).view.emb j)
  have hj0 : (j 0).val < 1 := (j 0).isLt
  have hj1 : (j 1).val < 1 := (j 1).isLt
  have h0 : ((((cfg0.win 10).blk t).view.emb j) 0).val = t.val / 2 := by
    show win0_10.index t (0 : Fin 3) * 1 + 1 * (j 0).val = t.val / 2; omega
  have h2 : ((((cfg0.win 10).blk t).view.emb j) 2).val = (j 2).val := by
    show win0_10.index t (2 : Fin 3) * 128 + 1 * (j 2).val = (j 2).val; omega
  have ht : lastOf ((((cfg0.win 10).blk t).view.emb j) 0).val ((((cfg0.win 10).blk t).view.emb j) 0).isLt = t :=
    Fin.ext (by show 2 * ((((cfg0.win 10).blk t).view.emb j) 0).val + 1 = t.val; omega)
  have hi : (ix3 0 0 ((((cfg0.win 10).blk t).view.emb j) 2) : S1x1x128.Idx) = j := funext fun a => Fin.ext (by
    match a with
    | ⟨0, _⟩ => show 0 = (j 0).val; omega
    | ⟨1, _⟩ => show 0 = (j 1).val; omega
    | ⟨2, _⟩ => exact h2)
  show outAt m c t j = outAt m c (lastOf _ _) (ix3 0 0 ((((cfg0.win 10).blk t).view.emb j) 2))
  rw [ht, hi]

/-- An index of the output array is in point `t`'s block iff each coordinate is in the block's range on its axis. -/
theorem mem_blk10 (t : Fin cfg0.N) (i : S4x1x128.Idx) :
    i ∈ ((cfg0.win 10).blk t).view.set ↔ ∀ a : Fin 3, win0_10.index t a * S1x1x128.size a ≤ (i a).val ∧ (i a).val < win0_10.index t a * S1x1x128.size a + S1x1x128.size a := by
  show i ∈ ((View.whole main_call0_v5).slice (win0_10.rect t)).set ↔ _
  rw [View.set_slice_whole, Rect.mem_set_unit]
  exact Iff.rfl

/-- Batch element `b`'s row is written at point `2 b + 1`. -/
theorem cover (i : S4x1x128.Idx) :
    ∃ t : Fin cfg0.N, (cfg0.win 10).flush t = true ∧ i ∈ ((cfg0.win 10).blk t).view.set := by
  have hi0 : (i 0).val < 4 := (i 0).isLt
  have hi1 : (i 1).val < 1 := (i 1).isLt
  have hi2 : (i 2).val < 128 := (i 2).isLt
  refine ⟨lastOf (i 0).val hi0, (flush0_10 _).mpr (by show (2 * (i 0).val + 1) % 2 = 1; omega), ?_⟩
  obtain ⟨e0, e1, e2⟩ := idx10 (lastOf (i 0).val hi0)
  have e0' : win0_10.index (lastOf (i 0).val hi0) (0 : Fin 3) = (2 * (i 0).val + 1) / 2 := e0
  rw [mem_blk10]
  intro a
  match a with
  | ⟨0, _⟩ => show win0_10.index (lastOf (i 0).val hi0) (0 : Fin 3) * 1 ≤ (i 0).val ∧ (i 0).val < win0_10.index (lastOf (i 0).val hi0) (0 : Fin 3) * 1 + 1; omega
  | ⟨1, _⟩ => show win0_10.index (lastOf (i 0).val hi0) (1 : Fin 3) * 1 ≤ (i 1).val ∧ (i 1).val < win0_10.index (lastOf (i 0).val hi0) (1 : Fin 3) * 1 + 1; omega
  | ⟨2, _⟩ => show win0_10.index (lastOf (i 0).val hi0) (2 : Fin 3) * 128 ≤ (i 2).val ∧ (i 2).val < win0_10.index (lastOf (i 0).val hi0) (2 : Fin 3) * 128 + 128; omega

/-- So the output array ends holding, in row `b`, what point `2 b + 1` wrote. -/
theorem final (c : Dev nD) :
    (dats m 0 c).arrAt 10 cfg0.N
      = fun y : S4x1x128.Idx => outAt m c ⟨2 * (y 0).val + 1, by rw [N8]; have h : (y 0).val < 4 := (y 0).isLt; omega⟩ (ix3 0 0 (y 2)) :=
  (dats m 0 c).arrAt_eq_of_cover 10 (result m c) (flushed_eq m c) (cover)

/-- After the reshape that follows the region, entry (b, l) of the result is what batch element `b`'s slab-1 point
    wrote at column `l`: the reshape drops the unit axis and keeps the row-major position. -/
theorem tail (c : Dev nD) (b : Fin 4) (l : Fin 128) :
    Pipeline.afterTail₀ cfgs (dats m) 0 (V0 m) [hostOps1] c main_v0 (ix2 b l)
      = outAt m c ⟨2 * b.val + 1, by rw [N8]; have h := b.isLt; omega⟩ (ix3 0 0 l) := by
  have e : (Pipeline.afterTail₀ cfgs (dats m) 0 (V0 m) [hostOps1] c main_v0 : S4x128.Idx → Elt F .f32)
      = shapeCast S4x128 ((dats m 0 c).arrAt 10 cfg0.N) shapeCasts_S4x1x128_S4x128 := by
    unfold Pipeline.afterTail₀
    show StableHlo.after hostOps1 _ (Proc.devRef .tc main_v0) = _
    after_results
    exact congrArg (fun x => shapeCast S4x128 x shapeCasts_S4x1x128_S4x128)
      (Pipeline.withArrays_arr spec0 launch0.win.arr_inj c _ _ 10)
  refine (congrFun e (ix2 b l)).trans ?_
  refine (shapeCast_apply _ _ (ix2 b l) (ix3 b 0 l) (by
    rw [Shape.rowMajor_val_three, Shape.rowMajor_val_two]
    show (b.val * 1 + 0) * 128 + l.val = b.val * 128 + l.val; omega)).trans ?_
  exact congrFun (final m c) (ix3 b 0 l)

end Cert.KernelIdeal.Body

end
-- ==== Proof.LibDense.lean ====
/-
  Dense layers on the extended reals, entry by entry.

  A matrix product is read at an entry as the sum over the contracted axis of the products of the
  operands' entries; an affine layer adds a bias row to every row of a product; the rectifier takes
  the maximum with zero. The vector unit's matrix product into a zero accumulator and the host's
  general dot product with one contracted axis are both this sum at every entry, so a layer computed
  block of rows by block of rows and a layer computed on the whole array are one function.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Dense

open Idealize.ShloMosaic Idealize.ShloMosaic.ValueIdx

variable {M K N : ℕ}

/-- A matrix of extended reals with `a` rows and `b` columns. -/
abbrev Mat (a b : ℕ) : Type := (⟨2, ![a, b]⟩ : Shape).Idx → EReal
/-- A row of `a` extended reals. -/
abbrev Row (a : ℕ) : Type := (⟨1, ![a]⟩ : Shape).Idx → EReal

/-- The matrix product: entry (r, c) is the sum over k of A(r, k) · W(k, c). -/
def mm (A : Mat M K) (W : Mat K N) : Mat M N := fun i => ∑ k : Fin K, A (ix2 (i 0) k) * W (ix2 k (i 1))

/-- An affine layer: the product plus the bias of the entry's column. -/
def affine (A : Mat M K) (W : Mat K N) (b : Row N) : Mat M N := fun i => mm A W i + b (ix1 (i 1))

/-- The rectifier: the maximum with zero, entry by entry. -/
def relu (X : Mat M N) : Mat M N := fun i => max (X i) 0

/-- The sum over the one contracted axis of a plain M×K by K×N product is the sum over `Fin K`. -/
theorem plain_sum (a : Mat M K) (b : Mat K N) (j : (⟨2, ![M, N]⟩ : Shape).Idx) :
    ∑ k : (DotDims.plain M K N).contr.Idx, a ((DotDims.plain M K N).lhsIdx j k) * b ((DotDims.plain M K N).rhsIdx j k)
      = mm a b j := by
  unfold mm
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact hk)
  have er : (DotDims.plain M K N).rhsIdx j ((contrEquiv1 (DotDims.plain M K N) K rfl rfl).symm k) = ix2 k (j 1) :=
    funext fun a => Fin.ext (by
      match a with
      | ⟨0, _⟩ => exact hk
      | ⟨1, _⟩ => rfl)
  exact congr (congrArg _ (congrArg a el)) (congrArg b er)

/-- The vector unit's plain matrix product into a zero accumulator is the product, entry by entry. -/
theorem matmul_plain_zero {φ₁ φ₂ : FTy} (prec : Option ContractPrecision) (a : FVec Ideal ⟨2, ![M, K]⟩ φ₁) (b : FVec Ideal ⟨2, ![K, N]⟩ φ₂) :
    matmul (DotDims.plain M K N) prec a b (constant (F := Ideal) ⟨2, ![M, N]⟩ .f32 0x00000000#32) = mm a b := by
  funext j
  simp only [matmul]
  rw [Ideal.matmul_constant_zero_apply]
  exact plain_sum a b j

/-- The host's plain general dot product is the product, entry by entry. -/
theorem dotGeneral_plain {φ₁ φ₂ : FTy} (a : FVec Ideal ⟨2, ![M, K]⟩ φ₁) (b : FVec Ideal ⟨2, ![K, N]⟩ φ₂) :
    Host.dotGeneral (F := Ideal) (DotDims.plain M K N) none a b = mm a b := by
  funext j
  simp only [Host.dotGeneral]
  rw [Ideal.dotGeneral_apply]
  exact plain_sum a b j

/-- A change of float format is the identity on the extended reals. -/
theorem truncf_id {s : Shape} {φ ψ : FTy} (a : FVec Ideal s φ) (h : ψ.bits < φ.bits) : (truncf ψ a h : FVec Ideal s ψ) = a := rfl

/-! ## A layer as the vector unit computes it on a block of rows -/

/-- An affine layer whose bias is stored as a one-row matrix. -/
def affine2 (A : Mat M K) (W : Mat K N) (b : Mat 1 N) : Mat M N := fun i => mm A W i + b (ix2 (0 : Fin 1) (i 1))

/-- The product into a zero accumulator plus the bias row broadcast over the rows. -/
theorem addf_matmul_broadcastTo {φ₁ φ₂ : FTy} (prec : Option ContractPrecision) (a : FVec Ideal ⟨2, ![M, K]⟩ φ₁)
    (w : FVec Ideal ⟨2, ![K, N]⟩ φ₂) (b : FVec Ideal ⟨2, ![1, N]⟩ .f32) (h : (⟨2, ![1, N]⟩ : Shape).Broadcasts ⟨2, ![M, N]⟩) :
    addf (matmul (DotDims.plain M K N) prec a w (constant (F := Ideal) ⟨2, ![M, N]⟩ .f32 0x00000000#32)) (broadcastTo ⟨2, ![M, N]⟩ b h)
      = affine2 a w b := by
  rw [matmul_plain_zero]
  funext i
  obtain ⟨p, q, rfl⟩ : ∃ (p : Fin M) (q : Fin N), i = ix2 p q := ⟨i 0, i 1, eq_ix2 i⟩
  show mm a w (ix2 p q) + broadcastTo ⟨2, ![M, N]⟩ b h (ix2 p q) = _
  rw [broadcastTo_1b_ab_apply]
  rfl

/-- The maximum with a splat of the zero word is the rectifier. -/
theorem maximumf_splat_zero (X : FVec Ideal ⟨2, ![M, N]⟩ .f32) :
    maximumf X (broadcast ⟨2, ![M, N]⟩ (Scalar.ofBits (F := Ideal) .f32 0x00000000#32)) = relu X := by
  funext i
  show max (X i) (Ideal.ofBits .f32 0x00000000#32) = max (X i) 0
  rw [Ideal.ofBits_zero_f32]

/-! ## A layer as the host computes it on the whole array -/

/-- The bias of an affine layer with its one-row form: the row read at its one row index. -/
theorem affine_eq_affine2 (A : Mat M K) (W : Mat K N) (b : Row N) (b2 : Mat 1 N)
    (hb : ∀ q : Fin N, b2 (ix2 (0 : Fin 1) q) = b (ix1 q)) : affine2 A W b2 = affine A W b := by
  funext i
  obtain ⟨p, q, rfl⟩ : ∃ (p : Fin M) (q : Fin N), i = ix2 p q := ⟨i 0, i 1, eq_ix2 i⟩
  show mm A W (ix2 p q) + b2 (ix2 (0 : Fin 1) q) = mm A W (ix2 p q) + b (ix1 q)
  rw [hb]

/-- The host's product plus the bias broadcast first to one row and then over the rows. -/
theorem addf_dotGeneral_broadcastInDim {φ₁ φ₂ : FTy} (a : FVec Ideal ⟨2, ![M, K]⟩ φ₁) (w : FVec Ideal ⟨2, ![K, N]⟩ φ₂)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral (F := Ideal) (DotDims.plain M K N) none a w)
        (broadcastInDim ⟨2, ![M, N]⟩ ![0, 1] h2 (broadcastInDim ⟨2, ![1, N]⟩ ![1] h1 b))
      = affine a w b := by
  rw [dotGeneral_plain]
  funext i
  obtain ⟨p, q, rfl⟩ : ∃ (p : Fin M) (q : Fin N), i = ix2 p q := ⟨i 0, i 1, eq_ix2 i⟩
  show mm a w (ix2 p q) + broadcastInDim ⟨2, ![M, N]⟩ ![0, 1] h2 (broadcastInDim ⟨2, ![1, N]⟩ ![1] h1 b) (ix2 p q) = mm a w (ix2 p q) + b (ix1 q)
  rw [broadcastInDim_apply ![0, 1] h2 _ (ix2 p q) (ix2 (0 : Fin 1) q) (fun ax => by
      match ax with
      | ⟨0, _⟩ => rfl
      | ⟨1, _⟩ =>
        show q.val = if N = 1 then 0 else q.val
        split
        · have := q.isLt; omega
        · rfl),
    broadcastInDim_apply ![1] h1 b (ix2 (0 : Fin 1) q) (ix1 q) (fun ax => by
      match ax with
      | ⟨0, _⟩ =>
        show q.val = if N = 1 then 0 else q.val
        split
        · have := q.isLt; omega
        · rfl)]

/-- The maximum with the zero scalar broadcast to the whole shape is the rectifier. -/
theorem maximumf_broadcastInDim_zero (X : FVec Ideal ⟨2, ![M, N]⟩ .f32)
    (h : (⟨0, ![]⟩ : Shape).BroadcastsInDim ⟨2, ![M, N]⟩ ![]) :
    maximumf X (broadcastInDim ⟨2, ![M, N]⟩ ![] h (constant (F := Ideal) ⟨0, ![]⟩ .f32 0x00000000#32)) = relu X := by
  funext i
  show max (X i) (broadcastInDim ⟨2, ![M, N]⟩ ![] h (constant (F := Ideal) ⟨0, ![]⟩ .f32 0x00000000#32) i) = max (X i) 0
  rw [broadcastInDim_apply ![] h _ i ix0 (fun ax => ax.elim0)]
  show max (X i) (Ideal.ofBits .f32 0x00000000#32) = max (X i) 0
  rw [Ideal.ofBits_zero_f32]

/-! ## Rows of a layer -/

/-- A layer on a block of rows is the layer on the whole array at those rows: entry (p, q) of the block's result is
    entry (ρ p, q) of the whole result when row p of the block is row ρ p of the array. -/
theorem mm_rows {M' : ℕ} (A : Mat M' K) (blk : Mat M K) (W : Mat K N) (ρ : Fin M → Fin M')
    (h : ∀ p k, blk (ix2 p k) = A (ix2 (ρ p) k)) (p : Fin M) (q : Fin N) :
    mm blk W (ix2 p q) = mm A W (ix2 (ρ p) q) := by
  unfold mm
  exact Finset.sum_congr rfl fun k _ => by rw [show (ix2 p q : (⟨2, ![M, N]⟩ : Shape).Idx) 0 = p from rfl, h p k]; rfl

/-- So a rectified affine layer on a block of rows, with the whole weight matrix and bias row, is the layer on the
    whole array at those rows. -/
theorem relu_affine2_rows {M' : ℕ} (A : Mat M' K) (blk : Mat M K) (W : Mat K N) (b : Mat 1 N) (ρ : Fin M → Fin M')
    (h : ∀ p k, blk (ix2 p k) = A (ix2 (ρ p) k)) (p : Fin M) (q : Fin N) :
    relu (affine2 blk W b) (ix2 p q) = relu (affine2 A W b) (ix2 (ρ p) q) := by
  show max (mm blk W (ix2 p q) + b (ix2 (0 : Fin 1) q)) 0 = max (mm A W (ix2 (ρ p) q) + b (ix2 (0 : Fin 1) q)) 0
  rw [mm_rows A blk W ρ h p q]

/-- The same without the rectifier. -/
theorem affine2_rows {M' : ℕ} (A : Mat M' K) (blk : Mat M K) (W : Mat K N) (b : Mat 1 N) (ρ : Fin M → Fin M')
    (h : ∀ p k, blk (ix2 p k) = A (ix2 (ρ p) k)) (p : Fin M) (q : Fin N) :
    affine2 blk W b (ix2 p q) = affine2 A W b (ix2 (ρ p) q) := by
  show mm blk W (ix2 p q) + b (ix2 (0 : Fin 1) q) = mm A W (ix2 (ρ p) q) + b (ix2 (0 : Fin 1) q)
  rw [mm_rows A blk W ρ h p q]

end Cert.Dense

end
-- ==== Proof.Spec.lean ====
/-
  The network both programs compute, for ONE batch element, as plain functions of matrices of extended reals.

  A row-normalisation takes a matrix X with C columns, a scale g and a shift b (one entry per column) and sends
  the entry (r, c) to  (X r c - mean_r) / sqrt (var_r + eps) * g c + b c,  mean_r and var_r the mean and the
  variance of row r.  It is written here in the two arrangements the two programs use:

  * `lnK`: mean_r = (sum of the row) * (1/512), var_r = (sum of squares of the row) * (1/512) - mean_r^2, and the
    quotient by the root as a product with the reciprocal root;
  * `lnR`: mean_r = (sum of the row) / 512, var_r = (sum of the squared deviations from mean_r) / 512, the scale
    applied first and the quotient by the root a quotient.

  The network is:  normalise the features, multiply by W1, propagate through the adjacency and rectify;
  normalise again, multiply by W2, propagate and rectify; sum each node's features; map the nodes to the labels
  through Wout and add bout.  `netK` uses `lnK`, `netR` uses `lnR`; they agree when every entry is real and the
  rows have 512 entries (a separate module proves it).
-/
import proofs.«141913_g27616639713710_cont_9to1_58_35_alg».proof.Proof.LibDense

noncomputable section

namespace Cert.Net

open Idealize.ShloMosaic Idealize.ShloMosaic.ValueIdx Cert.Dense
open scoped BigOperators

variable {M C H H' N L : ℕ}

/-- The float words the two programs spell: 1e-5 rounded to f32, 1/512 (a power of two, exact), 512. -/
def eps : EReal := Ideal.ofBits .f32 0x3727C5AC#32
def inv512 : EReal := Ideal.ofBits .f32 0x3B000000#32
def c512 : EReal := Ideal.ofBits .f32 0x44000000#32

/-- The sum of row `r`. -/
def rowSum (X : Mat M C) (r : Fin M) : EReal := ∑ c : Fin C, X (ix2 r c)

/-- The sum of the squares of row `r`. -/
def rowSumSq (X : Mat M C) (r : Fin M) : EReal := ∑ c : Fin C, X (ix2 r c) * X (ix2 r c)

/-- Mean of a row as a product with 1/512. -/
def meanK (X : Mat M C) (r : Fin M) : EReal := rowSum X r * inv512

/-- Variance of a row as the mean of the squares less the square of the mean. -/
def varK (X : Mat M C) (r : Fin M) : EReal := rowSumSq X r * inv512 - meanK X r * meanK X r

/-- Row normalisation, first arrangement. -/
def lnK (X : Mat M C) (g b : Fin C → EReal) : Mat M C := fun i =>
  ((X i - meanK X (i 0)) * Ideal.rsqrt (varK X (i 0) + eps)) * g (i 1) + b (i 1)

/-- Mean of a row as a quotient by 512. -/
def meanR (X : Mat M C) (r : Fin M) : EReal := Ideal.div (rowSum X r) c512

/-- Variance of a row as the mean squared deviation. -/
def varR (X : Mat M C) (r : Fin M) : EReal :=
  Ideal.div (∑ c : Fin C, (X (ix2 r c) - meanR X r) * (X (ix2 r c) - meanR X r)) c512

/-- Row normalisation, second arrangement. -/
def lnR (X : Mat M C) (g b : Fin C → EReal) : Mat M C := fun i =>
  Ideal.div (g (i 1) * (X i - meanR X (i 0))) (Ideal.sqrt (varR X (i 0) + eps)) + b (i 1)

/-- The last two steps: sum each node's features, then map the nodes to the labels and add the bias. -/
def readout (X : Mat N H') (Wout : Mat N L) (bout : Fin L → EReal) : Fin L → EReal := fun l =>
  (∑ n : Fin N, rowSum X n * Wout (ix2 n l)) + bout l

/-- The hidden state after the first layer: rectified propagation of the normalised features times W1. -/
def hidden1 (ln : Mat N C → (Fin C → EReal) → (Fin C → EReal) → Mat N C)
    (v : Mat N C) (adj : Mat N N) (g1 b1 : Fin C → EReal) (W1 : Mat C H) : Mat N H :=
  relu (mm adj (mm (ln v g1 b1) W1))

/-- The network on one batch element, over either arrangement of the normalisation (given for both widths). -/
def net (ln1 : Mat N C → (Fin C → EReal) → (Fin C → EReal) → Mat N C)
    (ln2 : Mat N H → (Fin H → EReal) → (Fin H → EReal) → Mat N H)
    (v : Mat N C) (adj : Mat N N) (g1 b1 : Fin C → EReal) (W1 : Mat C H)
    (g2 b2 : Fin H → EReal) (W2 : Mat H H') (Wout : Mat N L) (bout : Fin L → EReal) : Fin L → EReal :=
  readout (relu (mm adj (mm (ln2 (hidden1 ln1 v adj g1 b1 W1) g2 b2) W2))) Wout bout

/-- The network with the first arrangement of both normalisations. -/
def netK (v : Mat N C) (adj : Mat N N) (g1 b1 : Fin C → EReal) (W1 : Mat C H)
    (g2 b2 : Fin H → EReal) (W2 : Mat H H') (Wout : Mat N L) (bout : Fin L → EReal) : Fin L → EReal :=
  net lnK lnK v adj g1 b1 W1 g2 b2 W2 Wout bout

/-- The network with the second arrangement of both normalisations. -/
def netR (v : Mat N C) (adj : Mat N N) (g1 b1 : Fin C → EReal) (W1 : Mat C H)
    (g2 b2 : Fin H → EReal) (W2 : Mat H H') (Wout : Mat N L) (bout : Fin L → EReal) : Fin L → EReal :=
  net lnR lnR v adj g1 b1 W1 g2 b2 W2 Wout bout

/-- Batch element `b` of a stack of matrices. -/
def slab {B : ℕ} (X : (⟨3, ![B, M, C]⟩ : Shape).Idx → EReal) (b : Fin B) : Mat M C := fun i => X (ix3 b (i 0) (i 1))

/-- A vector as a function of its one coordinate. -/
def vec (x : (⟨1, ![C]⟩ : Shape).Idx → EReal) : Fin C → EReal := fun c => x (ix1 c)

/-- A one-row matrix as a function of its column. -/
def row (x : Mat 1 C) : Fin C → EReal := fun c => x (ix2 0 c)

end Cert.Net

end
-- ==== Proof.LibColumn.lean ====
/-
  A vector laid out as a column, and scalars broadcast, read at an entry.

  A vector of n entries becomes a 1×n matrix by a cast, and an n×1 matrix either by a cast (row-major positions agree: entry r of the vector sits at
  (r, 0)) or by a broadcast along the new axis; a one-entry vector becomes a scalar by a cast; a scalar broadcast to any
  shape is that scalar at every entry; a one-entry vector broadcast over n entries is its one entry everywhere.
-/
import Idealize.ShloMosaic.Lib.ValueIdx
import Idealize.ShloMosaic.Lib.Pipeline.Value

noncomputable section

namespace Cert.Layout

open Idealize.ShloMosaic Idealize.ShloMosaic.ValueIdx

variable {α : Type} {n : ℕ}

/-- The one index of a rank-0 shape is at row-major position 0. -/
theorem rowMajor_val_rank0 (d : Fin 0 → Nat) (i : (⟨0, d⟩ : Shape).Idx) : ((⟨0, d⟩ : Shape).rowMajor i).val = 0 :=
  Shape.rowMajorPi_zero d i

/-- A vector cast to a column, read at (r, q): the vector's entry r. -/
theorem cast_vec_col_apply (v : (⟨1, ![n]⟩ : Shape).Idx → α) (h : (⟨1, ![n]⟩ : Shape).ShapeCasts ⟨2, ![n, 1]⟩) (r : Fin n) (q : Fin 1) :
    shapeCast ⟨2, ![n, 1]⟩ v h (ix2 r q) = v (ix1 r) :=
  shapeCast_apply v h (ix2 r q) (ix1 r) (by
    rw [Shape.rowMajor_val_two, Shape.rowMajor_val_one]
    show r.val = r.val * 1 + q.val
    have := q.isLt
    omega)

/-- A vector cast to a one-row matrix, read at (0, q): the vector's entry q. -/
theorem cast_vec_row_apply (v : (⟨1, ![n]⟩ : Shape).Idx → α) (h : (⟨1, ![n]⟩ : Shape).ShapeCasts ⟨2, ![1, n]⟩) (q : Fin n) :
    shapeCast ⟨2, ![1, n]⟩ v h (ix2 (0 : Fin 1) q) = v (ix1 q) :=
  shapeCast_apply v h (ix2 (0 : Fin 1) q) (ix1 q) (by
    rw [Shape.rowMajor_val_two, Shape.rowMajor_val_one]
    show q.val = (0 : Fin 1).val * n + q.val
    simp)

/-- A one-entry vector cast to a scalar: its one entry. -/
theorem cast_one_scalar_apply (v : (⟨1, ![1]⟩ : Shape).Idx → α) (h : (⟨1, ![1]⟩ : Shape).ShapeCasts ⟨0, ![]⟩) (j : (⟨0, ![]⟩ : Shape).Idx) :
    shapeCast ⟨0, ![]⟩ v h j = v (ix1 (0 : Fin 1)) :=
  shapeCast_apply v h j (ix1 (0 : Fin 1)) (by
    rw [Shape.rowMajor_val_one, rowMajor_val_rank0]
    rfl)

/-- A scalar broadcast to a shape, read anywhere: the scalar. -/
theorem bcast_scalar_apply {s : Shape} (v : (⟨0, ![]⟩ : Shape).Idx → α) (h : (⟨0, ![]⟩ : Shape).BroadcastsInDim s ![]) (j : s.Idx) :
    broadcastInDim s ![] h v j = v ix0 :=
  broadcastInDim_apply ![] h v j ix0 (fun ax => ax.elim0)

/-- A one-entry vector broadcast over n entries, read at r: its one entry. -/
theorem bcast_one_vec_apply (v : (⟨1, ![1]⟩ : Shape).Idx → α) (h : (⟨1, ![1]⟩ : Shape).BroadcastsInDim ⟨1, ![n]⟩ ![0]) (r : Fin n) :
    broadcastInDim ⟨1, ![n]⟩ ![0] h v (ix1 r) = v (ix1 (0 : Fin 1)) :=
  broadcastInDim_apply ![0] h v (ix1 r) (ix1 (0 : Fin 1)) (fun ax => by
    match ax with
    | ⟨0, _⟩ =>
      show (0 : ℕ) = if (1 : ℕ) = 1 then 0 else r.val
      rfl)

/-- A vector broadcast to a column along a new second axis, read at (r, q): the vector's entry r. -/
theorem bcast_vec_col_apply (v : (⟨1, ![n]⟩ : Shape).Idx → α) (h : (⟨1, ![n]⟩ : Shape).BroadcastsInDim ⟨2, ![n, 1]⟩ ![0]) (r : Fin n) (q : Fin 1) :
    broadcastInDim ⟨2, ![n, 1]⟩ ![0] h v (ix2 r q) = v (ix1 r) :=
  broadcastInDim_apply ![0] h v (ix2 r q) (ix1 r) (fun ax => by
    match ax with
    | ⟨0, _⟩ =>
      show r.val = if n = 1 then 0 else r.val
      split
      · have := r.isLt; omega
      · rfl)

end Cert.Layout

end
-- ==== Proof.PayLayout.lean ====
/-
  Layout operations and the row normalisation of the vector unit, read at an entry.

  A stack of one matrix cast to a matrix is the stack's only slab; a column broadcast over the columns reads the
  column's entry of the row; a lane sum along the columns is the row's sum.  With these the normalisation as the
  vector unit spells it -- row sums times 1/512 for the mean, row sums of squares times 1/512 less the squared mean
  for the variance, the reciprocal root of the variance plus epsilon, all as one-column matrices broadcast back over
  the columns, then scale and shift by one-row matrices broadcast over the rows -- is the first arrangement of the
  row normalisation, entry by entry.
-/
import proofs.«141913_g27616639713710_cont_9to1_58_35_alg».proof.Proof.Spec
import proofs.«141913_g27616639713710_cont_9to1_58_35_alg».proof.Proof.LibColumn

noncomputable section

open scoped BigOperators

namespace Cert.KernelIdeal.PayValue

open Idealize.ShloMosaic Idealize.ShloMosaic.ValueIdx Cert.Dense Cert.Net Cert.Layout

variable {a b : ℕ}

/-- A stack of one matrix cast to a matrix: the stack's slab 0. -/
theorem cast_slab (x : (⟨3, ![1, a, b]⟩ : Shape).Idx → EReal) (h : (⟨3, ![1, a, b]⟩ : Shape).ShapeCasts ⟨2, ![a, b]⟩) :
    shapeCast ⟨2, ![a, b]⟩ x h = slab x 0 := by
  funext i
  obtain ⟨p, q, rfl⟩ : ∃ (p : Fin a) (q : Fin b), i = ix2 p q := ⟨i 0, i 1, eq_ix2 i⟩
  refine shapeCast_apply x h (ix2 p q) (ix3 (0 : Fin 1) p q) ?_
  rw [Shape.rowMajor_val_three, Shape.rowMajor_val_two]
  show ((0 : Fin 1).val * a + p.val) * b + q.val = p.val * b + q.val
  simp

/-- A one-column matrix broadcast over b columns reads, at (p, c), the column's entry of row p. -/
theorem broadcastTo_a1_ab_apply {α : Type} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A lane sum along the columns, read at row r: the sum of the row. -/
theorem laneSum_apply (X : FVec Ideal ⟨2, ![a, b]⟩ .f32) (h : (⟨2, ![a, b]⟩ : Shape).Reduces [1] ⟨1, ![a]⟩) (hφ : FKind.Formats .f32)
    (hacc : (0x00000000#32 : BitVec 32) = FKind.add.neutral .f32 hφ) (r : Fin a) :
    multiReduction (F := Ideal) .add [1] ⟨1, ![a]⟩ X 0x00000000#32 h hφ hacc (ix1 r) = rowSum X r := by
  refine (Ideal.multiReduction_add_single X _ h hφ hacc (ix1 r)).trans ?_
  show ∑ k : Fin b, X (h.lift (ix1 r) k) = ∑ c : Fin b, X (ix2 r c)
  refine Finset.sum_congr rfl fun k _ => congrArg X ?_
  funext d
  apply Fin.ext
  match d with
  | ⟨0, _⟩ => rfl
  | ⟨1, _⟩ => rfl

/-! ## The row normalisation as the vector unit spells it -/

section Norm

variable (X : FVec Ideal ⟨2, ![a, b]⟩ .f32) (hr : (⟨2, ![a, b]⟩ : Shape).Reduces [1] ⟨1, ![a]⟩) (hφ : FKind.Formats .f32)
  (hacc : (0x00000000#32 : BitVec 32) = FKind.add.neutral .f32 hφ) (hc : (⟨1, ![a]⟩ : Shape).ShapeCasts ⟨2, ![a, 1]⟩)

/-- The column of row means: the lane sums, laid out as a column, times the word of 1/512. -/
def meanCol : FVec Ideal ⟨2, ![a, 1]⟩ .f32 :=
  mulf (shapeCast ⟨2, ![a, 1]⟩ (multiReduction (F := Ideal) .add [1] ⟨1, ![a]⟩ X 0x00000000#32 hr hφ hacc) hc)
    (broadcast ⟨2, ![a, 1]⟩ (Scalar.ofBits (F := Ideal) .f32 0x3B000000#32))

/-- Its entry of row p is the row's mean in the first arrangement. -/
theorem meanCol_apply (p : Fin a) (z : Fin 1) : meanCol X hr hφ hacc hc (ix2 p z) = meanK X p := by
  show shapeCast ⟨2, ![a, 1]⟩ (multiReduction (F := Ideal) .add [1] ⟨1, ![a]⟩ X 0x00000000#32 hr hφ hacc) hc (ix2 p z)
      * Ideal.ofBits .f32 0x3B000000#32 = rowSum X p * inv512
  rw [cast_vec_col_apply, laneSum_apply]
  rfl

/-- The column of reciprocal roots: lane sums of the squares times the word of 1/512, less the squared mean, plus the
    word of epsilon, under the reciprocal square root. -/
def rstdCol : FVec Ideal ⟨2, ![a, 1]⟩ .f32 :=
  rsqrt (addf
    (subf
      (mulf (shapeCast ⟨2, ![a, 1]⟩ (multiReduction (F := Ideal) .add [1] ⟨1, ![a]⟩ (mulf X X) 0x00000000#32 hr hφ hacc) hc)
        (broadcast ⟨2, ![a, 1]⟩ (Scalar.ofBits (F := Ideal) .f32 0x3B000000#32)))
      (mulf (meanCol X hr hφ hacc hc) (meanCol X hr hφ hacc hc)))
    (broadcast ⟨2, ![a, 1]⟩ (Scalar.ofBits (F := Ideal) .f32 0x3727C5AC#32)))

/-- Its entry of row p is the reciprocal root of the row's variance (first arrangement) plus epsilon. -/
theorem rstdCol_apply (p : Fin a) (z : Fin 1) : rstdCol X hr hφ hacc hc (ix2 p z) = Ideal.rsqrt (varK X p + eps) := by
  show Ideal.rsqrt
      ((shapeCast ⟨2, ![a, 1]⟩ (multiReduction (F := Ideal) .add [1] ⟨1, ![a]⟩ (mulf X X) 0x00000000#32 hr hφ hacc) hc (ix2 p z)
            * Ideal.ofBits .f32 0x3B000000#32
          - meanCol X hr hφ hacc hc (ix2 p z) * meanCol X hr hφ hacc hc (ix2 p z))
        + Ideal.ofBits .f32 0x3727C5AC#32) = _
  rw [cast_vec_col_apply, laneSum_apply, meanCol_apply]
  rfl

variable (g s : FVec Ideal ⟨2, ![1, b]⟩ .f32) (h1 : (⟨2, ![a, 1]⟩ : Shape).Broadcasts ⟨2, ![a, b]⟩)
  (h2 : (⟨2, ![1, b]⟩ : Shape).Broadcasts ⟨2, ![a, b]⟩)

/-- The normalised matrix: the deviation from the mean column times the reciprocal-root column, both broadcast over
    the columns, times the scale row and plus the shift row, both broadcast over the rows. -/
def lnOps : FVec Ideal ⟨2, ![a, b]⟩ .f32 :=
  addf
    (mulf
      (mulf (subf X (broadcastTo ⟨2, ![a, b]⟩ (meanCol X hr hφ hacc hc) h1)) (broadcastTo ⟨2, ![a, b]⟩ (rstdCol X hr hφ hacc hc) h1))
      (broadcastTo ⟨2, ![a, b]⟩ g h2))
    (broadcastTo ⟨2, ![a, b]⟩ s h2)

/-- It is the row normalisation in its first arrangement. -/
theorem lnOps_eq : lnOps X hr hφ hacc hc g s h1 h2 = lnK X (row g) (row s) := by
  funext i
  obtain ⟨p, q, rfl⟩ : ∃ (p : Fin a) (q : Fin b), i = ix2 p q := ⟨i 0, i 1, eq_ix2 i⟩
  show ((X (ix2 p q) - broadcastTo ⟨2, ![a, b]⟩ (meanCol X hr hφ hacc hc) h1 (ix2 p q))
          * broadcastTo ⟨2, ![a, b]⟩ (rstdCol X hr hφ hacc hc) h1 (ix2 p q))
        * broadcastTo ⟨2, ![a, b]⟩ g h2 (ix2 p q)
      + broadcastTo ⟨2, ![a, b]⟩ s h2 (ix2 p q)
    = ((X (ix2 p q) - meanK X p) * Ideal.rsqrt (varK X p + eps)) * g (ix2 (0 : Fin 1) q) + s (ix2 (0 : Fin 1) q)
  rw [broadcastTo_a1_ab_apply, broadcastTo_a1_ab_apply, broadcastTo_1b_ab_apply, broadcastTo_1b_ab_apply, meanCol_apply, rstdCol_apply]

end Norm

/-! ## Products into a zero accumulator, and the last two steps -/

section Product

variable {M K N : ℕ}

/-- A product whose dimension record is the plain one, into a zero accumulator: the matrix product. -/
theorem matmul_zero_of_plain {φ₁ φ₂ : FTy} (d : DotDims ⟨2, ![M, K]⟩ ⟨2, ![K, N]⟩ ⟨2, ![M, N]⟩) (hd : d = DotDims.plain M K N)
    (prec : Option ContractPrecision) (x : FVec Ideal ⟨2, ![M, K]⟩ φ₁) (w : FVec Ideal ⟨2, ![K, N]⟩ φ₂) :
    matmul d prec x w (constant (F := Ideal) ⟨2, ![M, N]⟩ .f32 0x00000000#32) = mm x w := by
  subst hd
  exact matmul_plain_zero prec x w

/-- A one-row matrix given a leading unit axis, read at (0, 0, l): the row's entry l. -/
theorem cast_row_stack_apply {α : Type} (v : (⟨2, ![1, N]⟩ : Shape).Idx → α) (h : (⟨2, ![1, N]⟩ : Shape).ShapeCasts ⟨3, ![1, 1, N]⟩) (l : Fin N) :
    shapeCast ⟨3, ![1, 1, N]⟩ v h (ix3 (0 : Fin 1) (0 : Fin 1) l) = v (ix2 (0 : Fin 1) l) :=
  shapeCast_apply v h (ix3 (0 : Fin 1) (0 : Fin 1) l) (ix2 (0 : Fin 1) l) (by
    rw [Shape.rowMajor_val_three, Shape.rowMajor_val_two]
    show (0 : Fin 1).val * N + l.val = ((0 : Fin 1).val * 1 + (0 : Fin 1).val) * N + l.val
    simp)

/-- The last two steps as the vector unit spells them: the lane sums of Y laid out as one row, times W into a zero
    accumulator, plus the bias row, with a leading unit axis; read at label l it is the readout. -/
theorem readout_ops (Y : FVec Ideal ⟨2, ![K, M]⟩ .f32) (W : FVec Ideal ⟨2, ![K, N]⟩ .f32) (bo : FVec Ideal ⟨2, ![1, N]⟩ .f32)
    (d : DotDims ⟨2, ![1, K]⟩ ⟨2, ![K, N]⟩ ⟨2, ![1, N]⟩) (hd : d = DotDims.plain 1 K N)
    (hr : (⟨2, ![K, M]⟩ : Shape).Reduces [1] ⟨1, ![K]⟩) (hφ : FKind.Formats .f32)
    (hacc : (0x00000000#32 : BitVec 32) = FKind.add.neutral .f32 hφ) (hc : (⟨1, ![K]⟩ : Shape).ShapeCasts ⟨2, ![1, K]⟩)
    (hs : (⟨2, ![1, N]⟩ : Shape).ShapeCasts ⟨3, ![1, 1, N]⟩) (l : Fin N) :
    shapeCast ⟨3, ![1, 1, N]⟩
        (addf
          (matmul d none (shapeCast ⟨2, ![1, K]⟩ (multiReduction (F := Ideal) .add [1] ⟨1, ![K]⟩ Y 0x00000000#32 hr hφ hacc) hc) W
            (constant (F := Ideal) ⟨2, ![1, N]⟩ .f32 0x00000000#32))
          bo)
        hs (ix3 (0 : Fin 1) (0 : Fin 1) l)
      = readout Y W (row bo) l := by
  rw [cast_row_stack_apply, addf_apply, matmul_zero_of_plain d hd]
  show (∑ k : Fin K, shapeCast ⟨2, ![1, K]⟩ (multiReduction (F := Ideal) .add [1] ⟨1, ![K]⟩ Y 0x00000000#32 hr hφ hacc) hc (ix2 (0 : Fin 1) k)
          * W (ix2 k l)) + bo (ix2 (0 : Fin 1) l)
      = (∑ n : Fin K, rowSum Y n * W (ix2 n l)) + bo (ix2 (0 : Fin 1) l)
  refine congrArg (· + bo (ix2 (0 : Fin 1) l)) (Finset.sum_congr rfl fun k _ => ?_)
  rw [cast_vec_row_apply, laneSum_apply]

end Product

end Cert.KernelIdeal.PayValue

end
-- ==== Proof.KernelPayloads.lean ====
/-
  The arithmetic of the kernel's body, read as the network's steps.

  Each value the body stores is a pure function of the values it loads.  Here each of those functions is identified,
  at the extended reals, with a step of the network: the adjacency block is the loaded slab; the first store is the
  normalised features times W1; the rectified propagation is the rectifier of the adjacency slab times the stored
  product; the second store is the normalisation of that times W2; the last store is the readout of the rectified
  second propagation.  A change of float format is the identity at the extended reals and a cast to the same shape is
  the identity, so what is left is the normalisation chain, the products into zero accumulators and the rectifier.
-/
import proofs.«141913_g27616639713710_cont_9to1_58_35_alg».proof.Proof.Gen.KernelIdeal.Skeleton
import proofs.«141913_g27616639713710_cont_9to1_58_35_alg».proof.Proof.PayLayout

noncomputable section

open scoped BigOperators

namespace Cert.KernelIdeal.PayValue

open Idealize.ShloMosaic Idealize.ShloMosaic.ValueIdx Cert.Dense Cert.Net Cert.Layout Cert.KernelIdeal Cert.KernelIdeal.Gen

/-! ## The dimension records are the plain product's -/

theorem dot_adj_eq : dot_S1024x2048_S2048x512_S1024x512_1_0_0_1_n_n = DotDims.plain 1024 2048 512 := rfl
theorem dot_w1_eq : dot_S2048x512_S512x512_S2048x512_1_0_0_1_n_n = DotDims.plain 2048 512 512 := rfl
theorem dot_w2_eq : dot_S1024x512_S512x512_S1024x512_1_0_0_1_n_n = DotDims.plain 1024 512 512 := rfl
theorem dot_full_eq : dot_S2048x2048_S2048x512_S2048x512_1_0_0_1_n_n = DotDims.plain 2048 2048 512 := rfl
theorem dot_out_eq : dot_S1x2048_S2048x128_S1x128_1_0_0_1_n_n = DotDims.plain 1 2048 128 := rfl

/-! ## The adjacency block -/

/-- The loaded adjacency stack, cast to a matrix and narrowed: its slab. -/
theorem pay4_eq (x1 : Vec Ideal S1x1024x2048 .f32) : k0_pay4 (F := Ideal) x1 = slab x1 0 :=
  cast_slab x1 shapeCasts_S1x1024x2048_S1024x2048

/-- What the body stores into the adjacency scratch: the slab. -/
theorem pay5_eq (x1 : Vec Ideal S1x1024x2048 .f32) : k0_pay5 (F := Ideal) x1 = slab x1 0 :=
  (shapeCast_self (k0_pay4 (F := Ideal) x1) shapeCasts_S1024x2048_S1024x2048).trans (pay4_eq x1)

/-! ## The rectified propagation of a block of rows -/

/-- The adjacency slab times the stored product, rectified. -/
theorem pay6_eq (x1 : Vec Ideal S1x1024x2048 .f32) (s1 : Vec Ideal S2048x512 .bf16) :
    k0_pay6 (F := Ideal) x1 s1 = relu (mm (slab x1 0) s1) := by
  show maximumf (matmul dot_S1024x2048_S2048x512_S1024x512_1_0_0_1_n_n none (k0_pay4 (F := Ideal) x1) s1
        (constant (F := Ideal) S1024x512 .f32 0x00000000#32)) (broadcast S1024x512 (Scalar.ofBits (F := Ideal) .f32 0x00000000#32)) = _
  rw [maximumf_splat_zero, matmul_zero_of_plain _ dot_adj_eq, pay4_eq]

/-! ## The two normalised products -/

/-- The first store: the features' slab, normalised, times W1. -/
theorem pay3_eq (x0 : Vec Ideal S1x2048x512 .f32) (x2 x3 : Vec Ideal S1x512 .f32) (x4 : Vec Ideal S512x512 .f32) :
    k0_pay3 (F := Ideal) x0 x2 x3 x4 = mm (lnK (slab x0 0) (row x2) (row x3)) x4 := by
  have e : k0_pay3 (F := Ideal) x0 x2 x3 x4
      = shapeCast S2048x512
          (truncf .bf16
            (matmul dot_S2048x512_S512x512_S2048x512_1_0_0_1_n_n none
              (truncf .bf16
                (lnOps (shapeCast S2048x512 x0 shapeCasts_S1x2048x512_S2048x512) reduces_S2048x512_S2048 (.inl rfl) rfl
                  shapeCasts_S2048_S2048x1 (shapeCast S1x512 x2 shapeCasts_S1x512_S1x512) (shapeCast S1x512 x3 shapeCasts_S1x512_S1x512)
                  broadcasts_S2048x1_S2048x512 broadcasts_S1x512_S2048x512)
                bitsLt_bf16_f32)
              (truncf .bf16 x4 bitsLt_bf16_f32) (constant (F := Ideal) S2048x512 .f32 0x00000000#32))
            bitsLt_bf16_f32)
          shapeCasts_S2048x512_S2048x512 := rfl
  rw [e, shapeCast_self]
  refine (matmul_zero_of_plain _ dot_w1_eq none _ _).trans ?_
  refine congrArg (fun Y => mm Y x4) ((lnOps_eq _ _ _ _ _ _ _ _ _).trans ?_)
  rw [cast_slab, shapeCast_self, shapeCast_self]

/-- The second store: the rectified propagation, normalised, times W2. -/
theorem pay1_eq (x1 : Vec Ideal S1x1024x2048 .f32) (s1 : Vec Ideal S2048x512 .bf16) (x5 x6 : Vec Ideal S1x512 .f32)
    (x7 : Vec Ideal S512x512 .f32) :
    k0_pay1 (F := Ideal) (k0_pay7 x5) (k0_pay8 x6) (k0_pay10 x1 s1) (k0_pay11 x1 s1) x7
      = mm (lnK (relu (mm (slab x1 0) s1)) (row x5) (row x6)) x7 := by
  have e : k0_pay1 (F := Ideal) (k0_pay7 x5) (k0_pay8 x6) (k0_pay10 x1 s1) (k0_pay11 x1 s1) x7
      = shapeCast S1024x512
          (truncf .bf16
            (matmul dot_S1024x512_S512x512_S1024x512_1_0_0_1_n_n none
              (truncf .bf16
                (lnOps (k0_pay6 (F := Ideal) x1 s1) reduces_S1024x512_S1024 (.inl rfl) rfl
                  shapeCasts_S1024_S1024x1 (shapeCast S1x512 x5 shapeCasts_S1x512_S1x512) (shapeCast S1x512 x6 shapeCasts_S1x512_S1x512)
                  broadcasts_S1024x1_S1024x512 broadcasts_S1x512_S1024x512)
                bitsLt_bf16_f32)
              (truncf .bf16 x7 bitsLt_bf16_f32) (constant (F := Ideal) S1024x512 .f32 0x00000000#32))
            bitsLt_bf16_f32)
          shapeCasts_S1024x512_S1024x512 := rfl
  rw [e, shapeCast_self]
  refine (matmul_zero_of_plain _ dot_w2_eq none _ _).trans ?_
  refine congrArg (fun Y => mm Y x7) ((lnOps_eq _ _ _ _ _ _ _ _ _).trans ?_)
  rw [pay6_eq, shapeCast_self, shapeCast_self]

/-! ## The readout -/

/-- The last store: the readout of the rectified second propagation, at label l. -/
theorem pay2_eq (A : Vec Ideal S2048x2048 .bf16) (s2 : Vec Ideal S2048x512 .bf16) (x8 : Vec Ideal S2048x128 .f32)
    (x9 : Vec Ideal S1x128 .f32) (l : Fin 128) :
    k0_pay2 (F := Ideal) A s2 x8 x9 (ix3 0 0 l) = readout (relu (mm A s2)) x8 (row x9) l := by
  have e : k0_pay2 (F := Ideal) A s2 x8 x9
      = shapeCast S1x1x128
          (addf
            (matmul dot_S1x2048_S2048x128_S1x128_1_0_0_1_n_n none
              (shapeCast S1x2048
                (multiReduction (F := Ideal) .add [1] S2048
                  (maximumf
                    (matmul dot_S2048x2048_S2048x512_S2048x512_1_0_0_1_n_n none A s2
                      (constant (F := Ideal) S2048x512 .f32 0x00000000#32))
                    (broadcast S2048x512 (Scalar.ofBits (F := Ideal) .f32 0x00000000#32)))
                  0x00000000#32 reduces_S2048x512_S2048 (.inl rfl) rfl)
                shapeCasts_S2048_S1x2048)
              x8 (constant (F := Ideal) S1x128 .f32 0x00000000#32))
            (shapeCast S1x128 x9 shapeCasts_S1x128_S1x128))
          shapeCasts_S1x128_S1x1x128 := rfl
  rw [e]
  refine (readout_ops _ x8 _ _ dot_out_eq _ _ _ _ _ l).trans ?_
  rw [maximumf_splat_zero, matmul_zero_of_plain _ dot_full_eq, shapeCast_self]

end Cert.KernelIdeal.PayValue

end
-- ==== Proof.LibMatAssoc.lean ====
/-
  Matrices of real entries on the extended reals.

  A row of a matrix product depends on the left factor through that one row only. The product of three matrices
  whose entries are all real (neither infinity) is associative: on the extended reals that takes distributivity of
  the product over a finite sum, which fails at the infinities, so the sums are computed in the reals and carried
  back through the embedding, which commutes with finite sums and with products.
-/
import proofs.«141913_g27616639713710_cont_9to1_58_35_alg».proof.Proof.LibDense

noncomputable section

open scoped BigOperators

namespace Cert.Gcn

open Cert.Dense Idealize.ShloMosaic Idealize.ShloMosaic.ValueIdx

variable {M K L N : ℕ}

/-- Every entry is a real number (neither infinity). -/
def Finite {s : Shape} (X : s.Idx → EReal) : Prop := ∀ i, ∃ r : ℝ, X i = (r : EReal)

/-- The embedding of the reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Row `p` of `blk · W` is row `r` of `A · W` when row `p` of `blk` is row `r` of `A`. -/
theorem mm_row {M' : ℕ} (A : Mat M' K) (blk : Mat M K) (W : Mat K N) (p : Fin M) (r : Fin M')
    (h : ∀ k, blk (ix2 p k) = A (ix2 r k)) (q : Fin N) : mm blk W (ix2 p q) = mm A W (ix2 r q) := by
  show ∑ k : Fin K, blk (ix2 p k) * W (ix2 k q) = ∑ k : Fin K, A (ix2 r k) * W (ix2 k q)
  exact Finset.sum_congr rfl fun k _ => by rw [h k]

/-- Associativity of a triple product of real numbers summed over two finite axes. -/
theorem real_assoc (a : Fin K → ℝ) (x : Fin K → Fin L → ℝ) (w : Fin L → ℝ) :
    ∑ l : Fin L, (∑ k : Fin K, a k * x k l) * w l = ∑ k : Fin K, a k * ∑ l : Fin L, x k l * w l := by
  simp_rw [Finset.sum_mul, Finset.mul_sum]
  rw [Finset.sum_comm]
  exact Finset.sum_congr rfl fun k _ => Finset.sum_congr rfl fun l _ => by ring

/-- The product of three matrices of real entries is associative on the extended reals. -/
theorem mm_assoc (A : Mat M K) (X : Mat K L) (W : Mat L N) (hA : Finite A) (hX : Finite X) (hW : Finite W) :
    mm (mm A X) W = mm A (mm X W) := by
  funext i
  obtain ⟨p, q, rfl⟩ : ∃ (p : Fin M) (q : Fin N), i = ix2 p q := ⟨i 0, i 1, eq_ix2 i⟩
  choose a ha using hA
  choose x hx using hX
  choose w hw using hW
  have hl : mm (mm A X) W (ix2 p q)
      = ((∑ l : Fin L, (∑ k : Fin K, a (ix2 p k) * x (ix2 k l)) * w (ix2 l q) : ℝ) : EReal) := by
    show ∑ l : Fin L, (∑ k : Fin K, A (ix2 p k) * X (ix2 k l)) * W (ix2 l q) = _
    rw [coe_sum]
    refine Finset.sum_congr rfl fun l _ => ?_
    rw [EReal.coe_mul, coe_sum, hw]
    refine congrArg (· * (w (ix2 l q) : EReal)) (Finset.sum_congr rfl fun k _ => ?_)
    rw [EReal.coe_mul, ha, hx]
  have hr : mm A (mm X W) (ix2 p q)
      = ((∑ k : Fin K, a (ix2 p k) * ∑ l : Fin L, x (ix2 k l) * w (ix2 l q) : ℝ) : EReal) := by
    show ∑ k : Fin K, A (ix2 p k) * (∑ l : Fin L, X (ix2 k l) * W (ix2 l q)) = _
    rw [coe_sum]
    refine Finset.sum_congr rfl fun k _ => ?_
    rw [EReal.coe_mul, coe_sum, ha]
    refine congrArg ((a (ix2 p k) : EReal) * ·) (Finset.sum_congr rfl fun l _ => ?_)
    rw [EReal.coe_mul, hx, hw]
  rw [hl, hr]
  exact congrArg _ (real_assoc (fun k => a (ix2 p k)) (fun k l => x (ix2 k l)) (fun l => w (ix2 l q)))

end Cert.Gcn

end
-- ==== Proof.SpecLaws.lean ====
/-
  The laws of the real numbers behind the two arrangements of the row normalisation.

  The float words the programs spell are the reals 1/512 and 512 and a positive real. On a matrix of real entries
  with rows of 512 entries the mean as a product with 1/512 is the mean as a quotient by 512, the mean of the
  squares less the square of the mean is the mean squared deviation, and that variance plus the positive word is
  positive, so the reciprocal root and the quotient by the root are the real ones and the two arrangements are one
  real-valued function. Products and the rectifier keep entries real, so the two networks agree. The normalisation
  works row by row, so a block of rows is normalised as the whole array is.
-/
import proofs.«141913_g27616639713710_cont_9to1_58_35_alg».proof.Proof.Spec
import proofs.«141913_g27616639713710_cont_9to1_58_35_alg».proof.Proof.LibMatAssoc

noncomputable section

namespace Cert.Net

open Idealize.ShloMosaic Idealize.ShloMosaic.ValueIdx Cert.Dense
open scoped BigOperators

/-- The word 0x3B000000 is the real 1/512 (a power of two, so exact). -/
theorem inv512_eq : inv512 = ((1 / 512 : ℝ) : EReal) := by
  simp [inv512, Ideal.ofBits, Ideal.ieee, -EReal.coe_mul]; norm_num

/-- The word 0x44000000 is the real 512. -/
theorem c512_eq : c512 = ((512 : ℝ) : EReal) := by
  simp [c512, Ideal.ofBits, Ideal.ieee, -EReal.coe_mul]; norm_num

/-- The word 0x3727C5AC is a normal number with sign bit 0, so a positive real:
    exponent field 110, fraction field 2606508, that is (2^23 + 2606508) · 2^(110 - 127 - 23). -/
theorem eps_pos : ∃ e : ℝ, 0 < e ∧ eps = (e : EReal) := by
  refine ⟨((2 ^ 23 + 2606508 : ℕ) : ℝ) * (2 : ℝ) ^ ((110 : ℤ) - 127 - 23), by positivity, ?_⟩
  simp [eps, Ideal.ofBits, Ideal.ieee, -EReal.coe_mul]

/-! ## The normalisation is row by row -/

section Rows

variable {M M' C : ℕ}

/-- The sum of a row of a block is the sum of the row of the array it was taken from. -/
theorem rowSum_rows (X : Mat M' C) (blk : Mat M C) (ρ : Fin M → Fin M')
    (h : ∀ p c, blk (ix2 p c) = X (ix2 (ρ p) c)) (p : Fin M) : rowSum blk p = rowSum X (ρ p) := by
  unfold rowSum
  exact Finset.sum_congr rfl fun c _ => h p c

/-- The same for the sum of the squares. -/
theorem rowSumSq_rows (X : Mat M' C) (blk : Mat M C) (ρ : Fin M → Fin M')
    (h : ∀ p c, blk (ix2 p c) = X (ix2 (ρ p) c)) (p : Fin M) : rowSumSq blk p = rowSumSq X (ρ p) := by
  unfold rowSumSq
  exact Finset.sum_congr rfl fun c _ => by rw [h p c]

/-- Normalising a block of rows is normalising the whole array, read at those rows: entry (p, c) of the block's
    result is entry (ρ p, c) of the whole result when row p of the block is row ρ p of the array. -/
theorem lnK_rows (X : Mat M' C) (blk : Mat M C) (g b : Fin C → EReal) (ρ : Fin M → Fin M')
    (h : ∀ p c, blk (ix2 p c) = X (ix2 (ρ p) c)) (p : Fin M) (c : Fin C) :
    lnK blk g b (ix2 p c) = lnK X g b (ix2 (ρ p) c) := by
  show ((blk (ix2 p c) - meanK blk p) * Ideal.rsqrt (varK blk p + eps)) * g c + b c
     = ((X (ix2 (ρ p) c) - meanK X (ρ p)) * Ideal.rsqrt (varK X (ρ p) + eps)) * g c + b c
  unfold varK meanK
  rw [h p c, rowSum_rows X blk ρ h p, rowSumSq_rows X blk ρ h p]

end Rows

/-! ## The two arrangements agree on real rows of 512 entries -/

/-- Every value of the function is a real. -/
def RealFn {ι : Type} (g : ι → EReal) : Prop := ∀ c, ∃ r : ℝ, g c = (r : EReal)

/-- The variance identity on 512 reals: the mean of the squares less the square of the mean is the mean of the
    squared deviations from the mean. Expanding the square, the cross term is twice the mean times the sum, which
    is 2 · 512 · mean², and the constant term summed 512 times is 512 · mean². -/
theorem var_identity (y : Fin 512 → ℝ) :
    (∑ c, y c * y c) * (1 / 512) - ((∑ c, y c) * (1 / 512)) * ((∑ c, y c) * (1 / 512))
      = (∑ c, (y c - (∑ c, y c) * (1 / 512)) * (y c - (∑ c, y c) * (1 / 512))) * (1 / 512) := by
  generalize hS : (∑ c, y c) = S
  have h1 : ∑ c, (y c - S * (1 / 512)) * (y c - S * (1 / 512))
      = (∑ c, y c * y c) - 2 * (S * (1 / 512)) * S + 512 * ((S * (1 / 512)) * (S * (1 / 512))) := by
    have e : ∀ c, (y c - S * (1 / 512)) * (y c - S * (1 / 512))
        = y c * y c - 2 * (S * (1 / 512)) * y c + (S * (1 / 512)) * (S * (1 / 512)) := fun c => by ring
    simp only [e]
    rw [Finset.sum_add_distrib, Finset.sum_sub_distrib, ← Finset.mul_sum, hS, Finset.sum_const, Finset.card_univ,
      Fintype.card_fin, nsmul_eq_mul]
    norm_num
  rw [h1]; ring

section Real

variable {M : ℕ}

/-- The mean of row `r` of a real matrix with 512 columns. -/
def muOf (x : (⟨2, ![M, 512]⟩ : Shape).Idx → ℝ) (r : Fin M) : ℝ := (∑ c : Fin 512, x (ix2 r c)) * (1 / 512)

/-- The variance of row `r`: the mean squared deviation from the mean. -/
def vaOf (x : (⟨2, ![M, 512]⟩ : Shape).Idx → ℝ) (r : Fin M) : ℝ :=
  (∑ c : Fin 512, (x (ix2 r c) - muOf x r) * (x (ix2 r c) - muOf x r)) * (1 / 512)

theorem vaOf_nonneg (x : (⟨2, ![M, 512]⟩ : Shape).Idx → ℝ) (r : Fin M) : 0 ≤ vaOf x r :=
  mul_nonneg (Finset.sum_nonneg fun _ _ => mul_self_nonneg _) (by norm_num)

variable (X : Mat M 512) (x : (⟨2, ![M, 512]⟩ : Shape).Idx → ℝ) (hx : ∀ i, X i = (x i : EReal))
include hx

theorem rowSum_coe (r : Fin M) : rowSum X r = ((∑ c : Fin 512, x (ix2 r c) : ℝ) : EReal) := by
  unfold rowSum
  rw [Cert.Gcn.coe_sum]
  exact Finset.sum_congr rfl fun c _ => hx _

theorem rowSumSq_coe (r : Fin M) : rowSumSq X r = ((∑ c : Fin 512, x (ix2 r c) * x (ix2 r c) : ℝ) : EReal) := by
  unfold rowSumSq
  rw [Cert.Gcn.coe_sum]
  exact Finset.sum_congr rfl fun c _ => by rw [hx, EReal.coe_mul]

theorem meanK_coe (r : Fin M) : meanK X r = (muOf x r : EReal) := by
  unfold meanK muOf
  rw [rowSum_coe X x hx, inv512_eq, ← EReal.coe_mul]

theorem meanR_coe (r : Fin M) : meanR X r = (muOf x r : EReal) := by
  unfold meanR muOf
  rw [rowSum_coe X x hx, c512_eq, Ideal.div_coe (by norm_num), ← EReal.coe_mul]

theorem varK_coe (r : Fin M) : varK X r = (vaOf x r : EReal) := by
  unfold varK
  rw [rowSumSq_coe X x hx, meanK_coe X x hx, inv512_eq, ← EReal.coe_mul, ← EReal.coe_mul, ← EReal.coe_sub]
  exact congrArg _ (var_identity fun c => x (ix2 r c))

theorem varR_coe (r : Fin M) : varR X r = (vaOf x r : EReal) := by
  unfold varR vaOf
  rw [meanR_coe X x hx, c512_eq, Ideal.div_coe (by norm_num), EReal.coe_mul, Cert.Gcn.coe_sum]
  congr 1
  exact Finset.sum_congr rfl fun c _ => by rw [hx, EReal.coe_mul, EReal.coe_sub]

end Real

section Main

variable {M : ℕ}

/-- The first arrangement at an entry of a real matrix, as one real number. -/
theorem lnK_coe (X : Mat M 512) (x : (⟨2, ![M, 512]⟩ : Shape).Idx → ℝ) (hx : ∀ i, X i = (x i : EReal))
    (g b : Fin 512 → EReal) (gr br : Fin 512 → ℝ) (hg : ∀ c, g c = (gr c : EReal)) (hb : ∀ c, b c = (br c : EReal))
    (e : ℝ) (he0 : 0 < e) (he : eps = (e : EReal)) (p : Fin M) (q : Fin 512) :
    lnK X g b (ix2 p q)
      = (((x (ix2 p q) - muOf x p) * (Real.sqrt (vaOf x p + e))⁻¹ * gr q + br q : ℝ) : EReal) := by
  have hpos : 0 < vaOf x p + e := add_pos_of_nonneg_of_pos (vaOf_nonneg x p) he0
  have hrs : Ideal.rsqrt ((vaOf x p + e : ℝ) : EReal) = (((Real.sqrt (vaOf x p + e))⁻¹ : ℝ) : EReal) := by
    rw [Ideal.rsqrt_coe, if_neg (not_lt.mpr hpos.le), if_neg hpos.ne']
  show ((X (ix2 p q) - meanK X p) * Ideal.rsqrt (varK X p + eps)) * g q + b q = _
  rw [hx, meanK_coe X x hx, varK_coe X x hx, he, hg, hb, ← EReal.coe_add, hrs, ← EReal.coe_sub, ← EReal.coe_mul,
    ← EReal.coe_mul, ← EReal.coe_add]

/-- The second arrangement at an entry of a real matrix, as one real number. -/
theorem lnR_coe (X : Mat M 512) (x : (⟨2, ![M, 512]⟩ : Shape).Idx → ℝ) (hx : ∀ i, X i = (x i : EReal))
    (g b : Fin 512 → EReal) (gr br : Fin 512 → ℝ) (hg : ∀ c, g c = (gr c : EReal)) (hb : ∀ c, b c = (br c : EReal))
    (e : ℝ) (he0 : 0 < e) (he : eps = (e : EReal)) (p : Fin M) (q : Fin 512) :
    lnR X g b (ix2 p q)
      = ((gr q * (x (ix2 p q) - muOf x p) * (1 / Real.sqrt (vaOf x p + e)) + br q : ℝ) : EReal) := by
  have hpos : 0 < vaOf x p + e := add_pos_of_nonneg_of_pos (vaOf_nonneg x p) he0
  have hs : Ideal.sqrt ((vaOf x p + e : ℝ) : EReal) = ((Real.sqrt (vaOf x p + e) : ℝ) : EReal) := by
    rw [Ideal.sqrt_coe, if_neg (not_lt.mpr hpos.le)]
  show Ideal.div (g q * (X (ix2 p q) - meanR X p)) (Ideal.sqrt (varR X p + eps)) + b q = _
  rw [hx, meanR_coe X x hx, varR_coe X x hx, he, hg, hb, ← EReal.coe_add, hs,
    Ideal.div_coe (Real.sqrt_pos.mpr hpos).ne', ← EReal.coe_sub, ← EReal.coe_mul, ← EReal.coe_mul, ← EReal.coe_add]

/-- On a real matrix with rows of 512 entries and real scale and shift, the two arrangements of the row
    normalisation are one function. -/
theorem lnK_eq_lnR (X : Mat M 512) (g b : Fin 512 → EReal) (hX : Cert.Gcn.Finite X) (hg : RealFn g) (hb : RealFn b) :
    lnK X g b = lnR X g b := by
  choose x hx using hX
  choose gr hgr using hg
  choose br hbr using hb
  obtain ⟨e, he0, he⟩ := eps_pos
  funext i
  obtain ⟨p, q, rfl⟩ : ∃ (p : Fin M) (q : Fin 512), i = ix2 p q := ⟨i 0, i 1, eq_ix2 i⟩
  rw [lnK_coe X x hx g b gr br hgr hbr e he0 he p q, lnR_coe X x hx g b gr br hgr hbr e he0 he p q]
  congr 1
  rw [one_div]; ring

/-- The normalisation of a real matrix with real scale and shift is real. -/
theorem lnK_finite (X : Mat M 512) (g b : Fin 512 → EReal) (hX : Cert.Gcn.Finite X) (hg : RealFn g) (hb : RealFn b) :
    Cert.Gcn.Finite (lnK X g b) := by
  choose x hx using hX
  choose gr hgr using hg
  choose br hbr using hb
  obtain ⟨e, he0, he⟩ := eps_pos
  intro i
  obtain ⟨p, q, rfl⟩ : ∃ (p : Fin M) (q : Fin 512), i = ix2 p q := ⟨i 0, i 1, eq_ix2 i⟩
  exact ⟨_, lnK_coe X x hx g b gr br hgr hbr e he0 he p q⟩

end Main

/-! ## Products and the rectifier keep entries real; the two networks agree -/

section Net

variable {M K N : ℕ}

/-- A product of real matrices is real: each entry is a finite sum of products of reals. -/
theorem mm_finite (A : Mat M K) (W : Mat K N) (hA : Cert.Gcn.Finite A) (hW : Cert.Gcn.Finite W) :
    Cert.Gcn.Finite (Cert.Dense.mm A W) := by
  choose a ha using hA
  choose w hw using hW
  intro i
  refine ⟨∑ k : Fin K, a (ix2 (i 0) k) * w (ix2 k (i 1)), ?_⟩
  show ∑ k : Fin K, A (ix2 (i 0) k) * W (ix2 k (i 1)) = _
  rw [Cert.Gcn.coe_sum]
  exact Finset.sum_congr rfl fun k _ => by rw [ha, hw, EReal.coe_mul]

/-- The rectifier of a real matrix is real: the maximum of a real and zero. -/
theorem relu_finite (X : Mat M N) (hX : Cert.Gcn.Finite X) : Cert.Gcn.Finite (Cert.Dense.relu X) := by
  intro i
  obtain ⟨r, hr⟩ := hX i
  refine ⟨max r 0, ?_⟩
  show max (X i) 0 = _
  rw [hr]
  rcases le_total r 0 with h | h
  · rw [max_eq_right h, max_eq_right (by exact_mod_cast h), EReal.coe_zero]
  · rw [max_eq_left h, max_eq_left (by exact_mod_cast h)]

/-- The network over the first arrangement is the network over the second when the features, the adjacency, the
    first weight matrix and both scales and shifts are real and the normalised rows have 512 entries: the inner
    normalisations agree, so the first hidden state is the same real matrix, and the outer ones agree on it. -/
theorem netK_eq_netR {N H' L : ℕ} (v : Mat N 512) (adj : Mat N N) (g1 b1 : Fin 512 → EReal) (W1 : Mat 512 512)
    (g2 b2 : Fin 512 → EReal) (W2 : Mat 512 H') (Wout : Mat N L) (bout : Fin L → EReal)
    (hv : Cert.Gcn.Finite v) (hadj : Cert.Gcn.Finite adj) (hg1 : RealFn g1) (hb1 : RealFn b1)
    (hW1 : Cert.Gcn.Finite W1) (hg2 : RealFn g2) (hb2 : RealFn b2) :
    netK v adj g1 b1 W1 g2 b2 W2 Wout bout = netR v adj g1 b1 W1 g2 b2 W2 Wout bout := by
  have h1 : lnK v g1 b1 = lnR v g1 b1 := lnK_eq_lnR v g1 b1 hv hg1 hb1
  have f1 : Cert.Gcn.Finite (lnR v g1 b1) := h1 ▸ lnK_finite v g1 b1 hv hg1 hb1
  have h2 : lnK (relu (mm adj (mm (lnR v g1 b1) W1))) g2 b2 = lnR (relu (mm adj (mm (lnR v g1 b1) W1))) g2 b2 :=
    lnK_eq_lnR _ g2 b2 (relu_finite _ (mm_finite _ _ hadj (mm_finite _ _ f1 hW1))) hg2 hb2
  unfold netK netR net hidden1
  rw [h1, h2]

end Net

end Cert.Net

end
-- ==== Proof.Blocks.lean ====
/-
  The windows' blocks, read off the arrays the region finds.

  The grid is 4 batch elements by 2 slabs; point t is batch element t / 2, slab t % 2. An element of a window's block
  sits in the window's array, on each axis, at the block index times the block's size plus its coordinate inside
  the block; the block indices are decided over the eight points. The feature window holds batch element t / 2;
  the adjacency window holds rows 1024 · (t % 2) … of batch element t / 2; every other input window holds its
  whole array at every point. The scale, shift and bias vectors reach their windows through a reshape to one row,
  which keeps the row-major position, so column q of the row is entry q of the vector.
-/
import proofs.«141913_g27616639713710_cont_9to1_58_35_alg».proof.Proof.BodyFacts
import Idealize.ShloMosaic.Lib.ValueIdx
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

variable (m : (ℓ : Loc nD τ sig) → Buf (Elt F) ℓ)

/-- The grid has eight points. -/
theorem lt8 (t : Fin cfg0.N) : t.val < 8 := lt_of_lt_of_eq t.isLt N_0

/-- Window 0's block index at point `t`: the batch element on the first axis, the whole of the other two. -/
theorem idx0 : ∀ t : Fin cfg0.N, win0_0.index t (0 : Fin 3) = t.val / 2 ∧ win0_0.index t (1 : Fin 3) = 0
    ∧ win0_0.index t (2 : Fin 3) = 0 :=
  (by decide +kernel : ∀ t : Fin grid0.N, win0_0.index t (0 : Fin 3) = t.val / 2 ∧ win0_0.index t (1 : Fin 3) = 0
    ∧ win0_0.index t (2 : Fin 3) = 0)

/-- Window 0's block at point `t` is batch element `t / 2` of the features. -/
theorem blk0 (c : Dev nD) (t : Fin cfg0.N) (p : Fin 2048) (q : Fin 512) :
    iblk m c 0 t (ix3 0 p q) = V m c main_arg0 (ix3 ⟨t.val / 2, by have := lt8 t; omega⟩ p q) := by
  obtain ⟨e0, e1, e2⟩ := idx0 t
  show V m c main_arg0 (((cfg0.win 0).blk t).view.emb (ix3 0 p q)) = V m c main_arg0 (ix3 ⟨t.val / 2, _⟩ p q)
  refine congrArg _ (funext fun a => Fin.ext ?_)
  match a with
  | ⟨0, _⟩ => show win0_0.index t (0 : Fin 3) * 1 + 1 * 0 = t.val / 2; omega
  | ⟨1, _⟩ => show win0_0.index t (1 : Fin 3) * 2048 + 1 * p.val = p.val; omega
  | ⟨2, _⟩ => show win0_0.index t (2 : Fin 3) * 512 + 1 * q.val = q.val; omega

/-- Window 1's block index at point `t`: the batch element, the slab of 1024 rows, the whole of the columns. -/
theorem idx1 : ∀ t : Fin cfg0.N, win0_1.index t (0 : Fin 3) = t.val / 2 ∧ win0_1.index t (1 : Fin 3) = t.val % 2
    ∧ win0_1.index t (2 : Fin 3) = 0 :=
  (by decide +kernel : ∀ t : Fin grid0.N, win0_1.index t (0 : Fin 3) = t.val / 2 ∧ win0_1.index t (1 : Fin 3) = t.val % 2
    ∧ win0_1.index t (2 : Fin 3) = 0)

/-- Window 1's block at point `t` is slab `t % 2` of the adjacency of batch element `t / 2`. -/
theorem blk1 (c : Dev nD) (t : Fin cfg0.N) (p : Fin 1024) (q : Fin 2048) :
    iblk m c 1 t (ix3 0 p q)
      = V m c main_arg1 (ix3 ⟨t.val / 2, by have := lt8 t; omega⟩ ⟨1024 * (t.val % 2) + p.val, by have := p.isLt; omega⟩ q) := by
  obtain ⟨e0, e1, e2⟩ := idx1 t
  show V m c main_arg1 (((cfg0.win 1).blk t).view.emb (ix3 0 p q)) = V m c main_arg1 (ix3 ⟨t.val / 2, _⟩ ⟨1024 * (t.val % 2) + p.val, _⟩ q)
  refine congrArg _ (funext fun a => Fin.ext ?_)
  match a with
  | ⟨0, _⟩ => show win0_1.index t (0 : Fin 3) * 1 + 1 * 0 = t.val / 2; omega
  | ⟨1, _⟩ => show win0_1.index t (1 : Fin 3) * 1024 + 1 * p.val = 1024 * (t.val % 2) + p.val; omega
  | ⟨2, _⟩ => show win0_1.index t (2 : Fin 3) * 2048 + 1 * q.val = q.val; omega

/-! ## The windows that hold a whole array at every point -/

/-- Their block indices are zero on both axes at every point. -/
theorem idxWhole : ∀ t : Fin cfg0.N,
    (win0_2.index t (0 : Fin 2) = 0 ∧ win0_2.index t (1 : Fin 2) = 0) ∧ (win0_3.index t (0 : Fin 2) = 0 ∧ win0_3.index t (1 : Fin 2) = 0)
    ∧ (win0_4.index t (0 : Fin 2) = 0 ∧ win0_4.index t (1 : Fin 2) = 0) ∧ (win0_5.index t (0 : Fin 2) = 0 ∧ win0_5.index t (1 : Fin 2) = 0)
    ∧ (win0_6.index t (0 : Fin 2) = 0 ∧ win0_6.index t (1 : Fin 2) = 0) ∧ (win0_7.index t (0 : Fin 2) = 0 ∧ win0_7.index t (1 : Fin 2) = 0)
    ∧ (win0_8.index t (0 : Fin 2) = 0 ∧ win0_8.index t (1 : Fin 2) = 0) ∧ (win0_9.index t (0 : Fin 2) = 0 ∧ win0_9.index t (1 : Fin 2) = 0) :=
  (by decide +kernel : ∀ t : Fin grid0.N,
    (win0_2.index t (0 : Fin 2) = 0 ∧ win0_2.index t (1 : Fin 2) = 0) ∧ (win0_3.index t (0 : Fin 2) = 0 ∧ win0_3.index t (1 : Fin 2) = 0)
    ∧ (win0_4.index t (0 : Fin 2) = 0 ∧ win0_4.index t (1 : Fin 2) = 0) ∧ (win0_5.index t (0 : Fin 2) = 0 ∧ win0_5.index t (1 : Fin 2) = 0)
    ∧ (win0_6.index t (0 : Fin 2) = 0 ∧ win0_6.index t (1 : Fin 2) = 0) ∧ (win0_7.index t (0 : Fin 2) = 0 ∧ win0_7.index t (1 : Fin 2) = 0)
    ∧ (win0_8.index t (0 : Fin 2) = 0 ∧ win0_8.index t (1 : Fin 2) = 0) ∧ (win0_9.index t (0 : Fin 2) = 0 ∧ win0_9.index t (1 : Fin 2) = 0))

/-- The region finds the one-row array of window 2 holding the first scale vector, reshaped. -/
theorem V_call0_v0 (c : Dev nD) :
    (V m c main_call0_v0 : S1x512.Idx → Elt F .f32) = shapeCast S1x512 (m ((c : Thread nD τ).loc main_arg2)) shapeCasts_S512_S1x512 := by
  show StableHlo.after hostOps0 (fun b => m (c, b)) (Proc.devRef .tc main_call0_v0) = _
  after_results; rfl

/-- The region finds the one-row array of window 3 holding the first shift vector, reshaped. -/
theorem V_call0_v1 (c : Dev nD) :
    (V m c main_call0_v1 : S1x512.Idx → Elt F .f32) = shapeCast S1x512 (m ((c : Thread nD τ).loc main_arg3)) shapeCasts_S512_S1x512 := by
  show StableHlo.after hostOps0 (fun b => m (c, b)) (Proc.devRef .tc main_call0_v1) = _
  after_results; rfl

/-- The region finds the one-row array of window 5 holding the second scale vector, reshaped. -/
theorem V_call0_v2 (c : Dev nD) :
    (V m c main_call0_v2 : S1x512.Idx → Elt F .f32) = shapeCast S1x512 (m ((c : Thread nD τ).loc main_arg5)) shapeCasts_S512_S1x512 := by
  show StableHlo.after hostOps0 (fun b => m (c, b)) (Proc.devRef .tc main_call0_v2) = _
  after_results; rfl

/-- The region finds the one-row array of window 6 holding the second shift vector, reshaped. -/
theorem V_call0_v3 (c : Dev nD) :
    (V m c main_call0_v3 : S1x512.Idx → Elt F .f32) = shapeCast S1x512 (m ((c : Thread nD τ).loc main_arg6)) shapeCasts_S512_S1x512 := by
  show StableHlo.after hostOps0 (fun b => m (c, b)) (Proc.devRef .tc main_call0_v3) = _
  after_results; rfl

/-- The region finds the one-row array of window 9 holding the output bias, reshaped. -/
theorem V_call0_v4 (c : Dev nD) :
    (V m c main_call0_v4 : S1x128.Idx → Elt F .f32) = shapeCast S1x128 (m ((c : Thread nD τ).loc main_arg9)) shapeCasts_S128_S1x128 := by
  show StableHlo.after hostOps0 (fun b => m (c, b)) (Proc.devRef .tc main_call0_v4) = _
  after_results; rfl

/-- Window 2's block at every point is the first scale vector as one row. -/
theorem blk2 (c : Dev nD) (t : Fin cfg0.N) (q : Fin 512) :
    iblk m c 2 t (ix2 0 q) = m ((c : Thread nD τ).loc main_arg2) (ix1 q) := by
  obtain ⟨⟨e0, e1⟩, -⟩ := idxWhole t
  show V m c main_call0_v0 (((cfg0.win 2).blk t).view.emb (ix2 0 q)) = _
  have he : ((cfg0.win 2).blk t).view.emb (ix2 0 q) = (ix2 0 q : S1x512.Idx) := funext fun a => Fin.ext (by
    match a with
    | ⟨0, _⟩ => show win0_2.index t (0 : Fin 2) * 1 + 1 * 0 = 0; omega
    | ⟨1, _⟩ => show win0_2.index t (1 : Fin 2) * 512 + 1 * q.val = q.val; omega)
  refine (congrArg (V m c main_call0_v0) he).trans ?_
  refine (congrFun (V_call0_v0 m c) (ix2 0 q)).trans ?_
  exact shapeCast_apply _ _ _ (ix1 q) (by
    rw [Shape.rowMajor_val_one, Shape.rowMajor_val_two]; show q.val = 0 * 512 + q.val; omega)

/-- Window 3's block at every point is the first shift vector as one row. -/
theorem blk3 (c : Dev nD) (t : Fin cfg0.N) (q : Fin 512) :
    iblk m c 3 t (ix2 0 q) = m ((c : Thread nD τ).loc main_arg3) (ix1 q) := by
  obtain ⟨-, ⟨e0, e1⟩, -⟩ := idxWhole t
  show V m c main_call0_v1 (((cfg0.win 3).blk t).view.emb (ix2 0 q)) = _
  have he : ((cfg0.win 3).blk t).view.emb (ix2 0 q) = (ix2 0 q : S1x512.Idx) := funext fun a => Fin.ext (by
    match a with
    | ⟨0, _⟩ => show win0_3.index t (0 : Fin 2) * 1 + 1 * 0 = 0; omega
    | ⟨1, _⟩ => show win0_3.index t (1 : Fin 2) * 512 + 1 * q.val = q.val; omega)
  refine (congrArg (V m c main_call0_v1) he).trans ?_
  refine (congrFun (V_call0_v1 m c) (ix2 0 q)).trans ?_
  exact shapeCast_apply _ _ _ (ix1 q) (by
    rw [Shape.rowMajor_val_one, Shape.rowMajor_val_two]; show q.val = 0 * 512 + q.val; omega)

/-- Window 5's block at every point is the second scale vector as one row. -/
theorem blk5 (c : Dev nD) (t : Fin cfg0.N) (q : Fin 512) :
    iblk m c 5 t (ix2 0 q) = m ((c : Thread nD τ).loc main_arg5) (ix1 q) := by
  obtain ⟨-, -, -, ⟨e0, e1⟩, -⟩ := idxWhole t
  show V m c main_call0_v2 (((cfg0.win 5).blk t).view.emb (ix2 0 q)) = _
  have he : ((cfg0.win 5).blk t).view.emb (ix2 0 q) = (ix2 0 q : S1x512.Idx) := funext fun a => Fin.ext (by
    match a with
    | ⟨0, _⟩ => show win0_5.index t (0 : Fin 2) * 1 + 1 * 0 = 0; omega
    | ⟨1, _⟩ => show win0_5.index t (1 : Fin 2) * 512 + 1 * q.val = q.val; omega)
  refine (congrArg (V m c main_call0_v2) he).trans ?_
  refine (congrFun (V_call0_v2 m c) (ix2 0 q)).trans ?_
  exact shapeCast_apply _ _ _ (ix1 q) (by
    rw [Shape.rowMajor_val_one, Shape.rowMajor_val_two]; show q.val = 0 * 512 + q.val; omega)

/-- Window 6's block at every point is the second shift vector as one row. -/
theorem blk6 (c : Dev nD) (t : Fin cfg0.N) (q : Fin 512) :
    iblk m c 6 t (ix2 0 q) = m ((c : Thread nD τ).loc main_arg6) (ix1 q) := by
  obtain ⟨-, -, -, -, ⟨e0, e1⟩, -⟩ := idxWhole t
  show V m c main_call0_v3 (((cfg0.win 6).blk t).view.emb (ix2 0 q)) = _
  have he : ((cfg0.win 6).blk t).view.emb (ix2 0 q) = (ix2 0 q : S1x512.Idx) := funext fun a => Fin.ext (by
    match a with
    | ⟨0, _⟩ => show win0_6.index t (0 : Fin 2) * 1 + 1 * 0 = 0; omega
    | ⟨1, _⟩ => show win0_6.index t (1 : Fin 2) * 512 + 1 * q.val = q.val; omega)
  refine (congrArg (V m c main_call0_v3) he).trans ?_
  refine (congrFun (V_call0_v3 m c) (ix2 0 q)).trans ?_
  exact shapeCast_apply _ _ _ (ix1 q) (by
    rw [Shape.rowMajor_val_one, Shape.rowMajor_val_two]; show q.val = 0 * 512 + q.val; omega)

/-- Window 9's block at every point is the output bias as one row. -/
theorem blk9 (c : Dev nD) (t : Fin cfg0.N) (q : Fin 128) :
    iblk m c 9 t (ix2 0 q) = m ((c : Thread nD τ).loc main_arg9) (ix1 q) := by
  obtain ⟨-, -, -, -, -, -, -, e0, e1⟩ := idxWhole t
  show V m c main_call0_v4 (((cfg0.win 9).blk t).view.emb (ix2 0 q)) = _
  have he : ((cfg0.win 9).blk t).view.emb (ix2 0 q) = (ix2 0 q : S1x128.Idx) := funext fun a => Fin.ext (by
    match a with
    | ⟨0, _⟩ => show win0_9.index t (0 : Fin 2) * 1 + 1 * 0 = 0; omega
    | ⟨1, _⟩ => show win0_9.index t (1 : Fin 2) * 128 + 1 * q.val = q.val; omega)
  refine (congrArg (V m c main_call0_v4) he).trans ?_
  refine (congrFun (V_call0_v4 m c) (ix2 0 q)).trans ?_
  exact shapeCast_apply _ _ _ (ix1 q) (by
    rw [Shape.rowMajor_val_one, Shape.rowMajor_val_two]; show q.val = 0 * 128 + q.val; omega)

/-- Window 4's block at every point is the first weight matrix, whole. -/
theorem blk4 (c : Dev nD) (t : Fin cfg0.N) :
    (iblk m c 4 t : S512x512.Idx → Elt F .f32) = m ((c : Thread nD τ).loc main_arg4) := by
  obtain ⟨-, -, ⟨e0, e1⟩, -⟩ := idxWhole t
  funext i
  show V m c main_arg4 (((cfg0.win 4).blk t).view.emb i) = _
  have he : ((cfg0.win 4).blk t).view.emb i = i := funext fun a => Fin.ext (by
    match a with
    | ⟨0, _⟩ => show win0_4.index t (0 : Fin 2) * 512 + 1 * (i 0).val = (i 0).val; omega
    | ⟨1, _⟩ => show win0_4.index t (1 : Fin 2) * 512 + 1 * (i 1).val = (i 1).val; omega)
  refine (congrArg (V m c main_arg4) he).trans ?_
  exact congrFun (V_main_arg4 m c) i

/-- Window 7's block at every point is the second weight matrix, whole. -/
theorem blk7 (c : Dev nD) (t : Fin cfg0.N) :
    (iblk m c 7 t : S512x512.Idx → Elt F .f32) = m ((c : Thread nD τ).loc main_arg7) := by
  obtain ⟨-, -, -, -, -, ⟨e0, e1⟩, -⟩ := idxWhole t
  funext i
  show V m c main_arg7 (((cfg0.win 7).blk t).view.emb i) = _
  have he : ((cfg0.win 7).blk t).view.emb i = i := funext fun a => Fin.ext (by
    match a with
    | ⟨0, _⟩ => show win0_7.index t (0 : Fin 2) * 512 + 1 * (i 0).val = (i 0).val; omega
    | ⟨1, _⟩ => show win0_7.index t (1 : Fin 2) * 512 + 1 * (i 1).val = (i 1).val; omega)
  refine (congrArg (V m c main_arg7) he).trans ?_
  exact congrFun (V_main_arg7 m c) i

/-- Window 8's block at every point is the output weight matrix, whole. -/
theorem blk8 (c : Dev nD) (t : Fin cfg0.N) :
    (iblk m c 8 t : S2048x128.Idx → Elt F .f32) = m ((c : Thread nD τ).loc main_arg8) := by
  obtain ⟨-, -, -, -, -, -, ⟨e0, e1⟩, -⟩ := idxWhole t
  funext i
  show V m c main_arg8 (((cfg0.win 8).blk t).view.emb i) = _
  have he : ((cfg0.win 8).blk t).view.emb i = i := funext fun a => Fin.ext (by
    match a with
    | ⟨0, _⟩ => show win0_8.index t (0 : Fin 2) * 2048 + 1 * (i 0).val = (i 0).val; omega
    | ⟨1, _⟩ => show win0_8.index t (1 : Fin 2) * 128 + 1 * (i 1).val = (i 1).val; omega)
  refine (congrArg (V m c main_arg8) he).trans ?_
  exact congrFun (V_main_arg8 m c) i

end Cert.KernelIdeal.Body

end
-- ==== Proof.KernelValue.lean ====
/-
  The value the kernel writes for one batch element.

  The two grid points of a batch element see the two slabs of 1024 adjacency rows.  Stacked, the slabs are the
  element's whole adjacency; a product, the rectifier and the row normalisation act row by row, so the second layer's
  support computed slab by slab and stacked is the support computed from the whole adjacency; the readout of the
  rectified propagation of that support is then the network.
-/
import proofs.«141913_g27616639713710_cont_9to1_58_35_alg».proof.Proof.Carried
import proofs.«141913_g27616639713710_cont_9to1_58_35_alg».proof.Proof.KernelPayloads
import proofs.«141913_g27616639713710_cont_9to1_58_35_alg».proof.Proof.SpecLaws
import proofs.«141913_g27616639713710_cont_9to1_58_35_alg».proof.Proof.Blocks

set_option maxRecDepth 16384

noncomputable section

open scoped BigOperators

namespace Cert.KernelIdeal.Body

open Cert.KernelIdeal Cert.KernelIdeal.Gen Cert.KernelIdeal.PayValue
open Idealize.ShloMosaic Idealize.ShloMosaic.ValueIdx Cert.Dense Cert.Net

/-! ## Stacking -/

/-- Two blocks of 1024 rows, stacked, are the 2048-row matrix whose upper and lower rows they are. -/
theorem stack_eq {C : ℕ} {α : Type} (lo hi : (⟨2, ![1024, C]⟩ : Shape).Idx → α) (X : (⟨2, ![2048, C]⟩ : Shape).Idx → α)
    (hlo : ∀ (p : Fin 1024) (q : Fin C), lo (ix2 p q) = X (ix2 ⟨p.val, by have := p.isLt; omega⟩ q))
    (hhi : ∀ (p : Fin 1024) (q : Fin C), hi (ix2 p q) = X (ix2 ⟨1024 + p.val, by have := p.isLt; omega⟩ q)) :
    stack lo hi = X := by
  funext y
  dsimp only [stack]
  split
  · rename_i h
    refine (hlo _ _).trans (congrArg X ?_)
    exact (eq_ix2 y).symm
  · rename_i h
    refine (hhi _ _).trans (congrArg X ?_)
    funext a
    match a with
    | ⟨0, _⟩ => exact Fin.ext (by show 1024 + ((y 0).val - 1024) = (y 0).val; omega)
    | ⟨1, _⟩ => rfl

/-! ## The second layer, row by row -/

/-- The second layer's support on a block of adjacency rows is the support on the whole adjacency at those rows:
    the product with the first support, the rectifier, the normalisation and the product with W2 all act row by row. -/
theorem layer2_rows {M M' K C N : ℕ} (A : Mat M' K) (blk : Mat M K) (S : Mat K C) (g s : Fin C → EReal) (W : Mat C N)
    (ρ : Fin M → Fin M') (h : ∀ p k, blk (ix2 p k) = A (ix2 (ρ p) k)) (p : Fin M) (q : Fin N) :
    mm (lnK (relu (mm blk S)) g s) W (ix2 p q) = mm (lnK (relu (mm A S)) g s) W (ix2 (ρ p) q) :=
  mm_rows _ _ W ρ (fun p c => lnK_rows _ _ g s ρ (fun p c => by
    show max (mm blk S (ix2 p c)) 0 = max (mm A S (ix2 (ρ p) c)) 0
    rw [mm_rows A blk S ρ h p c]) p c) p q

/-! ## The network from its slabs -/

/-- The readout of the rectified propagation, through the stacked adjacency slabs, of the stacked slabs of the
    second support is the network on the batch element. -/
theorem net_stack (b : Fin 4) (v : (⟨3, ![4, 2048, 512]⟩ : Shape).Idx → EReal) (adj : (⟨3, ![4, 2048, 2048]⟩ : Shape).Idx → EReal)
    (g1 s1 g2 s2 : Fin 512 → EReal) (W1 W2 : Mat 512 512) (Wo : Mat 2048 128) (bo : Fin 128 → EReal)
    (Alo Ahi : Mat 1024 2048) (S1 : Mat 2048 512) (Slo Shi : Mat 1024 512) (Wo' : Mat 2048 128) (bo' : Fin 128 → EReal)
    (hS1 : S1 = mm (lnK (slab v b) g1 s1) W1)
    (hAlo : ∀ (p : Fin 1024) (q : Fin 2048), Alo (ix2 p q) = adj (ix3 b ⟨p.val, by have := p.isLt; omega⟩ q))
    (hAhi : ∀ (p : Fin 1024) (q : Fin 2048), Ahi (ix2 p q) = adj (ix3 b ⟨1024 + p.val, by have := p.isLt; omega⟩ q))
    (hSlo : Slo = mm (lnK (relu (mm Alo S1)) g2 s2) W2) (hShi : Shi = mm (lnK (relu (mm Ahi S1)) g2 s2) W2)
    (hWo : Wo' = Wo) (hbo : bo' = bo) (l : Fin 128) :
    readout (relu (mm (stack Alo Ahi) (stack Slo Shi))) Wo' bo' l = netK (slab v b) (slab adj b) g1 s1 W1 g2 s2 W2 Wo bo l := by
  have hA : stack Alo Ahi = slab adj b := stack_eq Alo Ahi (slab adj b) hAlo hAhi
  have hS : stack Slo Shi = mm (lnK (relu (mm (slab adj b) S1)) g2 s2) W2 := by
    subst hSlo hShi
    refine stack_eq _ _ _ (fun p q => ?_) (fun p q => ?_)
    · exact layer2_rows (slab adj b) Alo S1 g2 s2 W2 (fun p => ⟨p.val, by have := p.isLt; omega⟩) hAlo p q
    · exact layer2_rows (slab adj b) Ahi S1 g2 s2 W2 (fun p => ⟨1024 + p.val, by have := p.isLt; omega⟩) hAhi p q
  rw [hA, hS, hS1, hWo, hbo]
  rfl

/-! ## The stored values over the blocks -/

/-- The first store, when the feature block is batch element b and the one-row blocks are the vectors. -/
theorem s1_value (b : Fin 4) (v : (⟨3, ![4, 2048, 512]⟩ : Shape).Idx → EReal) (G S : (⟨1, ![512]⟩ : Shape).Idx → EReal) (W' : Mat 512 512)
    (x0 : Vec Ideal S1x2048x512 .f32) (g s : Vec Ideal S1x512 .f32) (W : Vec Ideal S512x512 .f32)
    (h0 : ∀ (p : Fin 2048) (q : Fin 512), x0 (ix3 0 p q) = v (ix3 b p q))
    (hg : ∀ q : Fin 512, g (ix2 0 q) = G (ix1 q)) (hs : ∀ q : Fin 512, s (ix2 0 q) = S (ix1 q)) (hW : W = W') :
    k0_pay3 (F := Ideal) x0 g s W = mm (lnK (slab v b) (vec G) (vec S)) W' := by
  subst hW
  have e1 : slab x0 0 = slab v b := funext fun i => h0 (i 0) (i 1)
  have e2 : row g = vec G := funext hg
  have e3 : row s = vec S := funext hs
  rw [pay3_eq, e1, e2, e3]

/-- An adjacency store, when the block holds the rows ρ of batch element b. -/
theorem adj_value (b : Fin 4) (adj : (⟨3, ![4, 2048, 2048]⟩ : Shape).Idx → EReal) (a : Vec Ideal S1x1024x2048 .f32) (ρ : Fin 1024 → Fin 2048)
    (h : ∀ (p : Fin 1024) (q : Fin 2048), a (ix3 0 p q) = adj (ix3 b (ρ p) q)) (p : Fin 1024) (q : Fin 2048) :
    k0_pay5 (F := Ideal) a (ix2 p q) = adj (ix3 b (ρ p) q) := by
  rw [pay5_eq]
  exact h p q

/-- The second store over an adjacency block and a first support, when the one-row blocks are the vectors. -/
theorem s2_value (G S : (⟨1, ![512]⟩ : Shape).Idx → EReal) (W' : Mat 512 512) (a : Vec Ideal S1x1024x2048 .f32)
    (S1 : Vec Ideal S2048x512 .bf16) (g s : Vec Ideal S1x512 .f32) (W : Vec Ideal S512x512 .f32)
    (hg : ∀ q : Fin 512, g (ix2 0 q) = G (ix1 q)) (hs : ∀ q : Fin 512, s (ix2 0 q) = S (ix1 q)) (hW : W = W') :
    k0_pay1 (F := Ideal) (k0_pay7 g) (k0_pay8 s) (k0_pay10 a S1) (k0_pay11 a S1) W
      = mm (lnK (relu (mm (k0_pay5 (F := Ideal) a) S1)) (vec G) (vec S)) W' := by
  subst hW
  have e2 : row g = vec G := funext hg
  have e3 : row s = vec S := funext hs
  rw [pay1_eq, pay5_eq, e2, e3]

/-! ## At the two grid points of a batch element -/

section Points

open Idealize.ShloMosaic.TcCoe

variable (m : (ℓ : Loc nD τ sig) → Buf (Elt Ideal) ℓ) (c : Dev nD)

/-- With t0 the slab-0 point and t1 the slab-1 point of batch element b: the readout of the stacked stores is the
    network on that batch element of the arrays. -/
theorem out_points (b : Fin 4) (t0 t1 : Fin cfg0.N) (h0d : t0.val / 2 = b.val) (h0m : t0.val % 2 = 0)
    (h1d : t1.val / 2 = b.val) (h1m : t1.val % 2 = 1) (l : Fin 128) :
    k0_pay2 (F := Ideal) (stack (adjAt m c t0) (adjAt m c t1))
        (stack (s2At m c t0 (s1At m c t0)) (s2At m c t1 (s1At m c t0))) (iblk m c 8 t1) (iblk m c 9 t1) (ix3 0 0 l)
      = netK (slab (m ((c : Thread nD τ).loc main_arg0)) b) (slab (m ((c : Thread nD τ).loc main_arg1)) b)
          (vec (m ((c : Thread nD τ).loc main_arg2))) (vec (m ((c : Thread nD τ).loc main_arg3)))
          (m ((c : Thread nD τ).loc main_arg4))
          (vec (m ((c : Thread nD τ).loc main_arg5))) (vec (m ((c : Thread nD τ).loc main_arg6)))
          (m ((c : Thread nD τ).loc main_arg7)) (m ((c : Thread nD τ).loc main_arg8))
          (vec (m ((c : Thread nD τ).loc main_arg9))) l := by
  refine (pay2_eq (stack (adjAt m c t0) (adjAt m c t1)) (stack (s2At m c t0 (s1At m c t0)) (s2At m c t1 (s1At m c t0)))
    (iblk m c 8 t1) (iblk m c 9 t1) l).trans ?_
  refine net_stack b _ _ _ _ _ _ _ _ _ _ (adjAt m c t0) (adjAt m c t1) (s1At m c t0) (s2At m c t0 (s1At m c t0))
    (s2At m c t1 (s1At m c t0)) (iblk m c 8 t1) (row (iblk m c 9 t1)) ?_ ?_ ?_ ?_ ?_ (blk8 m c t1) (funext (blk9 m c t1)) l
  · exact s1_value b _ _ _ _ (iblk m c 0 t0) (iblk m c 2 t0) (iblk m c 3 t0) (iblk m c 4 t0)
      (fun p q => (blk0 m c t0 p q).trans ((congrFun (V_main_arg0 m c) _).trans
        (congrArg (fun r => m ((c : Thread nD τ).loc main_arg0) (ix3 r p q)) (Fin.ext h0d))))
      (blk2 m c t0) (blk3 m c t0) (blk4 m c t0)
  · intro p q
    refine adj_value b _ (iblk m c 1 t0) (fun p => ⟨p.val, by have := p.isLt; omega⟩) (fun p q => ?_) p q
    refine (blk1 m c t0 p q).trans ((congrFun (V_main_arg1 m c) _).trans (congrArg (m ((c : Thread nD τ).loc main_arg1)) ?_))
    funext a
    match a with
    | ⟨0, _⟩ => exact Fin.ext h0d
    | ⟨1, _⟩ => exact Fin.ext (by show 1024 * (t0.val % 2) + p.val = p.val; omega)
    | ⟨2, _⟩ => rfl
  · intro p q
    refine adj_value b _ (iblk m c 1 t1) (fun p => ⟨1024 + p.val, by have := p.isLt; omega⟩) (fun p q => ?_) p q
    refine (blk1 m c t1 p q).trans ((congrFun (V_main_arg1 m c) _).trans (congrArg (m ((c : Thread nD τ).loc main_arg1)) ?_))
    funext a
    match a with
    | ⟨0, _⟩ => exact Fin.ext h1d
    | ⟨1, _⟩ => exact Fin.ext (by show 1024 * (t1.val % 2) + p.val = 1024 + p.val; omega)
    | ⟨2, _⟩ => rfl
  · exact s2_value _ _ _ (iblk m c 1 t0) (s1At m c t0) (iblk m c 5 t0) (iblk m c 6 t0) (iblk m c 7 t0)
      (blk5 m c t0) (blk6 m c t0) (blk7 m c t0)
  · exact s2_value _ _ _ (iblk m c 1 t1) (s1At m c t0) (iblk m c 5 t1) (iblk m c 6 t1) (iblk m c 7 t1)
      (blk5 m c t1) (blk6 m c t1) (blk7 m c t1)

/-- What the slab-1 point of batch element b writes to the output's staging buffer, at label l: the network on
    batch element b of the arrays. -/
theorem out_value (b : Fin 4) (l : Fin 128) :
    outAt (F := Ideal) m c ⟨2 * b.val + 1, by have := b.isLt; have h : cfg0.N = 8 := N_0; omega⟩ (ix3 0 0 l)
      = netK (slab (m ((c : Thread nD τ).loc main_arg0)) b) (slab (m ((c : Thread nD τ).loc main_arg1)) b)
          (vec (m ((c : Thread nD τ).loc main_arg2))) (vec (m ((c : Thread nD τ).loc main_arg3)))
          (m ((c : Thread nD τ).loc main_arg4))
          (vec (m ((c : Thread nD τ).loc main_arg5))) (vec (m ((c : Thread nD τ).loc main_arg6)))
          (m ((c : Thread nD τ).loc main_arg7)) (m ((c : Thread nD τ).loc main_arg8))
          (vec (m ((c : Thread nD τ).loc main_arg9))) l :=
  out_points m c b (prev ⟨2 * b.val + 1, by have := b.isLt; have h : cfg0.N = 8 := N_0; omega⟩)
    ⟨2 * b.val + 1, by have := b.isLt; have h : cfg0.N = 8 := N_0; omega⟩
    (by show (2 * b.val + 1 - 1) / 2 = b.val; omega) (by show (2 * b.val + 1 - 1) % 2 = 0; omega)
    (by show (2 * b.val + 1) / 2 = b.val; omega) (by show (2 * b.val + 1) % 2 = 1; omega) l

end Points

end Cert.KernelIdeal.Body

end
-- ==== Proof.RefRun.lean ====
/-
  The reference program's run.

  Its @main is a straight line of 104 host operations once the three outlined functions (the variance, with the
  select it calls, and the rectifier) are written out at their call sites over the buffers of each call. The line
  is cut into five stages; after each stage the one buffer the next stage reads holds a named function of the
  buffers the stage read, and no stage writes an argument. Composing the five gives the result buffer as `out` of
  the ten arguments' launch contents, and every argument unchanged.
-/
import proofs.«141913_g27616639713710_cont_9to1_58_35_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The stages as functions of whole arrays -/

/-- The row means as a column: the sum over the last axis from the zero word, divided by the word 512. -/
def meanA (x : FVec F S4x2048x512 .f32) : FVec F S4x2048x1 .f32 :=
  Host.divf
    (broadcastInDim S4x2048x1 ![0, 1] bcast_S4x2048_S4x2048x1_0_1
      (Host.reduceAdd x (constant S_ .f32 0x00000000#32) reducesTo_S4x2048x512_S4x2048_d2 h_S_))
    (broadcastInDim S4x2048x1 ![] bcast_S_S4x2048x1 (constant S_ .f32 0x44000000#32))

/-- The divisor of the variance: the word 512 less the integer zero converted. -/
def divisorA : FVec F S_ .f32 :=
  subf (constant S_ .f32 0x44000000#32) (sitofp .f32 (constantI S_ 32 0#32))

/-- The row variances as a column, as the outlined function computes them: the sum of the squared deviations from
    the row mean divided by the divisor where the divisor is positive, the fixed word otherwise. -/
def varA (x : FVec F S4x2048x512 .f32) : FVec F S4x2048x1 .f32 :=
  select (broadcastInDim S4x2048x1 ![] bcast_S_S4x2048x1 (cmpf .ogt (divisorA (F := F)) (constant S_ .f32 0x00000000#32)))
    (Host.divf
      (broadcastInDim S4x2048x1 ![0, 1] bcast_S4x2048_S4x2048x1_0_1
        (Host.reduceAdd
          (mulf (subf x (broadcastInDim S4x2048x512 ![0, 1, 2] bcast_S4x2048x1_S4x2048x512_0_1_2 (meanA x)))
            (subf x (broadcastInDim S4x2048x512 ![0, 1, 2] bcast_S4x2048x1_S4x2048x512_0_1_2 (meanA x))))
          (constant S_ .f32 0x00000000#32) reducesTo_S4x2048x512_S4x2048_d2 h_S_))
      (broadcastInDim S4x2048x1 ![] bcast_S_S4x2048x1 (divisorA (F := F))))
    (broadcastInDim S4x2048x1 ![] bcast_S_S4x2048x1 (id (constant S_ .f32 0x7FC00000#32)))

/-- The row normalisation of a stack of matrices: scale times deviation, over the root of variance plus the small
    word, plus shift. -/
def lnA (x : FVec F S4x2048x512 .f32) (g b : FVec F S512 .f32) : FVec F S4x2048x512 .f32 :=
  addf
    (Host.divf
      (mulf
        (broadcastInDim S4x2048x512 ![0, 1, 2] bcast_S1x1x512_S4x2048x512_0_1_2 (broadcastInDim S1x1x512 ![2] bcast_S512_S1x1x512_2 g))
        (subf x (broadcastInDim S4x2048x512 ![0, 1, 2] bcast_S4x2048x1_S4x2048x512_0_1_2 (meanA x))))
      (broadcastInDim S4x2048x512 ![0, 1, 2] bcast_S4x2048x1_S4x2048x512_0_1_2
        (Host.sqrt (addf (varA x) (broadcastInDim S4x2048x1 ![] bcast_S_S4x2048x1 (constant S_ .f32 0x3727C5AC#32))))))
    (broadcastInDim S4x2048x512 ![0, 1, 2] bcast_S1x1x512_S4x2048x512_0_1_2 (broadcastInDim S1x1x512 ![2] bcast_S512_S1x1x512_2 b))

/-- One layer after its normalisation: times the weights, propagated through the adjacency batch by batch, rectified. -/
def layerA (adj : FVec F S4x2048x2048 .f32) (h : FVec F S4x2048x512 .f32) (w : FVec F S512x512 .f32) : FVec F S4x2048x512 .f32 :=
  maximumf
    (Host.dotGeneral dot_S4x2048x2048_S4x2048x512_S4x2048x512_2_1_1_2_0_0 none adj
      (Host.dotGeneral dot_S4x2048x512_S512x512_S4x2048x512_2_0_01_1_n_n none h w))
    (broadcastInDim S4x2048x512 ![] bcast_S_S4x2048x512 (constant S_ .f32 0x00000000#32))

/-- The read-out: the row sums times the output matrix, plus the bias on every row. -/
def readA (h : FVec F S4x2048x512 .f32) (wout : FVec F S2048x128 .f32) (bout : FVec F S128 .f32) : FVec F S4x128 .f32 :=
  addf
    (Host.dotGeneral dot_S4x2048_S2048x128_S4x128_1_0_0_1_n_n none
      (Host.reduceAdd h (constant S_ .f32 0x00000000#32) reducesTo_S4x2048x512_S4x2048_d2 h_S_) wout)
    (broadcastInDim S4x128 ![0, 1] bcast_S1x128_S4x128_0_1 (broadcastInDim S1x128 ![1] bcast_S128_S1x128_1 bout))

/-- The result as a function of the ten arguments (features, adjacency, first scale and shift, first weights, second
    scale and shift, second weights, output matrix, bias). -/
def out (a0 : FVec F S4x2048x512 .f32) (a1 : FVec F S4x2048x2048 .f32) (a2 a3 : FVec F S512 .f32) (a4 : FVec F S512x512 .f32)
    (a5 a6 : FVec F S512 .f32) (a7 : FVec F S512x512 .f32) (a8 : FVec F S2048x128 .f32) (a9 : FVec F S128 .f32) : FVec F S4x128 .f32 :=
  readA (layerA a1 (lnA (layerA a1 (lnA a0 a2 a3) a4) a5 a6) a7) a8 a9

/-! ## The operations -/

/-- The first 44 operations: the row normalisation of the features (the means, the variance computed by the outlined function, the scale and the shift). -/
def norm1 : List (HloOp τ sig (Elt F)) :=
  [
    nullary main_cst (constant S_ .f32 0x00000000#32),
    binary main_arg0 main_cst main_v0 ((fun x v => Host.reduceAdd x v reducesTo_S4x2048x512_S4x2048_d2 h_S_) : (⟨S4x2048x512, .f32⟩ : BufTy).Contents (Elt F) → (⟨S_, .f32⟩ : BufTy).Contents (Elt F) → (⟨S4x2048, .f32⟩ : BufTy).Contents (Elt F)),
    unary main_v0 main_v1 (broadcastInDim S4x2048x1 ![0, 1] bcast_S4x2048_S4x2048x1_0_1 : (⟨S4x2048, .f32⟩ : BufTy).Contents (Elt F) → (⟨S4x2048x1, .f32⟩ : BufTy).Contents (Elt F)),
    nullary main_cst_0 (constant S_ .f32 0x44000000#32),
    unary main_cst_0 main_v2 (broadcastInDim S4x2048x1 ![] bcast_S_S4x2048x1 : (⟨S_, .f32⟩ : BufTy).Contents (Elt F) → (⟨S4x2048x1, .f32⟩ : BufTy).Contents (Elt F)),
    binary main_v1 main_v2 main_v3 (Host.divf : (⟨S4x2048x1, .f32⟩ : BufTy).Contents (Elt F) → (⟨S4x2048x1, .f32⟩ : BufTy).Contents (Elt F) → (⟨S4x2048x1, .f32⟩ : BufTy).Contents (Elt F)),
    nullary main_c (constantI S_ 32 0#32),
    TRef.nullary main_call0.cst (constant S_ .f32 0x00000000#32),
    TRef.binary (.of main_arg0 : StableHlo.TRef sig ⟨S4x2048x512, .f32⟩) main_call0.cst main_call0.v0 (fun x v => Host.reduceAdd x v reducesTo_S4x2048x512_S4x2048_d2 h_S_),
    TRef.unary main_call0.v0 main_call0.v1 (broadcastInDim S4x2048x1 ![0, 1] bcast_S4x2048_S4x2048x1_0_1),
    TRef.nullary main_call0.cst_0 (constant S_ .f32 0x44000000#32),
    TRef.unary main_call0.cst_0 main_call0.v2 (broadcastInDim S4x2048x1 ![] bcast_S_S4x2048x1),
    TRef.binary main_call0.v1 main_call0.v2 main_call0.v3 Host.divf,
    TRef.unary main_call0.v3 main_call0.v4 (broadcastInDim S4x2048x512 ![0, 1, 2] bcast_S4x2048x1_S4x2048x512_0_1_2),
    TRef.binary (.of main_arg0 : StableHlo.TRef sig ⟨S4x2048x512, .f32⟩) main_call0.v4 main_call0.v5 subf,
    TRef.binary main_call0.v5 main_call0.v5 main_call0.v6 mulf,
    TRef.unary (.of main_c : StableHlo.TRef sig ⟨S_, .i32⟩) main_call0.v7 (sitofp .f32),
    TRef.nullary main_call0.cst_1 (constant S_ .f32 0x44000000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S4x2048x512_S4x2048_d2 h_S_),
    TRef.unary main_call0.v9 main_call0.v10 (broadcastInDim S4x2048x1 ![0, 1] bcast_S4x2048_S4x2048x1_0_1),
    TRef.unary main_call0.v8 main_call0.v11 (broadcastInDim S4x2048x1 ![] bcast_S_S4x2048x1),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S4x2048x1 ![] bcast_S_S4x2048x1),
    TRef.ternary main_call0.v13 main_call0.v12 main_call0.call0.v1 main_call0.call0.v2 (fun p a b => select (broadcastInDim S4x2048x1 ![] bcast_S_S4x2048x1 p) a b),
    unary main_v3 main_v5 (broadcastInDim S4x2048x512 ![0, 1, 2] bcast_S4x2048x1_S4x2048x512_0_1_2 : (⟨S4x2048x1, .f32⟩ : BufTy).Contents (Elt F) → (⟨S4x2048x512, .f32⟩ : BufTy).Contents (Elt F)),
    binary main_arg0 main_v5 main_v6 (subf : (⟨S4x2048x512, .f32⟩ : BufTy).Contents (Elt F) → (⟨S4x2048x512, .f32⟩ : BufTy).Contents (Elt F) → (⟨S4x2048x512, .f32⟩ : BufTy).Contents (Elt F)),
    unary main_arg2 main_v7 (broadcastInDim S1x1x512 ![2] bcast_S512_S1x1x512_2 : (⟨S512, .f32⟩ : BufTy).Contents (Elt F) → (⟨S1x1x512, .f32⟩ : BufTy).Contents (Elt F)),
    unary main_v7 main_v8 (broadcastInDim S4x2048x512 ![0, 1, 2] bcast_S1x1x512_S4x2048x512_0_1_2 : (⟨S1x1x512, .f32⟩ : BufTy).Contents (Elt F) → (⟨S4x2048x512, .f32⟩ : BufTy).Contents (Elt F)),
    binary main_v8 main_v6 main_v9 (mulf : (⟨S4x2048x512, .f32⟩ : BufTy).Contents (Elt F) → (⟨S4x2048x512, .f32⟩ : BufTy).Contents (Elt F) → (⟨S4x2048x512, .f32⟩ : BufTy).Contents (Elt F)),
    nullary main_cst_1 (constant S_ .f32 0x3727C5AC#32),
    unary main_cst_1 main_v10 (broadcastInDim S4x2048x1 ![] bcast_S_S4x2048x1 : (⟨S_, .f32⟩ : BufTy).Contents (Elt F) → (⟨S4x2048x1, .f32⟩ : BufTy).Contents (Elt F)),
    binary main_v4 main_v10 main_v11 (addf : (⟨S4x2048x1, .f32⟩ : BufTy).Contents (Elt F) → (⟨S4x2048x1, .f32⟩ : BufTy).Contents (Elt F) → (⟨S4x2048x1, .f32⟩ : BufTy).Contents (Elt F)),
    unary main_v11 main_v12 (Host.sqrt : (⟨S4x2048x1, .f32⟩ : BufTy).Contents (Elt F) → (⟨S4x2048x1, .f32⟩ : BufTy).Contents (Elt F)),
    unary main_v12 main_v13 (broadcastInDim S4x2048x512 ![0, 1, 2] bcast_S4x2048x1_S4x2048x512_0_1_2 : (⟨S4x2048x1, .f32⟩ : BufTy).Contents (Elt F) → (⟨S4x2048x512, .f32⟩ : BufTy).Contents (Elt F)),
    binary main_v9 main_v13 main_v14 (Host.divf : (⟨S4x2048x512, .f32⟩ : BufTy).Contents (Elt F) → (⟨S4x2048x512, .f32⟩ : BufTy).Contents (Elt F) → (⟨S4x2048x512, .f32⟩ : BufTy).Contents (Elt F)),
    unary main_arg3 main_v15 (broadcastInDim S1x1x512 ![2] bcast_S512_S1x1x512_2 : (⟨S512, .f32⟩ : BufTy).Contents (Elt F) → (⟨S1x1x512, .f32⟩ : BufTy).Contents (Elt F)),
    unary main_v15 main_v16 (broadcastInDim S4x2048x512 ![0, 1, 2] bcast_S1x1x512_S4x2048x512_0_1_2 : (⟨S1x1x512, .f32⟩ : BufTy).Contents (Elt F) → (⟨S4x2048x512, .f32⟩ : BufTy).Contents (Elt F)),
    binary main_v14 main_v16 main_v17 (addf : (⟨S4x2048x512, .f32⟩ : BufTy).Contents (Elt F) → (⟨S4x2048x512, .f32⟩ : BufTy).Contents (Elt F) → (⟨S4x2048x512, .f32⟩ : BufTy).Contents (Elt F)) ]

/-- The next 5: the product with the first weight matrix, the propagation through the adjacency, and the rectifier. -/
def layer1 : List (HloOp τ sig (Elt F)) :=
  [
    binary main_v17 main_arg4 main_v18 ((fun l r => Host.dotGeneral dot_S4x2048x512_S512x512_S4x2048x512_2_0_01_1_n_n none l r) : (⟨S4x2048x512, .f32⟩ : BufTy).Contents (Elt F) → (⟨S512x512, .f32⟩ : BufTy).Contents (Elt F) → (⟨S4x2048x512, .f32⟩ : BufTy).Contents (Elt F)),
    binary main_arg1 main_v18 main_v19 ((fun l r => Host.dotGeneral dot_S4x2048x2048_S4x2048x512_S4x2048x512_2_1_1_2_0_0 none l r) : (⟨S4x2048x2048, .f32⟩ : BufTy).Contents (Elt F) → (⟨S4x2048x512, .f32⟩ : BufTy).Contents (Elt F) → (⟨S4x2048x512, .f32⟩ : BufTy).Contents (Elt F)),
    TRef.nullary main_call1.cst (constant S_ .f32 0x00000000#32),
    TRef.unary main_call1.cst main_call1.v0 (broadcastInDim S4x2048x512 ![] bcast_S_S4x2048x512),
    TRef.binary (.of main_v19 : StableHlo.TRef sig ⟨S4x2048x512, .f32⟩) main_call1.v0 main_call1.v1 maximumf ]

/-- The next 44: the row normalisation of the hidden state, operation for operation as the first. -/
def norm2 : List (HloOp τ sig (Elt F)) :=
  [
    nullary main_cst_2 (constant S_ .f32 0x00000000#32),
    binary main_v20 main_cst_2 main_v21 ((fun x v => Host.reduceAdd x v reducesTo_S4x2048x512_S4x2048_d2 h_S_) : (⟨S4x2048x512, .f32⟩ : BufTy).Contents (Elt F) → (⟨S_, .f32⟩ : BufTy).Contents (Elt F) → (⟨S4x2048, .f32⟩ : BufTy).Contents (Elt F)),
    unary main_v21 main_v22 (broadcastInDim S4x2048x1 ![0, 1] bcast_S4x2048_S4x2048x1_0_1 : (⟨S4x2048, .f32⟩ : BufTy).Contents (Elt F) → (⟨S4x2048x1, .f32⟩ : BufTy).Contents (Elt F)),
    nullary main_cst_3 (constant S_ .f32 0x44000000#32),
    unary main_cst_3 main_v23 (broadcastInDim S4x2048x1 ![] bcast_S_S4x2048x1 : (⟨S_, .f32⟩ : BufTy).Contents (Elt F) → (⟨S4x2048x1, .f32⟩ : BufTy).Contents (Elt F)),
    binary main_v22 main_v23 main_v24 (Host.divf : (⟨S4x2048x1, .f32⟩ : BufTy).Contents (Elt F) → (⟨S4x2048x1, .f32⟩ : BufTy).Contents (Elt F) → (⟨S4x2048x1, .f32⟩ : BufTy).Contents (Elt F)),
    nullary main_c_4 (constantI S_ 32 0#32),
    TRef.nullary main_call2.cst (constant S_ .f32 0x00000000#32),
    TRef.binary (.of main_v20 : StableHlo.TRef sig ⟨S4x2048x512, .f32⟩) main_call2.cst main_call2.v0 (fun x v => Host.reduceAdd x v reducesTo_S4x2048x512_S4x2048_d2 h_S_),
    TRef.unary main_call2.v0 main_call2.v1 (broadcastInDim S4x2048x1 ![0, 1] bcast_S4x2048_S4x2048x1_0_1),
    TRef.nullary main_call2.cst_0 (constant S_ .f32 0x44000000#32),
    TRef.unary main_call2.cst_0 main_call2.v2 (broadcastInDim S4x2048x1 ![] bcast_S_S4x2048x1),
    TRef.binary main_call2.v1 main_call2.v2 main_call2.v3 Host.divf,
    TRef.unary main_call2.v3 main_call2.v4 (broadcastInDim S4x2048x512 ![0, 1, 2] bcast_S4x2048x1_S4x2048x512_0_1_2),
    TRef.binary (.of main_v20 : StableHlo.TRef sig ⟨S4x2048x512, .f32⟩) main_call2.v4 main_call2.v5 subf,
    TRef.binary main_call2.v5 main_call2.v5 main_call2.v6 mulf,
    TRef.unary (.of main_c_4 : StableHlo.TRef sig ⟨S_, .i32⟩) main_call2.v7 (sitofp .f32),
    TRef.nullary main_call2.cst_1 (constant S_ .f32 0x44000000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S4x2048x512_S4x2048_d2 h_S_),
    TRef.unary main_call2.v9 main_call2.v10 (broadcastInDim S4x2048x1 ![0, 1] bcast_S4x2048_S4x2048x1_0_1),
    TRef.unary main_call2.v8 main_call2.v11 (broadcastInDim S4x2048x1 ![] bcast_S_S4x2048x1),
    TRef.binary main_call2.v10 main_call2.v11 main_call2.v12 Host.divf,
    TRef.nullary main_call2.cst_3 (constant S_ .f32 0x00000000#32),
    TRef.binary main_call2.v8 main_call2.cst_3 main_call2.v13 (cmpf .ogt),
    TRef.nullary main_call2.cst_4 (constant S_ .f32 0x7FC00000#32),
    TRef.unary main_call2.cst_4 main_call2.call0.v0 id,
    TRef.unary main_call2.call0.v0 main_call2.call0.v1 (broadcastInDim S4x2048x1 ![] bcast_S_S4x2048x1),
    TRef.ternary main_call2.v13 main_call2.v12 main_call2.call0.v1 main_call2.call0.v2 (fun p a b => select (broadcastInDim S4x2048x1 ![] bcast_S_S4x2048x1 p) a b),
    unary main_v24 main_v26 (broadcastInDim S4x2048x512 ![0, 1, 2] bcast_S4x2048x1_S4x2048x512_0_1_2 : (⟨S4x2048x1, .f32⟩ : BufTy).Contents (Elt F) → (⟨S4x2048x512, .f32⟩ : BufTy).Contents (Elt F)),
    binary main_v20 main_v26 main_v27 (subf : (⟨S4x2048x512, .f32⟩ : BufTy).Contents (Elt F) → (⟨S4x2048x512, .f32⟩ : BufTy).Contents (Elt F) → (⟨S4x2048x512, .f32⟩ : BufTy).Contents (Elt F)),
    unary main_arg5 main_v28 (broadcastInDim S1x1x512 ![2] bcast_S512_S1x1x512_2 : (⟨S512, .f32⟩ : BufTy).Contents (Elt F) → (⟨S1x1x512, .f32⟩ : BufTy).Contents (Elt F)),
    unary main_v28 main_v29 (broadcastInDim S4x2048x512 ![0, 1, 2] bcast_S1x1x512_S4x2048x512_0_1_2 : (⟨S1x1x512, .f32⟩ : BufTy).Contents (Elt F) → (⟨S4x2048x512, .f32⟩ : BufTy).Contents (Elt F)),
    binary main_v29 main_v27 main_v30 (mulf : (⟨S4x2048x512, .f32⟩ : BufTy).Contents (Elt F) → (⟨S4x2048x512, .f32⟩ : BufTy).Contents (Elt F) → (⟨S4x2048x512, .f32⟩ : BufTy).Contents (Elt F)),
    nullary main_cst_5 (constant S_ .f32 0x3727C5AC#32),
    unary main_cst_5 main_v31 (broadcastInDim S4x2048x1 ![] bcast_S_S4x2048x1 : (⟨S_, .f32⟩ : BufTy).Contents (Elt F) → (⟨S4x2048x1, .f32⟩ : BufTy).Contents (Elt F)),
    binary main_v25 main_v31 main_v32 (addf : (⟨S4x2048x1, .f32⟩ : BufTy).Contents (Elt F) → (⟨S4x2048x1, .f32⟩ : BufTy).Contents (Elt F) → (⟨S4x2048x1, .f32⟩ : BufTy).Contents (Elt F)),
    unary main_v32 main_v33 (Host.sqrt : (⟨S4x2048x1, .f32⟩ : BufTy).Contents (Elt F) → (⟨S4x2048x1, .f32⟩ : BufTy).Contents (Elt F)),
    unary main_v33 main_v34 (broadcastInDim S4x2048x512 ![0, 1, 2] bcast_S4x2048x1_S4x2048x512_0_1_2 : (⟨S4x2048x1, .f32⟩ : BufTy).Contents (Elt F) → (⟨S4x2048x512, .f32⟩ : BufTy).Contents (Elt F)),
    binary main_v30 main_v34 main_v35 (Host.divf : (⟨S4x2048x512, .f32⟩ : BufTy).Contents (Elt F) → (⟨S4x2048x512, .f32⟩ : BufTy).Contents (Elt F) → (⟨S4x2048x512, .f32⟩ : BufTy).Contents (Elt F)),
    unary main_arg6 main_v36 (broadcastInDim S1x1x512 ![2] bcast_S512_S1x1x512_2 : (⟨S512, .f32⟩ : BufTy).Contents (Elt F) → (⟨S1x1x512, .f32⟩ : BufTy).Contents (Elt F)),
    unary main_v36 main_v37 (broadcastInDim S4x2048x512 ![0, 1, 2] bcast_S1x1x512_S4x2048x512_0_1_2 : (⟨S1x1x512, .f32⟩ : BufTy).Contents (Elt F) → (⟨S4x2048x512, .f32⟩ : BufTy).Contents (Elt F)),
    binary main_v35 main_v37 main_v38 (addf : (⟨S4x2048x512, .f32⟩ : BufTy).Contents (Elt F) → (⟨S4x2048x512, .f32⟩ : BufTy).Contents (Elt F) → (⟨S4x2048x512, .f32⟩ : BufTy).Contents (Elt F)) ]

/-- The next 5: the product with the second weight matrix, the propagation, and the rectifier. -/
def layer2 : List (HloOp τ sig (Elt F)) :=
  [
    binary main_v38 main_arg7 main_v39 ((fun l r => Host.dotGeneral dot_S4x2048x512_S512x512_S4x2048x512_2_0_01_1_n_n none l r) : (⟨S4x2048x512, .f32⟩ : BufTy).Contents (Elt F) → (⟨S512x512, .f32⟩ : BufTy).Contents (Elt F) → (⟨S4x2048x512, .f32⟩ : BufTy).Contents (Elt F)),
    binary main_arg1 main_v39 main_v40 ((fun l r => Host.dotGeneral dot_S4x2048x2048_S4x2048x512_S4x2048x512_2_1_1_2_0_0 none l r) : (⟨S4x2048x2048, .f32⟩ : BufTy).Contents (Elt F) → (⟨S4x2048x512, .f32⟩ : BufTy).Contents (Elt F) → (⟨S4x2048x512, .f32⟩ : BufTy).Contents (Elt F)),
    TRef.nullary main_call3.cst (constant S_ .f32 0x00000000#32),
    TRef.unary main_call3.cst main_call3.v0 (broadcastInDim S4x2048x512 ![] bcast_S_S4x2048x512),
    TRef.binary (.of main_v40 : StableHlo.TRef sig ⟨S4x2048x512, .f32⟩) main_call3.v0 main_call3.v1 maximumf ]

/-- The last 6: the row sums, the product with the output matrix, and the bias. -/
def readout : List (HloOp τ sig (Elt F)) :=
  [
    nullary main_cst_6 (constant S_ .f32 0x00000000#32),
    binary main_v41 main_cst_6 main_v42 ((fun x v => Host.reduceAdd x v reducesTo_S4x2048x512_S4x2048_d2 h_S_) : (⟨S4x2048x512, .f32⟩ : BufTy).Contents (Elt F) → (⟨S_, .f32⟩ : BufTy).Contents (Elt F) → (⟨S4x2048, .f32⟩ : BufTy).Contents (Elt F)),
    binary main_v42 main_arg8 main_v43 ((fun l r => Host.dotGeneral dot_S4x2048_S2048x128_S4x128_1_0_0_1_n_n none l r) : (⟨S4x2048, .f32⟩ : BufTy).Contents (Elt F) → (⟨S2048x128, .f32⟩ : BufTy).Contents (Elt F) → (⟨S4x128, .f32⟩ : BufTy).Contents (Elt F)),
    unary main_arg9 main_v44 (broadcastInDim S1x128 ![1] bcast_S128_S1x128_1 : (⟨S128, .f32⟩ : BufTy).Contents (Elt F) → (⟨S1x128, .f32⟩ : BufTy).Contents (Elt F)),
    unary main_v44 main_v45 (broadcastInDim S4x128 ![0, 1] bcast_S1x128_S4x128_0_1 : (⟨S1x128, .f32⟩ : BufTy).Contents (Elt F) → (⟨S4x128, .f32⟩ : BufTy).Contents (Elt F)),
    binary main_v43 main_v45 main_v46 (addf : (⟨S4x128, .f32⟩ : BufTy).Contents (Elt F) → (⟨S4x128, .f32⟩ : BufTy).Contents (Elt F) → (⟨S4x128, .f32⟩ : BufTy).Contents (Elt F)) ]

/-- @main's 104 operations, in order. -/
abbrev ops : List (HloOp τ sig (Elt F)) :=
  [
    nullary main_cst (constant S_ .f32 0x00000000#32),
    binary main_arg0 main_cst main_v0 ((fun x v => Host.reduceAdd x v reducesTo_S4x2048x512_S4x2048_d2 h_S_) : (⟨S4x2048x512, .f32⟩ : BufTy).Contents (Elt F) → (⟨S_, .f32⟩ : BufTy).Contents (Elt F) → (⟨S4x2048, .f32⟩ : BufTy).Contents (Elt F)),
    unary main_v0 main_v1 (broadcastInDim S4x2048x1 ![0, 1] bcast_S4x2048_S4x2048x1_0_1 : (⟨S4x2048, .f32⟩ : BufTy).Contents (Elt F) → (⟨S4x2048x1, .f32⟩ : BufTy).Contents (Elt F)),
    nullary main_cst_0 (constant S_ .f32 0x44000000#32),
    unary main_cst_0 main_v2 (broadcastInDim S4x2048x1 ![] bcast_S_S4x2048x1 : (⟨S_, .f32⟩ : BufTy).Contents (Elt F) → (⟨S4x2048x1, .f32⟩ : BufTy).Contents (Elt F)),
    binary main_v1 main_v2 main_v3 (Host.divf : (⟨S4x2048x1, .f32⟩ : BufTy).Contents (Elt F) → (⟨S4x2048x1, .f32⟩ : BufTy).Contents (Elt F) → (⟨S4x2048x1, .f32⟩ : BufTy).Contents (Elt F)),
    nullary main_c (constantI S_ 32 0#32),
    TRef.nullary main_call0.cst (constant S_ .f32 0x00000000#32),
    TRef.binary (.of main_arg0 : StableHlo.TRef sig ⟨S4x2048x512, .f32⟩) main_call0.cst main_call0.v0 (fun x v => Host.reduceAdd x v reducesTo_S4x2048x512_S4x2048_d2 h_S_),
    TRef.unary main_call0.v0 main_call0.v1 (broadcastInDim S4x2048x1 ![0, 1] bcast_S4x2048_S4x2048x1_0_1),
    TRef.nullary main_call0.cst_0 (constant S_ .f32 0x44000000#32),
    TRef.unary main_call0.cst_0 main_call0.v2 (broadcastInDim S4x2048x1 ![] bcast_S_S4x2048x1),
    TRef.binary main_call0.v1 main_call0.v2 main_call0.v3 Host.divf,
    TRef.unary main_call0.v3 main_call0.v4 (broadcastInDim S4x2048x512 ![0, 1, 2] bcast_S4x2048x1_S4x2048x512_0_1_2),
    TRef.binary (.of main_arg0 : StableHlo.TRef sig ⟨S4x2048x512, .f32⟩) main_call0.v4 main_call0.v5 subf,
    TRef.binary main_call0.v5 main_call0.v5 main_call0.v6 mulf,
    TRef.unary (.of main_c : StableHlo.TRef sig ⟨S_, .i32⟩) main_call0.v7 (sitofp .f32),
    TRef.nullary main_call0.cst_1 (constant S_ .f32 0x44000000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S4x2048x512_S4x2048_d2 h_S_),
    TRef.unary main_call0.v9 main_call0.v10 (broadcastInDim S4x2048x1 ![0, 1] bcast_S4x2048_S4x2048x1_0_1),
    TRef.unary main_call0.v8 main_call0.v11 (broadcastInDim S4x2048x1 ![] bcast_S_S4x2048x1),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S4x2048x1 ![] bcast_S_S4x2048x1),
    TRef.ternary main_call0.v13 main_call0.v12 main_call0.call0.v1 main_call0.call0.v2 (fun p a b => select (broadcastInDim S4x2048x1 ![] bcast_S_S4x2048x1 p) a b),
    unary main_v3 main_v5 (broadcastInDim S4x2048x512 ![0, 1, 2] bcast_S4x2048x1_S4x2048x512_0_1_2 : (⟨S4x2048x1, .f32⟩ : BufTy).Contents (Elt F) → (⟨S4x2048x512, .f32⟩ : BufTy).Contents (Elt F)),
    binary main_arg0 main_v5 main_v6 (subf : (⟨S4x2048x512, .f32⟩ : BufTy).Contents (Elt F) → (⟨S4x2048x512, .f32⟩ : BufTy).Contents (Elt F) → (⟨S4x2048x512, .f32⟩ : BufTy).Contents (Elt F)),
    unary main_arg2 main_v7 (broadcastInDim S1x1x512 ![2] bcast_S512_S1x1x512_2 : (⟨S512, .f32⟩ : BufTy).Contents (Elt F) → (⟨S1x1x512, .f32⟩ : BufTy).Contents (Elt F)),
    unary main_v7 main_v8 (broadcastInDim S4x2048x512 ![0, 1, 2] bcast_S1x1x512_S4x2048x512_0_1_2 : (⟨S1x1x512, .f32⟩ : BufTy).Contents (Elt F) → (⟨S4x2048x512, .f32⟩ : BufTy).Contents (Elt F)),
    binary main_v8 main_v6 main_v9 (mulf : (⟨S4x2048x512, .f32⟩ : BufTy).Contents (Elt F) → (⟨S4x2048x512, .f32⟩ : BufTy).Contents (Elt F) → (⟨S4x2048x512, .f32⟩ : BufTy).Contents (Elt F)),
    nullary main_cst_1 (constant S_ .f32 0x3727C5AC#32),
    unary main_cst_1 main_v10 (broadcastInDim S4x2048x1 ![] bcast_S_S4x2048x1 : (⟨S_, .f32⟩ : BufTy).Contents (Elt F) → (⟨S4x2048x1, .f32⟩ : BufTy).Contents (Elt F)),
    binary main_v4 main_v10 main_v11 (addf : (⟨S4x2048x1, .f32⟩ : BufTy).Contents (Elt F) → (⟨S4x2048x1, .f32⟩ : BufTy).Contents (Elt F) → (⟨S4x2048x1, .f32⟩ : BufTy).Contents (Elt F)),
    unary main_v11 main_v12 (Host.sqrt : (⟨S4x2048x1, .f32⟩ : BufTy).Contents (Elt F) → (⟨S4x2048x1, .f32⟩ : BufTy).Contents (Elt F)),
    unary main_v12 main_v13 (broadcastInDim S4x2048x512 ![0, 1, 2] bcast_S4x2048x1_S4x2048x512_0_1_2 : (⟨S4x2048x1, .f32⟩ : BufTy).Contents (Elt F) → (⟨S4x2048x512, .f32⟩ : BufTy).Contents (Elt F)),
    binary main_v9 main_v13 main_v14 (Host.divf : (⟨S4x2048x512, .f32⟩ : BufTy).Contents (Elt F) → (⟨S4x2048x512, .f32⟩ : BufTy).Contents (Elt F) → (⟨S4x2048x512, .f32⟩ : BufTy).Contents (Elt F)),
    unary main_arg3 main_v15 (broadcastInDim S1x1x512 ![2] bcast_S512_S1x1x512_2 : (⟨S512, .f32⟩ : BufTy).Contents (Elt F) → (⟨S1x1x512, .f32⟩ : BufTy).Contents (Elt F)),
    unary main_v15 main_v16 (broadcastInDim S4x2048x512 ![0, 1, 2] bcast_S1x1x512_S4x2048x512_0_1_2 : (⟨S1x1x512, .f32⟩ : BufTy).Contents (Elt F) → (⟨S4x2048x512, .f32⟩ : BufTy).Contents (Elt F)),
    binary main_v14 main_v16 main_v17 (addf : (⟨S4x2048x512, .f32⟩ : BufTy).Contents (Elt F) → (⟨S4x2048x512, .f32⟩ : BufTy).Contents (Elt F) → (⟨S4x2048x512, .f32⟩ : BufTy).Contents (Elt F)),
    binary main_v17 main_arg4 main_v18 ((fun l r => Host.dotGeneral dot_S4x2048x512_S512x512_S4x2048x512_2_0_01_1_n_n none l r) : (⟨S4x2048x512, .f32⟩ : BufTy).Contents (Elt F) → (⟨S512x512, .f32⟩ : BufTy).Contents (Elt F) → (⟨S4x2048x512, .f32⟩ : BufTy).Contents (Elt F)),
    binary main_arg1 main_v18 main_v19 ((fun l r => Host.dotGeneral dot_S4x2048x2048_S4x2048x512_S4x2048x512_2_1_1_2_0_0 none l r) : (⟨S4x2048x2048, .f32⟩ : BufTy).Contents (Elt F) → (⟨S4x2048x512, .f32⟩ : BufTy).Contents (Elt F) → (⟨S4x2048x512, .f32⟩ : BufTy).Contents (Elt F)),
    TRef.nullary main_call1.cst (constant S_ .f32 0x00000000#32),
    TRef.unary main_call1.cst main_call1.v0 (broadcastInDim S4x2048x512 ![] bcast_S_S4x2048x512),
    TRef.binary (.of main_v19 : StableHlo.TRef sig ⟨S4x2048x512, .f32⟩) main_call1.v0 main_call1.v1 maximumf,
    nullary main_cst_2 (constant S_ .f32 0x00000000#32),
    binary main_v20 main_cst_2 main_v21 ((fun x v => Host.reduceAdd x v reducesTo_S4x2048x512_S4x2048_d2 h_S_) : (⟨S4x2048x512, .f32⟩ : BufTy).Contents (Elt F) → (⟨S_, .f32⟩ : BufTy).Contents (Elt F) → (⟨S4x2048, .f32⟩ : BufTy).Contents (Elt F)),
    unary main_v21 main_v22 (broadcastInDim S4x2048x1 ![0, 1] bcast_S4x2048_S4x2048x1_0_1 : (⟨S4x2048, .f32⟩ : BufTy).Contents (Elt F) → (⟨S4x2048x1, .f32⟩ : BufTy).Contents (Elt F)),
    nullary main_cst_3 (constant S_ .f32 0x44000000#32),
    unary main_cst_3 main_v23 (broadcastInDim S4x2048x1 ![] bcast_S_S4x2048x1 : (⟨S_, .f32⟩ : BufTy).Contents (Elt F) → (⟨S4x2048x1, .f32⟩ : BufTy).Contents (Elt F)),
    binary main_v22 main_v23 main_v24 (Host.divf : (⟨S4x2048x1, .f32⟩ : BufTy).Contents (Elt F) → (⟨S4x2048x1, .f32⟩ : BufTy).Contents (Elt F) → (⟨S4x2048x1, .f32⟩ : BufTy).Contents (Elt F)),
    nullary main_c_4 (constantI S_ 32 0#32),
    TRef.nullary main_call2.cst (constant S_ .f32 0x00000000#32),
    TRef.binary (.of main_v20 : StableHlo.TRef sig ⟨S4x2048x512, .f32⟩) main_call2.cst main_call2.v0 (fun x v => Host.reduceAdd x v reducesTo_S4x2048x512_S4x2048_d2 h_S_),
    TRef.unary main_call2.v0 main_call2.v1 (broadcastInDim S4x2048x1 ![0, 1] bcast_S4x2048_S4x2048x1_0_1),
    TRef.nullary main_call2.cst_0 (constant S_ .f32 0x44000000#32),
    TRef.unary main_call2.cst_0 main_call2.v2 (broadcastInDim S4x2048x1 ![] bcast_S_S4x2048x1),
    TRef.binary main_call2.v1 main_call2.v2 main_call2.v3 Host.divf,
    TRef.unary main_call2.v3 main_call2.v4 (broadcastInDim S4x2048x512 ![0, 1, 2] bcast_S4x2048x1_S4x2048x512_0_1_2),
    TRef.binary (.of main_v20 : StableHlo.TRef sig ⟨S4x2048x512, .f32⟩) main_call2.v4 main_call2.v5 subf,
    TRef.binary main_call2.v5 main_call2.v5 main_call2.v6 mulf,
    TRef.unary (.of main_c_4 : StableHlo.TRef sig ⟨S_, .i32⟩) main_call2.v7 (sitofp .f32),
    TRef.nullary main_call2.cst_1 (constant S_ .f32 0x44000000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S4x2048x512_S4x2048_d2 h_S_),
    TRef.unary main_call2.v9 main_call2.v10 (broadcastInDim S4x2048x1 ![0, 1] bcast_S4x2048_S4x2048x1_0_1),
    TRef.unary main_call2.v8 main_call2.v11 (broadcastInDim S4x2048x1 ![] bcast_S_S4x2048x1),
    TRef.binary main_call2.v10 main_call2.v11 main_call2.v12 Host.divf,
    TRef.nullary main_call2.cst_3 (constant S_ .f32 0x00000000#32),
    TRef.binary main_call2.v8 main_call2.cst_3 main_call2.v13 (cmpf .ogt),
    TRef.nullary main_call2.cst_4 (constant S_ .f32 0x7FC00000#32),
    TRef.unary main_call2.cst_4 main_call2.call0.v0 id,
    TRef.unary main_call2.call0.v0 main_call2.call0.v1 (broadcastInDim S4x2048x1 ![] bcast_S_S4x2048x1),
    TRef.ternary main_call2.v13 main_call2.v12 main_call2.call0.v1 main_call2.call0.v2 (fun p a b => select (broadcastInDim S4x2048x1 ![] bcast_S_S4x2048x1 p) a b),
    unary main_v24 main_v26 (broadcastInDim S4x2048x512 ![0, 1, 2] bcast_S4x2048x1_S4x2048x512_0_1_2 : (⟨S4x2048x1, .f32⟩ : BufTy).Contents (Elt F) → (⟨S4x2048x512, .f32⟩ : BufTy).Contents (Elt F)),
    binary main_v20 main_v26 main_v27 (subf : (⟨S4x2048x512, .f32⟩ : BufTy).Contents (Elt F) → (⟨S4x2048x512, .f32⟩ : BufTy).Contents (Elt F) → (⟨S4x2048x512, .f32⟩ : BufTy).Contents (Elt F)),
    unary main_arg5 main_v28 (broadcastInDim S1x1x512 ![2] bcast_S512_S1x1x512_2 : (⟨S512, .f32⟩ : BufTy).Contents (Elt F) → (⟨S1x1x512, .f32⟩ : BufTy).Contents (Elt F)),
    unary main_v28 main_v29 (broadcastInDim S4x2048x512 ![0, 1, 2] bcast_S1x1x512_S4x2048x512_0_1_2 : (⟨S1x1x512, .f32⟩ : BufTy).Contents (Elt F) → (⟨S4x2048x512, .f32⟩ : BufTy).Contents (Elt F)),
    binary main_v29 main_v27 main_v30 (mulf : (⟨S4x2048x512, .f32⟩ : BufTy).Contents (Elt F) → (⟨S4x2048x512, .f32⟩ : BufTy).Contents (Elt F) → (⟨S4x2048x512, .f32⟩ : BufTy).Contents (Elt F)),
    nullary main_cst_5 (constant S_ .f32 0x3727C5AC#32),
    unary main_cst_5 main_v31 (broadcastInDim S4x2048x1 ![] bcast_S_S4x2048x1 : (⟨S_, .f32⟩ : BufTy).Contents (Elt F) → (⟨S4x2048x1, .f32⟩ : BufTy).Contents (Elt F)),
    binary main_v25 main_v31 main_v32 (addf : (⟨S4x2048x1, .f32⟩ : BufTy).Contents (Elt F) → (⟨S4x2048x1, .f32⟩ : BufTy).Contents (Elt F) → (⟨S4x2048x1, .f32⟩ : BufTy).Contents (Elt F)),
    unary main_v32 main_v33 (Host.sqrt : (⟨S4x2048x1, .f32⟩ : BufTy).Contents (Elt F) → (⟨S4x2048x1, .f32⟩ : BufTy).Contents (Elt F)),
    unary main_v33 main_v34 (broadcastInDim S4x2048x512 ![0, 1, 2] bcast_S4x2048x1_S4x2048x512_0_1_2 : (⟨S4x2048x1, .f32⟩ : BufTy).Contents (Elt F) → (⟨S4x2048x512, .f32⟩ : BufTy).Contents (Elt F)),
    binary main_v30 main_v34 main_v35 (Host.divf : (⟨S4x2048x512, .f32⟩ : BufTy).Contents (Elt F) → (⟨S4x2048x512, .f32⟩ : BufTy).Contents (Elt F) → (⟨S4x2048x512, .f32⟩ : BufTy).Contents (Elt F)),
    unary main_arg6 main_v36 (broadcastInDim S1x1x512 ![2] bcast_S512_S1x1x512_2 : (⟨S512, .f32⟩ : BufTy).Contents (Elt F) → (⟨S1x1x512, .f32⟩ : BufTy).Contents (Elt F)),
    unary main_v36 main_v37 (broadcastInDim S4x2048x512 ![0, 1, 2] bcast_S1x1x512_S4x2048x512_0_1_2 : (⟨S1x1x512, .f32⟩ : BufTy).Contents (Elt F) → (⟨S4x2048x512, .f32⟩ : BufTy).Contents (Elt F)),
    binary main_v35 main_v37 main_v38 (addf : (⟨S4x2048x512, .f32⟩ : BufTy).Contents (Elt F) → (⟨S4x2048x512, .f32⟩ : BufTy).Contents (Elt F) → (⟨S4x2048x512, .f32⟩ : BufTy).Contents (Elt F)),
    binary main_v38 main_arg7 main_v39 ((fun l r => Host.dotGeneral dot_S4x2048x512_S512x512_S4x2048x512_2_0_01_1_n_n none l r) : (⟨S4x2048x512, .f32⟩ : BufTy).Contents (Elt F) → (⟨S512x512, .f32⟩ : BufTy).Contents (Elt F) → (⟨S4x2048x512, .f32⟩ : BufTy).Contents (Elt F)),
    binary main_arg1 main_v39 main_v40 ((fun l r => Host.dotGeneral dot_S4x2048x2048_S4x2048x512_S4x2048x512_2_1_1_2_0_0 none l r) : (⟨S4x2048x2048, .f32⟩ : BufTy).Contents (Elt F) → (⟨S4x2048x512, .f32⟩ : BufTy).Contents (Elt F) → (⟨S4x2048x512, .f32⟩ : BufTy).Contents (Elt F)),
    TRef.nullary main_call3.cst (constant S_ .f32 0x00000000#32),
    TRef.unary main_call3.cst main_call3.v0 (broadcastInDim S4x2048x512 ![] bcast_S_S4x2048x512),
    TRef.binary (.of main_v40 : StableHlo.TRef sig ⟨S4x2048x512, .f32⟩) main_call3.v0 main_call3.v1 maximumf,
    nullary main_cst_6 (constant S_ .f32 0x00000000#32),
    binary main_v41 main_cst_6 main_v42 ((fun x v => Host.reduceAdd x v reducesTo_S4x2048x512_S4x2048_d2 h_S_) : (⟨S4x2048x512, .f32⟩ : BufTy).Contents (Elt F) → (⟨S_, .f32⟩ : BufTy).Contents (Elt F) → (⟨S4x2048, .f32⟩ : BufTy).Contents (Elt F)),
    binary main_v42 main_arg8 main_v43 ((fun l r => Host.dotGeneral dot_S4x2048_S2048x128_S4x128_1_0_0_1_n_n none l r) : (⟨S4x2048, .f32⟩ : BufTy).Contents (Elt F) → (⟨S2048x128, .f32⟩ : BufTy).Contents (Elt F) → (⟨S4x128, .f32⟩ : BufTy).Contents (Elt F)),
    unary main_arg9 main_v44 (broadcastInDim S1x128 ![1] bcast_S128_S1x128_1 : (⟨S128, .f32⟩ : BufTy).Contents (Elt F) → (⟨S1x128, .f32⟩ : BufTy).Contents (Elt F)),
    unary main_v44 main_v45 (broadcastInDim S4x128 ![0, 1] bcast_S1x128_S4x128_0_1 : (⟨S1x128, .f32⟩ : BufTy).Contents (Elt F) → (⟨S4x128, .f32⟩ : BufTy).Contents (Elt F)),
    binary main_v43 main_v45 main_v46 (addf : (⟨S4x128, .f32⟩ : BufTy).Contents (Elt F) → (⟨S4x128, .f32⟩ : BufTy).Contents (Elt F) → (⟨S4x128, .f32⟩ : BufTy).Contents (Elt F)) ]

theorem ops_split : (ops : List (HloOp τ sig (Elt F))) = norm1 ++ (layer1 ++ (norm2 ++ (layer2 ++ readout))) := rfl

-- a hundred and four binds re-associated: the rewrite under the chain recurses once per statement
set_option maxRecDepth 4096 in
set_option maxHeartbeats 4000000 in
/-- @main is that straight line: the outlined functions unfolded at their calls, both sides are one chain of steps
    once sequencing is re-associated. -/
theorem main_eq (c : Dev nD) : main (F := F) c = seq ops := by
  simp only [main, fn_var.body, fn_var_0.body, fn_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., binary_bufs_sub .., binary_bufs_sub .., nullary_bufs_sub .., unary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., binary_bufs_sub .., binary_bufs_sub .., nullary_bufs_sub .., unary_bufs_sub .., binary_bufs_sub .., nullary_bufs_sub .., binary_bufs_sub .., binary_bufs_sub .., unary_bufs_sub .., unary_bufs_sub .., binary_bufs_sub ..⟩

/-- The fold over two lines in a row. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-! ## What each stage writes, and so leaves alone -/

abbrev norm1_W : List (Ref sig .tc) := [main_cst, main_v0, main_v1, main_cst_0, main_v2, main_v3, main_c, main_call0.cst.ref, main_call0.v0.ref, main_call0.v1.ref, main_call0.cst_0.ref, main_call0.v2.ref, main_call0.v3.ref, main_call0.v4.ref, main_call0.v5.ref, main_call0.v6.ref, main_call0.v7.ref, main_call0.cst_1.ref, main_call0.v8.ref, main_call0.cst_2.ref, main_call0.v9.ref, main_call0.v10.ref, main_call0.v11.ref, main_call0.v12.ref, main_call0.cst_3.ref, main_call0.v13.ref, main_call0.cst_4.ref, main_call0.call0.v0.ref, main_call0.call0.v1.ref, main_call0.call0.v2.ref, main_v5, main_v6, main_v7, main_v8, main_v9, main_cst_1, main_v10, main_v11, main_v12, main_v13, main_v14, main_v15, main_v16, main_v17]
theorem norm1_writes : (norm1 : List (HloOp τ sig (Elt F))).Forall fun op => op.writes ⊆ (norm1_W.map (Proc.devRef (τ := τ) .tc)).toFinset := by
  simp only [norm1, List.Forall]
  exact ⟨(by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide))⟩
theorem norm1_keep (V : Valuation τ sig (Elt F)) (r : Ref sig .tc) (h : r ∉ norm1_W) :
    after norm1 V (Proc.devRef .tc r) = V (Proc.devRef .tc r) :=
  after_of_writes_sub norm1 V norm1_writes h

abbrev layer1_W : List (Ref sig .tc) := [main_v18, main_v19, main_call1.cst.ref, main_call1.v0.ref, main_call1.v1.ref]
theorem layer1_writes : (layer1 : List (HloOp τ sig (Elt F))).Forall fun op => op.writes ⊆ (layer1_W.map (Proc.devRef (τ := τ) .tc)).toFinset := by
  simp only [layer1, List.Forall]
  exact ⟨(by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide))⟩
theorem layer1_keep (V : Valuation τ sig (Elt F)) (r : Ref sig .tc) (h : r ∉ layer1_W) :
    after layer1 V (Proc.devRef .tc r) = V (Proc.devRef .tc r) :=
  after_of_writes_sub layer1 V layer1_writes h

abbrev norm2_W : List (Ref sig .tc) := [main_cst_2, main_v21, main_v22, main_cst_3, main_v23, main_v24, main_c_4, main_call2.cst.ref, main_call2.v0.ref, main_call2.v1.ref, main_call2.cst_0.ref, main_call2.v2.ref, main_call2.v3.ref, main_call2.v4.ref, main_call2.v5.ref, main_call2.v6.ref, main_call2.v7.ref, main_call2.cst_1.ref, main_call2.v8.ref, main_call2.cst_2.ref, main_call2.v9.ref, main_call2.v10.ref, main_call2.v11.ref, main_call2.v12.ref, main_call2.cst_3.ref, main_call2.v13.ref, main_call2.cst_4.ref, main_call2.call0.v0.ref, main_call2.call0.v1.ref, main_call2.call0.v2.ref, main_v26, main_v27, main_v28, main_v29, main_v30, main_cst_5, main_v31, main_v32, main_v33, main_v34, main_v35, main_v36, main_v37, main_v38]
theorem norm2_writes : (norm2 : List (HloOp τ sig (Elt F))).Forall fun op => op.writes ⊆ (norm2_W.map (Proc.devRef (τ := τ) .tc)).toFinset := by
  simp only [norm2, List.Forall]
  exact ⟨(by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide))⟩
theorem norm2_keep (V : Valuation τ sig (Elt F)) (r : Ref sig .tc) (h : r ∉ norm2_W) :
    after norm2 V (Proc.devRef .tc r) = V (Proc.devRef .tc r) :=
  after_of_writes_sub norm2 V norm2_writes h

abbrev layer2_W : List (Ref sig .tc) := [main_v39, main_v40, main_call3.cst.ref, main_call3.v0.ref, main_call3.v1.ref]
theorem layer2_writes : (layer2 : List (HloOp τ sig (Elt F))).Forall fun op => op.writes ⊆ (layer2_W.map (Proc.devRef (τ := τ) .tc)).toFinset := by
  simp only [layer2, List.Forall]
  exact ⟨(by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide))⟩
theorem layer2_keep (V : Valuation τ sig (Elt F)) (r : Ref sig .tc) (h : r ∉ layer2_W) :
    after layer2 V (Proc.devRef .tc r) = V (Proc.devRef .tc r) :=
  after_of_writes_sub layer2 V layer2_writes h

abbrev readout_W : List (Ref sig .tc) := [main_cst_6, main_v42, main_v43, main_v44, main_v45, main_v46]
theorem readout_writes : (readout : List (HloOp τ sig (Elt F))).Forall fun op => op.writes ⊆ (readout_W.map (Proc.devRef (τ := τ) .tc)).toFinset := by
  simp only [readout, List.Forall]
  exact ⟨(by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide))⟩
theorem readout_keep (V : Valuation τ sig (Elt F)) (r : Ref sig .tc) (h : r ∉ readout_W) :
    after readout V (Proc.devRef .tc r) = V (Proc.devRef .tc r) :=
  after_of_writes_sub readout V readout_writes h

/-! ## What each stage computes -/

set_option maxRecDepth 4096 in
set_option maxHeartbeats 1000000 in
/-- After the stage its result buffer holds the stage's function of the buffers it read: the fold unrolled, each
    operation's result read at its own buffer and passed over at any other. -/
theorem norm1_main_v17 (V : Valuation τ sig (Elt F)) :
    after norm1 V (Proc.devRef .tc main_v17) = lnA (V (Proc.devRef .tc main_arg0)) (V (Proc.devRef .tc main_arg2)) (V (Proc.devRef .tc main_arg3)) := by
  simp only [norm1]
  after_results_simp
  rfl

set_option maxRecDepth 4096 in
set_option maxHeartbeats 1000000 in
/-- After the stage its result buffer holds the stage's function of the buffers it read: the fold unrolled, each
    operation's result read at its own buffer and passed over at any other. -/
theorem layer1_main_v20 (V : Valuation τ sig (Elt F)) :
    after layer1 V (Proc.devRef .tc main_v20) = layerA (V (Proc.devRef .tc main_arg1)) (V (Proc.devRef .tc main_v17)) (V (Proc.devRef .tc main_arg4)) := by
  simp only [layer1]
  after_results_simp
  rfl

set_option maxRecDepth 4096 in
set_option maxHeartbeats 1000000 in
/-- After the stage its result buffer holds the stage's function of the buffers it read: the fold unrolled, each
    operation's result read at its own buffer and passed over at any other. -/
theorem norm2_main_v38 (V : Valuation τ sig (Elt F)) :
    after norm2 V (Proc.devRef .tc main_v38) = lnA (V (Proc.devRef .tc main_v20)) (V (Proc.devRef .tc main_arg5)) (V (Proc.devRef .tc main_arg6)) := by
  simp only [norm2]
  after_results_simp
  rfl

set_option maxRecDepth 4096 in
set_option maxHeartbeats 1000000 in
/-- After the stage its result buffer holds the stage's function of the buffers it read: the fold unrolled, each
    operation's result read at its own buffer and passed over at any other. -/
theorem layer2_main_v41 (V : Valuation τ sig (Elt F)) :
    after layer2 V (Proc.devRef .tc main_v41) = layerA (V (Proc.devRef .tc main_arg1)) (V (Proc.devRef .tc main_v38)) (V (Proc.devRef .tc main_arg7)) := by
  simp only [layer2]
  after_results_simp
  rfl

set_option maxRecDepth 4096 in
set_option maxHeartbeats 1000000 in
/-- After the stage its result buffer holds the stage's function of the buffers it read: the fold unrolled, each
    operation's result read at its own buffer and passed over at any other. -/
theorem readout_main_v46 (V : Valuation τ sig (Elt F)) :
    after readout V (Proc.devRef .tc main_v46) = readA (V (Proc.devRef .tc main_v41)) (V (Proc.devRef .tc main_arg8)) (V (Proc.devRef .tc main_arg9)) := by
  simp only [readout]
  after_results_simp
  rfl

/-! ## The whole line -/

/-- The result buffer after the whole line is `out` of the arguments' contents before it. -/
theorem out_eq (V : Valuation τ sig (Elt F)) :
    after ops V (Proc.devRef .tc main_v46)
      = out (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
  rw [ops_split, after_app, after_app, after_app, after_app, readout_main_v46, layer2_main_v41, norm2_main_v38, layer1_main_v20, norm1_main_v17]
  simp only [layer2_keep _ main_arg1 (by decide),
    layer2_keep _ main_arg4 (by decide),
    layer2_keep _ main_arg5 (by decide),
    layer2_keep _ main_arg6 (by decide),
    layer2_keep _ main_arg7 (by decide),
    layer2_keep _ main_arg8 (by decide),
    layer2_keep _ main_arg9 (by decide),
    norm2_keep _ main_arg1 (by decide),
    norm2_keep _ main_arg4 (by decide),
    norm2_keep _ main_arg5 (by decide),
    norm2_keep _ main_arg6 (by decide),
    norm2_keep _ main_arg7 (by decide),
    norm2_keep _ main_arg8 (by decide),
    norm2_keep _ main_arg9 (by decide),
    layer1_keep _ main_arg1 (by decide),
    layer1_keep _ main_arg4 (by decide),
    layer1_keep _ main_arg5 (by decide),
    layer1_keep _ main_arg6 (by decide),
    layer1_keep _ main_arg7 (by decide),
    layer1_keep _ main_arg8 (by decide),
    layer1_keep _ main_arg9 (by decide),
    norm1_keep _ main_arg1 (by decide),
    norm1_keep _ main_arg4 (by decide),
    norm1_keep _ main_arg5 (by decide),
    norm1_keep _ main_arg6 (by decide),
    norm1_keep _ main_arg7 (by decide),
    norm1_keep _ main_arg8 (by decide),
    norm1_keep _ main_arg9 (by decide)]
  rfl

/-- A buffer none of the five stages writes holds after the whole line what it held before. -/
theorem ops_keep (V : Valuation τ sig (Elt F)) (r : Ref sig .tc) (h1 : r ∉ norm1_W) (h2 : r ∉ layer1_W) (h3 : r ∉ norm2_W)
    (h4 : r ∉ layer2_W) (h5 : r ∉ readout_W) : after ops V (Proc.devRef .tc r) = V (Proc.devRef .tc r) := by
  rw [ops_split, after_app, after_app, after_app, after_app, readout_keep _ r h5, layer2_keep _ r h4, norm2_keep _ r h3,
    layer1_keep _ r h2, norm1_keep _ r h1]

/-- The result of a run from memory `m` on device `c`: `out` of the ten arguments' launch contents. -/
def res (m : (ℓ : Loc nD τ sig) → Buf (Elt F) ℓ) (c : Dev nD) : FVec F S4x128 .f32 :=
  out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))

/-- On every device, for any float values, from any memory with zero counters: every weakly fair execution of @main
    terminates with the result buffer at `out` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v46) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v46).trans (out_eq _),
      (h c main_arg0).trans (ops_keep _ main_arg0 (by decide) (by decide) (by decide) (by decide) (by decide)),
      (h c main_arg1).trans (ops_keep _ main_arg1 (by decide) (by decide) (by decide) (by decide) (by decide)),
      (h c main_arg2).trans (ops_keep _ main_arg2 (by decide) (by decide) (by decide) (by decide) (by decide)),
      (h c main_arg3).trans (ops_keep _ main_arg3 (by decide) (by decide) (by decide) (by decide) (by decide)),
      (h c main_arg4).trans (ops_keep _ main_arg4 (by decide) (by decide) (by decide) (by decide) (by decide)),
      (h c main_arg5).trans (ops_keep _ main_arg5 (by decide) (by decide) (by decide) (by decide) (by decide)),
      (h c main_arg6).trans (ops_keep _ main_arg6 (by decide) (by decide) (by decide) (by decide) (by decide)),
      (h c main_arg7).trans (ops_keep _ main_arg7 (by decide) (by decide) (by decide) (by decide) (by decide)),
      (h c main_arg8).trans (ops_keep _ main_arg8 (by decide) (by decide) (by decide) (by decide) (by decide)),
      (h c main_arg9).trans (ops_keep _ main_arg9 (by decide) (by decide) (by decide) (by decide) (by decide))⟩)
    (run_seq scopedRefs_eq scopedSems_eq defs main (fun _ => ops) main_eq (fun _ => ops_sub) m ρ)

end Cert.ReferenceIdeal.RefRun

end
-- ==== Proof.RefValue.lean ====
/-
  The reference's result read at an entry is the network of the specification.

  Each stage of the reference's run is a function of whole arrays; read at an entry, a host sum over the last axis is
  the sum of a row, a broadcast repeats an entry, a general dot product is a sum of products over the one contracted
  axis, and the pointwise operations act entry by entry. The variance's guard compares the divisor 512 - 0 with zero,
  so its first branch is always the one taken. Batch element by batch element the stages are then the row
  normalisation in its second arrangement, the rectified propagated product, and the read-out.
-/
import proofs.«141913_g27616639713710_cont_9to1_58_35_alg».proof.Proof.RefRun
import proofs.«141913_g27616639713710_cont_9to1_58_35_alg».proof.Proof.Spec
import proofs.«141913_g27616639713710_cont_9to1_58_35_alg».proof.Proof.LibColumn

noncomputable section

namespace Cert.ReferenceIdeal.RefValue

open Cert.ReferenceIdeal Cert.ReferenceIdeal.Gen Idealize.ShloMosaic Idealize.ShloMosaic.ValueIdx Cert.Dense Cert.Net
open scoped BigOperators

/-! ## The words -/

/-- The word 0x44000000 is 512: sign 0, exponent 136, fraction 0, so 2^23 · 2^(136 - 127 - 23). -/
theorem c512_eq : Cert.Net.c512 = ((512 : ℝ) : EReal) := by
  unfold Cert.Net.c512
  simp [Ideal.ofBits, Ideal.ieee]
  rw [← EReal.coe_mul]; congr 1; norm_num

theorem c512_pos : (0 : EReal) < Cert.Net.c512 := by
  rw [c512_eq]
  exact_mod_cast (by norm_num : (0 : ℝ) < 512)

/-! ## Sums and broadcasts read at an entry -/

/-- The host sum over the last axis from the zero word, at (p, r): the sum of the row. -/
theorem reduce_apply (x : FVec Ideal S4x2048x512 .f32) (p : Fin 4) (r : Fin 2048) :
    Host.reduceAdd (F := Ideal) x (constant S_ .f32 0x00000000#32) reducesTo_S4x2048x512_S4x2048_d2 h_S_ (ix2 p r)
      = ∑ k : Fin 512, x (ix3 p r k) := by
  unfold Host.reduceAdd
  rw [Ideal.hostReduceAdd_def, Ideal.hostReduceAdd_single reducesTo_S4x2048x512_S4x2048_d2 (by decide)]
  show Ideal.ofBits .f32 0x00000000#32 + _ = _
  rw [Ideal.ofBits_zero_f32, zero_add]
  refine Finset.sum_congr rfl fun k _ => congrArg x (funext fun a => Fin.ext ?_)
  match a with
  | ⟨0, _⟩ => rfl
  | ⟨1, _⟩ => rfl
  | ⟨2, _⟩ => rfl

/-- A [4,2048] array as a column stack [4,2048,1], at (p, r, q). -/
theorem bcast_col_apply {α : Type} (v : S4x2048.Idx → α) (p : Fin 4) (r : Fin 2048) (q : Fin 1) :
    broadcastInDim S4x2048x1 ![0, 1] bcast_S4x2048_S4x2048x1_0_1 v (ix3 p r q) = v (ix2 p r) :=
  broadcastInDim_apply ![0, 1] _ v (ix3 p r q) (ix2 p r) (fun ax => by
    match ax with
    | ⟨0, _⟩ => rfl
    | ⟨1, _⟩ => rfl)

/-- A column stack [4,2048,1] spread over the 512 columns, at (p, r, c). -/
theorem bcast_spread_apply {α : Type} (v : S4x2048x1.Idx → α) (p : Fin 4) (r : Fin 2048) (c : Fin 512) :
    broadcastInDim S4x2048x512 ![0, 1, 2] bcast_S4x2048x1_S4x2048x512_0_1_2 v (ix3 p r c) = v (ix3 p r (0 : Fin 1)) :=
  broadcastInDim_apply ![0, 1, 2] _ v (ix3 p r c) (ix3 p r (0 : Fin 1)) (fun ax => by
    match ax with
    | ⟨0, _⟩ => rfl
    | ⟨1, _⟩ => rfl
    | ⟨2, _⟩ => rfl)

/-- A vector of 512 laid along the last axis and spread over batches and rows, at (p, r, c). -/
theorem bcast_vec_apply {α : Type} (g : S512.Idx → α) (p : Fin 4) (r : Fin 2048) (c : Fin 512) :
    broadcastInDim S4x2048x512 ![0, 1, 2] bcast_S1x1x512_S4x2048x512_0_1_2 (broadcastInDim S1x1x512 ![2] bcast_S512_S1x1x512_2 g) (ix3 p r c)
      = g (ix1 c) := by
  rw [broadcastInDim_apply ![0, 1, 2] _ _ (ix3 p r c) (ix3 (0 : Fin 1) (0 : Fin 1) c) (fun ax => by
      match ax with
      | ⟨0, _⟩ => rfl
      | ⟨1, _⟩ => rfl
      | ⟨2, _⟩ => rfl),
    broadcastInDim_apply ![2] _ g (ix3 (0 : Fin 1) (0 : Fin 1) c) (ix1 c) (fun ax => by
      match ax with
      | ⟨0, _⟩ => rfl)]

/-- The bias of 128 as a row spread over the four batch rows, at (p, l). -/
theorem bcast_bias_apply {α : Type} (g : S128.Idx → α) (p : Fin 4) (l : Fin 128) :
    broadcastInDim S4x128 ![0, 1] bcast_S1x128_S4x128_0_1 (broadcastInDim S1x128 ![1] bcast_S128_S1x128_1 g) (ix2 p l) = g (ix1 l) := by
  rw [broadcastInDim_apply ![0, 1] _ _ (ix2 p l) (ix2 (0 : Fin 1) l) (fun ax => by
      match ax with
      | ⟨0, _⟩ => rfl
      | ⟨1, _⟩ => rfl),
    broadcastInDim_apply ![1] _ g (ix2 (0 : Fin 1) l) (ix1 l) (fun ax => by
      match ax with
      | ⟨0, _⟩ => rfl)]

/-! ## The three products read at an entry -/

/-- Features times weights: contraction of the last axis with the weights' first. -/
theorem dotW_apply (h : FVec Ideal S4x2048x512 .f32) (w : FVec Ideal S512x512 .f32) (p : Fin 4) (r : Fin 2048) (c : Fin 512) :
    Host.dotGeneral (F := Ideal) dot_S4x2048x512_S512x512_S4x2048x512_2_0_01_1_n_n none h w (ix3 p r c)
      = ∑ k : Fin 512, h (ix3 p r k) * w (ix2 k c) := by
  simp only [Host.dotGeneral]
  rw [Ideal.dotGeneral_apply, ← Equiv.sum_comp (contrEquiv1 dot_S4x2048x512_S512x512_S4x2048x512_2_0_01_1_n_n 512 rfl rfl).symm]
  refine Finset.sum_congr rfl fun k _ => ?_
  have hk := contrEquiv1_symm_val dot_S4x2048x512_S512x512_S4x2048x512_2_0_01_1_n_n 512 rfl rfl k
  have el : dot_S4x2048x512_S512x512_S4x2048x512_2_0_01_1_n_n.lhsIdx (ix3 p r c)
      ((contrEquiv1 dot_S4x2048x512_S512x512_S4x2048x512_2_0_01_1_n_n 512 rfl rfl).symm k) = ix3 p r k :=
    funext fun a => Fin.ext (by
      match a with
      | ⟨0, _⟩ => rfl
      | ⟨1, _⟩ => rfl
      | ⟨2, _⟩ => exact hk)
  have er : dot_S4x2048x512_S512x512_S4x2048x512_2_0_01_1_n_n.rhsIdx (ix3 p r c)
      ((contrEquiv1 dot_S4x2048x512_S512x512_S4x2048x512_2_0_01_1_n_n 512 rfl rfl).symm k) = ix2 k c :=
    funext fun a => Fin.ext (by
      match a with
      | ⟨0, _⟩ => exact hk
      | ⟨1, _⟩ => rfl)
  exact congr (congrArg _ (congrArg h el)) (congrArg w er)

/-- Adjacency times features, batch by batch. -/
theorem dotA_apply (adj : FVec Ideal S4x2048x2048 .f32) (y : FVec Ideal S4x2048x512 .f32) (p : Fin 4) (r : Fin 2048) (c : Fin 512) :
    Host.dotGeneral (F := Ideal) dot_S4x2048x2048_S4x2048x512_S4x2048x512_2_1_1_2_0_0 none adj y (ix3 p r c)
      = ∑ k : Fin 2048, adj (ix3 p r k) * y (ix3 p k c) := by
  simp only [Host.dotGeneral]
  rw [Ideal.dotGeneral_apply, ← Equiv.sum_comp (contrEquiv1 dot_S4x2048x2048_S4x2048x512_S4x2048x512_2_1_1_2_0_0 2048 rfl rfl).symm]
  refine Finset.sum_congr rfl fun k _ => ?_
  have hk := contrEquiv1_symm_val dot_S4x2048x2048_S4x2048x512_S4x2048x512_2_1_1_2_0_0 2048 rfl rfl k
  have el : dot_S4x2048x2048_S4x2048x512_S4x2048x512_2_1_1_2_0_0.lhsIdx (ix3 p r c)
      ((contrEquiv1 dot_S4x2048x2048_S4x2048x512_S4x2048x512_2_1_1_2_0_0 2048 rfl rfl).symm k) = ix3 p r k :=
    funext fun a => Fin.ext (by
      match a with
      | ⟨0, _⟩ => rfl
      | ⟨1, _⟩ => rfl
      | ⟨2, _⟩ => exact hk)
  have er : dot_S4x2048x2048_S4x2048x512_S4x2048x512_2_1_1_2_0_0.rhsIdx (ix3 p r c)
      ((contrEquiv1 dot_S4x2048x2048_S4x2048x512_S4x2048x512_2_1_1_2_0_0 2048 rfl rfl).symm k) = ix3 p k c :=
    funext fun a => Fin.ext (by
      match a with
      | ⟨0, _⟩ => rfl
      | ⟨1, _⟩ => exact hk
      | ⟨2, _⟩ => rfl)
  exact congr (congrArg _ (congrArg adj el)) (congrArg y er)

/-- Row sums times the output matrix. -/
theorem dotO_apply (s : FVec Ideal S4x2048 .f32) (w : FVec Ideal S2048x128 .f32) (p : Fin 4) (l : Fin 128) :
    Host.dotGeneral (F := Ideal) dot_S4x2048_S2048x128_S4x128_1_0_0_1_n_n none s w (ix2 p l)
      = ∑ n : Fin 2048, s (ix2 p n) * w (ix2 n l) := by
  simp only [Host.dotGeneral]
  rw [Ideal.dotGeneral_apply, ← Equiv.sum_comp (contrEquiv1 dot_S4x2048_S2048x128_S4x128_1_0_0_1_n_n 2048 rfl rfl).symm]
  refine Finset.sum_congr rfl fun k _ => ?_
  have hk := contrEquiv1_symm_val dot_S4x2048_S2048x128_S4x128_1_0_0_1_n_n 2048 rfl rfl k
  have el : dot_S4x2048_S2048x128_S4x128_1_0_0_1_n_n.lhsIdx (ix2 p l)
      ((contrEquiv1 dot_S4x2048_S2048x128_S4x128_1_0_0_1_n_n 2048 rfl rfl).symm k) = ix2 p k :=
    funext fun a => Fin.ext (by
      match a with
      | ⟨0, _⟩ => rfl
      | ⟨1, _⟩ => exact hk)
  have er : dot_S4x2048_S2048x128_S4x128_1_0_0_1_n_n.rhsIdx (ix2 p l)
      ((contrEquiv1 dot_S4x2048_S2048x128_S4x128_1_0_0_1_n_n 2048 rfl rfl).symm k) = ix2 k l :=
    funext fun a => Fin.ext (by
      match a with
      | ⟨0, _⟩ => exact hk
      | ⟨1, _⟩ => rfl)
  exact congr (congrArg _ (congrArg s el)) (congrArg w er)

/-! ## The host's quotient and root, entry by entry -/

theorem hdivf_apply {s : Shape} {φ : FTy} (a b : FVec Ideal s φ) (i : s.Idx) : Host.divf a b i = Ideal.div (a i) (b i) := rfl
theorem hsqrt_apply {s : Shape} {φ : FTy} (a : FVec Ideal s φ) (i : s.Idx) : Host.sqrt a i = Ideal.sqrt (a i) := rfl

/-! ## The row normalisation -/

open Cert.ReferenceIdeal.RefRun

/-- The mean column at row r of batch p is the row's mean as a quotient by 512. -/
theorem meanA_apply (x : FVec Ideal S4x2048x512 .f32) (p : Fin 4) (r : Fin 2048) (q : Fin 1) :
    meanA (F := Ideal) x (ix3 p r q) = meanR (slab x p) r := by
  unfold meanA
  rw [hdivf_apply, bcast_col_apply, reduce_apply, Cert.Layout.bcast_scalar_apply]
  rfl

/-- The variance's divisor is 512: the integer zero converts to the real zero. -/
theorem divisorA_eq : divisorA (F := Ideal) ix0 = Cert.Net.c512 := by
  have h0 : (((0#32 : BitVec 32).toInt : ℝ) : EReal) = 0 := by simp
  show Cert.Net.c512 - (((0#32 : BitVec 32).toInt : ℝ) : EReal) = Cert.Net.c512
  rw [h0, sub_zero]

/-- So the guard of the variance, divisor greater than zero, holds. -/
theorem guard_eq : cmpf (F := Ideal) .ogt (divisorA (F := Ideal)) (constant S_ .f32 0x00000000#32) ix0 = 1#1 := by
  show Ideal.cmp .ogt (divisorA (F := Ideal) ix0) (Ideal.ofBits .f32 0x00000000#32) = 1#1
  rw [divisorA_eq, Ideal.ofBits_zero_f32]
  show BitVec.ofBool (decide ((0 : EReal) < Cert.Net.c512)) = 1#1
  rw [decide_eq_true c512_pos]
  rfl

/-- The deviation from the row mean at (p, r, k). -/
theorem dev_apply (x : FVec Ideal S4x2048x512 .f32) (p : Fin 4) (r : Fin 2048) (k : Fin 512) :
    subf x (broadcastInDim S4x2048x512 ![0, 1, 2] bcast_S4x2048x1_S4x2048x512_0_1_2 (meanA (F := Ideal) x)) (ix3 p r k)
      = x (ix3 p r k) - meanR (slab x p) r := by
  rw [subf_apply, bcast_spread_apply, meanA_apply]

/-- The variance column at row r of batch p is the row's mean squared deviation. -/
theorem varA_apply (x : FVec Ideal S4x2048x512 .f32) (p : Fin 4) (r : Fin 2048) (q : Fin 1) :
    varA (F := Ideal) x (ix3 p r q) = varR (slab x p) r := by
  unfold varA
  rw [select_apply, Cert.Layout.bcast_scalar_apply (cmpf (F := Ideal) .ogt (divisorA (F := Ideal)) (constant S_ .f32 0x00000000#32)),
    guard_eq, select_one, hdivf_apply, bcast_col_apply, reduce_apply, Cert.Layout.bcast_scalar_apply, divisorA_eq]
  unfold varR
  refine congrArg (fun t => Ideal.div t Cert.Net.c512) (Finset.sum_congr rfl fun k _ => ?_)
  rw [mulf_apply, dev_apply]
  rfl

/-- The normalised stack at (p, r, c) is the second arrangement of the row normalisation of batch p at (r, c). -/
theorem lnA_apply (x : FVec Ideal S4x2048x512 .f32) (g b : FVec Ideal S512 .f32) (p : Fin 4) (r : Fin 2048) (c : Fin 512) :
    lnA (F := Ideal) x g b (ix3 p r c) = lnR (slab x p) (vec g) (vec b) (ix2 r c) := by
  unfold lnA
  rw [addf_apply, hdivf_apply, mulf_apply, dev_apply, bcast_vec_apply, bcast_vec_apply, bcast_spread_apply, hsqrt_apply, addf_apply,
    varA_apply, Cert.Layout.bcast_scalar_apply, constant_apply]
  rfl

theorem lnA_slab (x : FVec Ideal S4x2048x512 .f32) (g b : FVec Ideal S512 .f32) (p : Fin 4) :
    slab (lnA (F := Ideal) x g b) p = lnR (slab x p) (vec g) (vec b) := by
  funext i
  obtain ⟨r, c, rfl⟩ : ∃ (r : Fin 2048) (c : Fin 512), i = ix2 r c := ⟨i 0, i 1, eq_ix2 i⟩
  exact lnA_apply x g b p r c

/-! ## A layer, and the read-out -/

/-- One layer at (p, r, c): the rectified propagation of batch p's product with the weights. -/
theorem layerA_apply (adj : FVec Ideal S4x2048x2048 .f32) (h : FVec Ideal S4x2048x512 .f32) (w : FVec Ideal S512x512 .f32)
    (p : Fin 4) (r : Fin 2048) (c : Fin 512) :
    layerA (F := Ideal) adj h w (ix3 p r c) = relu (mm (slab adj p) (mm (slab h p) w)) (ix2 r c) := by
  unfold layerA
  rw [maximumf_apply, dotA_apply, Cert.Layout.bcast_scalar_apply, constant_apply, Ideal.ofBits_zero_f32]
  refine congrArg (fun t => max t (0 : EReal)) (Finset.sum_congr rfl fun k _ => ?_)
  rw [dotW_apply]
  rfl

theorem layerA_slab (adj : FVec Ideal S4x2048x2048 .f32) (h : FVec Ideal S4x2048x512 .f32) (w : FVec Ideal S512x512 .f32) (p : Fin 4) :
    slab (layerA (F := Ideal) adj h w) p = relu (mm (slab adj p) (mm (slab h p) w)) := by
  funext i
  obtain ⟨r, c, rfl⟩ : ∃ (r : Fin 2048) (c : Fin 512), i = ix2 r c := ⟨i 0, i 1, eq_ix2 i⟩
  exact layerA_apply adj h w p r c

/-- The read-out at (p, l): the row sums of batch p mapped to label l, plus the bias. -/
theorem readA_apply (h : FVec Ideal S4x2048x512 .f32) (wout : FVec Ideal S2048x128 .f32) (bout : FVec Ideal S128 .f32)
    (p : Fin 4) (l : Fin 128) :
    readA (F := Ideal) h wout bout (ix2 p l) = readout (slab h p) wout (vec bout) l := by
  unfold readA
  rw [addf_apply, dotO_apply, bcast_bias_apply]
  refine congrArg (fun t => t + bout (ix1 l)) (Finset.sum_congr rfl fun n _ => ?_)
  rw [reduce_apply]
  rfl

/-! ## The whole -/

/-- The reference's result at (b, l) is the network, with the second arrangement of both normalisations, on batch
    element b, at label l. -/
theorem out_apply (a0 : S4x2048x512.Idx → EReal) (a1 : S4x2048x2048.Idx → EReal) (a2 a3 : S512.Idx → EReal)
    (a4 : S512x512.Idx → EReal) (a5 a6 : S512.Idx → EReal) (a7 : S512x512.Idx → EReal) (a8 : S2048x128.Idx → EReal)
    (a9 : S128.Idx → EReal) (b : Fin 4) (l : Fin 128) :
    RefRun.out (F := Ideal) a0 a1 a2 a3 a4 a5 a6 a7 a8 a9 (ix2 b l)
      = Cert.Net.netR (Cert.Net.slab a0 b) (Cert.Net.slab a1 b) (Cert.Net.vec a2) (Cert.Net.vec a3) a4 (Cert.Net.vec a5)
          (Cert.Net.vec a6) a7 a8 (Cert.Net.vec a9) l := by
  unfold RefRun.out
  rw [readA_apply, layerA_slab, lnA_slab, layerA_slab, lnA_slab]
  rfl

end Cert.ReferenceIdeal.RefValue

end
-- ==== Proof.LibFinite.lean ====
/-
  "Every entry is finite", decoded.

  A precondition states it of an array as the conjunction over the array of the test |x| < +∞, the bound being the
  f32 word of +∞. An extended real whose absolute value is below +∞ is neither infinity, so it is a real; and a
  conjunction over an array that holds is every one of its terms.
-/
import proofs.«141913_g27616639713710_cont_9to1_58_35_alg».proof.Proof.LibMatAssoc
import Idealize.ShloMosaic.Lib.ReduceAll
import Idealize.ShloMosaic.Lib.Affine

noncomputable section

namespace Cert.Gcn

open Idealize.ShloMosaic Idealize.ShloMosaic.ValueIdx

/-- An extended real with |x| < +∞ (the test the precondition makes, against the f32 word of +∞) is a real. -/
theorem real_of_abs_lt_inf (x : EReal) (h : Ideal.cmp .olt (max x (-x)) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  unfold Ideal.cmp at h
  have hlt : max x (-x) < ⊤ := by
    by_contra hn
    simp [hn] at h
  rw [max_lt_iff] at hlt
  induction x using EReal.rec with
  | bot => simp at hlt
  | coe r => exact ⟨r, rfl⟩
  | top => simp at hlt

instance : Subsingleton (⟨0, ![]⟩ : Shape).Idx := ⟨fun a b => funext fun d => d.elim0⟩

/-- One input's conjunct: the test holds at every index, so every entry is real. -/
theorem finite_of_all {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (e : Host.reduce IntOp.andi (cmpf .olt (Host.absf x) (broadcastInDim s ![] hb (constant (F := Ideal) ⟨0, ![]⟩ .f32 0x7F800000#32)))
          (constantI ⟨0, ![]⟩ 1 1#1) hr hu ix0 = 1#1) : Finite x := by
  intro i
  have hi := Host.reduce_andi_all _ _ hr hu ix0 e i
  have hi' : Ideal.cmp .olt (max (x i) (-(x i)))
      (broadcastInDim s ![] hb (constant (F := Ideal) ⟨0, ![]⟩ .f32 0x7F800000#32) i) = 1#1 := hi
  rw [broadcastInDim_apply ![] hb _ i ix0 (fun ax => ax.elim0)] at hi'
  exact real_of_abs_lt_inf (x i) hi'

end Cert.Gcn

end
-- ==== Proof.PreFinite.lean ====
/-
  From the precondition to "every entry of every argument is a real number".

  The precondition is the conjunction, over the ten arguments, of the test that every entry x has |x| < +∞.
  A conjunction of bits that is 1 has every conjunct 1; a conjunct is the conjunction over one array of the
  entrywise test, which then holds at every index; and an extended real below +∞ in absolute value is a real.
-/
import proofs.«141913_g27616639713710_cont_9to1_58_35_alg».proof.Pre_finite_inputs
import proofs.«141913_g27616639713710_cont_9to1_58_35_alg».proof.Proof.LibFinite

noncomputable section

namespace Cert.Net

open Idealize.ShloMosaic Idealize.ShloMosaic.ValueIdx Cert.Pre_finite_inputs

/-- Every argument the precondition accepts has only real entries. -/
theorem finite_of_pre [Cert.Pre_finite_inputs.Facts]
    (a0 : FVec Ideal S4x2048x512 .f32) (a1 : FVec Ideal S4x2048x2048 .f32) (a2 a3 : FVec Ideal S512 .f32)
    (a4 : FVec Ideal S512x512 .f32) (a5 a6 : FVec Ideal S512 .f32) (a7 : FVec Ideal S512x512 .f32)
    (a8 : FVec Ideal S2048x128 .f32) (a9 : FVec Ideal S128 .f32)
    (h : Cert.Pre_finite_inputs.fn (F := Ideal) a0 a1 a2 a3 a4 a5 a6 a7 a8 a9 = fun _ => 1#1) :
    Cert.Gcn.Finite a0 ∧ Cert.Gcn.Finite a1 ∧ Cert.Gcn.Finite a2 ∧ Cert.Gcn.Finite a3 ∧ Cert.Gcn.Finite a4 ∧
      Cert.Gcn.Finite a5 ∧ Cert.Gcn.Finite a6 ∧ Cert.Gcn.Finite a7 ∧ Cert.Gcn.Finite a8 ∧ Cert.Gcn.Finite a9 := by
  have h0 := congrFun h ValueIdx.ix0
  dsimp only [fn, fn_part1, fn_part2, andi] at h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨Cert.Gcn.finite_of_all a0 _ _ _ e0, Cert.Gcn.finite_of_all a1 _ _ _ e1, Cert.Gcn.finite_of_all a2 _ _ _ e2,
    Cert.Gcn.finite_of_all a3 _ _ _ e3, Cert.Gcn.finite_of_all a4 _ _ _ e4, Cert.Gcn.finite_of_all a5 _ _ _ e5,
    Cert.Gcn.finite_of_all a6 _ _ _ e6, Cert.Gcn.finite_of_all a7 _ _ _ e7, Cert.Gcn.finite_of_all a8 _ _ _ e8,
    Cert.Gcn.finite_of_all a9 _ _ _ e9⟩

end Cert.Net

end
-- ==== Proof.Assembly.lean ====
/-
  The two idealized programs end with equal results.

  Per batch element b and label l the kernel's result is the network `netK` of the batch element's features and
  adjacency (the first arrangement of the row normalisation: mean and mean of squares as products with 1/512, the
  reciprocal root a factor), read off its run: the reshape after the region of the output array, whose block b is
  what the slab-1 point of batch element b wrote.  The reference's result is `netR` of the same arrays (means as
  quotients by 512, the mean squared deviation, the quotient by the root).  Every entry of every argument is real by
  the precondition, the rows have 512 entries, and then the two arrangements are one function.
-/
import proofs.«141913_g27616639713710_cont_9to1_58_35_alg».proof.Defs
import proofs.«141913_g27616639713710_cont_9to1_58_35_alg».proof.Proof.Ends
import proofs.«141913_g27616639713710_cont_9to1_58_35_alg».proof.Proof.KernelValue
import proofs.«141913_g27616639713710_cont_9to1_58_35_alg».proof.Proof.RefRun
import proofs.«141913_g27616639713710_cont_9to1_58_35_alg».proof.Proof.RefValue
import proofs.«141913_g27616639713710_cont_9to1_58_35_alg».proof.Proof.SpecLaws
import proofs.«141913_g27616639713710_cont_9to1_58_35_alg».proof.Proof.PreFinite
import proofs.«141913_g27616639713710_cont_9to1_58_35_alg».proof.Proof.Gen.KernelIdeal
import proofs.«141913_g27616639713710_cont_9to1_58_35_alg».proof.Proof.Gen.ReferenceIdeal
import proofs.«141913_g27616639713710_cont_9to1_58_35_alg».proof.Proof.Gen.Pre_finite_inputs

set_option maxRecDepth 16384

noncomputable section

namespace Cert.Proof.Bridge

open Idealize.ShloMosaic Idealize.ShloMosaic.TcCoe Idealize.SL.Sem Idealize.ShloMosaic.ValueIdx
open Cert.Net Cert.Dense

/-- The common result, from the ten argument arrays: the network of each batch element, second arrangement. -/
def result (a0 : (⟨3, ![4, 2048, 512]⟩ : Shape).Idx → EReal) (a1 : (⟨3, ![4, 2048, 2048]⟩ : Shape).Idx → EReal)
    (a2 a3 : (⟨1, ![512]⟩ : Shape).Idx → EReal) (a4 : Mat 512 512) (a5 a6 : (⟨1, ![512]⟩ : Shape).Idx → EReal) (a7 : Mat 512 512)
    (a8 : Mat 2048 128) (a9 : (⟨1, ![128]⟩ : Shape).Idx → EReal) : (⟨2, ![4, 128]⟩ : Shape).Idx → EReal :=
  fun i => netR (slab a0 (i 0)) (slab a1 (i 0)) (vec a2) (vec a3) a4 (vec a5) (vec a6) a7 a8 (vec a9) (i 1)

theorem slab_finite {B M C : ℕ} (X : (⟨3, ![B, M, C]⟩ : Shape).Idx → EReal) (h : Cert.Gcn.Finite X) (b : Fin B) :
    Cert.Gcn.Finite (slab X b) := fun i => h _

theorem vec_real {C : ℕ} (x : (⟨1, ![C]⟩ : Shape).Idx → EReal) (h : Cert.Gcn.Finite x) : RealFn (vec x) := fun c => h _

/-- The kernel's result is the common result, under the precondition. -/
theorem kernel_result [hP : Cert.Pre_finite_inputs.Facts] (m : (ℓ : Loc Cert.KernelIdeal.nD Cert.KernelIdeal.τ Cert.KernelIdeal.sig) → Buf (Elt Ideal) ℓ)
    (c : Dev Cert.KernelIdeal.nD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) = fun _ => 1#1) :
    Pipeline.afterTail₀ Cert.KernelIdeal.cfgs (Cert.KernelIdeal.Body.dats m) 0 (Cert.KernelIdeal.Gen.V0 m) [Cert.KernelIdeal.Gen.hostOps1] c Cert.KernelIdeal.main_v0
      = result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) := by
  obtain ⟨h0, h1, h2, h3, h4, h5, h6, h7, h8, h9⟩ := finite_of_pre _ _ _ _ _ _ _ _ _ _ hpre
  funext i
  obtain ⟨b, l, rfl⟩ : ∃ (b : Fin 4) (l : Fin 128), i = ix2 b l := ⟨i 0, i 1, eq_ix2 i⟩
  refine (Cert.KernelIdeal.Body.tail m c b l).trans ?_
  refine (Cert.KernelIdeal.Body.out_value m c b l).trans ?_
  exact congrFun (netK_eq_netR _ _ _ _ _ _ _ _ _ _ (slab_finite _ h0 b) (slab_finite _ h1 b) (vec_real _ h2) (vec_real _ h3) h4
    (vec_real _ h5) (vec_real _ h6)) l

/-- The reference's result is the common result. -/
theorem reference_result (m' : (ℓ : Loc Cert.ReferenceIdeal.nD Cert.ReferenceIdeal.τ Cert.ReferenceIdeal.sig) → Buf (Elt Ideal) ℓ) (c : Dev Cert.ReferenceIdeal.nD) :
    Cert.ReferenceIdeal.RefRun.res (F := Ideal) m' c = result (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) := by
  funext i
  obtain ⟨b, l, rfl⟩ : ∃ (b : Fin 4) (l : Fin 128), i = ix2 b l := ⟨i 0, i 1, eq_ix2 i⟩
  exact Cert.ReferenceIdeal.RefValue.out_apply _ _ _ _ _ _ _ _ _ _ b l

end Cert.Proof.Bridge

end
-- ==== Proof.lean ====
/-
  A two-layer graph convolution with row normalisation, as one fused kernel against the plain array program.

  For each of 4 batch elements, with features v (2048 nodes x 512), adjacency adj (2048 x 2048), scales and shifts
  g1 b1 g2 b2, weights W1 W2 (512 x 512), a readout Wout (2048 x 128) and bias bout:
      h1  = relu (adj * (LN(v; g1, b1) * W1)),   h2 = relu (adj * (LN(h1; g2, b2) * W2)),
      out = (row sums of h2) * Wout + bout,
  LN the row normalisation (x - mean) / sqrt (var + eps) * g + b.  The kernel runs a grid of (batch element, slab of
  1024 adjacency rows): the slab-0 point computes the first layer's support for all rows into a scratch buffer, both
  points compute their slab's rows of the second layer's support, and the slab-1 point propagates the whole second
  layer and writes the batch element's output; it computes the variance as the mean of squares less the square of the
  mean and multiplies by the reciprocal root.  The reference normalises by quotients and the mean squared deviation.

  The three frames: the kernel's body is run once per control case with every scratch buffer named (at any float
  instance: used at the word level and at the extended reals); the reference's run is written out operation by
  operation.  The idealization rewrote nothing.  The two results agree because, the inputs being finite, every
  intermediate value is a real number and the two arrangements of the normalisation are one function of reals.
-/
import proofs.«141913_g27616639713710_cont_9to1_58_35_alg».proof.Defs
import proofs.«141913_g27616639713710_cont_9to1_58_35_alg».proof.Proof.Gen.Kernel
import proofs.«141913_g27616639713710_cont_9to1_58_35_alg».proof.Proof.Gen.KernelIdeal
import proofs.«141913_g27616639713710_cont_9to1_58_35_alg».proof.Proof.Gen.ReferenceIdeal
import proofs.«141913_g27616639713710_cont_9to1_58_35_alg».proof.Proof.Gen.Pre_finite_inputs
import proofs.«141913_g27616639713710_cont_9to1_58_35_alg».proof.Proof.KRun
import proofs.«141913_g27616639713710_cont_9to1_58_35_alg».proof.Proof.WKRun
import proofs.«141913_g27616639713710_cont_9to1_58_35_alg».proof.Proof.Assembly
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Body.frame m ρ

theorem frame_ki : Cert.frame_KernelIdeal := fun m ρ _ => Cert.KernelIdeal.Body.frame m ρ

theorem frame_ri : Cert.frame_ReferenceIdeal := fun m ρ _ =>
  (θ_run Cert.ReferenceIdeal.defs _ _).mono (fun _ h c => (h c).2) (Cert.ReferenceIdeal.RefRun.run (F := Ideal) m ρ)

/-- Both runs end at the common result of the argument arrays, which agree. -/
theorem algebraic : Cert.algebraic_KernelIdeal_ReferenceIdeal := by
  intro m ρ m' ρ' hpre hagree
  refine ⟨_, (θ_run Cert.KernelIdeal.defs _ _).mono
    (fun r h c => ⟨(h c).1.trans (Bridge.kernel_result m c (hpre c)), (h c).2⟩) (Cert.KernelIdeal.Body.run_named m ρ), ?_⟩
  refine (θ_run Cert.ReferenceIdeal.defs _ _).mono (fun r h c => ⟨(h c).1.trans ?_, (h c).2⟩)
    (Cert.ReferenceIdeal.RefRun.run (F := Ideal) m' ρ')
  rw [Bridge.reference_result m' c, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
